-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128x1 : Shape := ⟨2, ![128, 1]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg4 : FVec F S128x1 .f32) (main_arg5 : FVec F S128x1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x1 .f32 := Host.absf main_arg4
  let main_cst_6 : FVec F S_ .f32 := constant S_ .f32 0x7F800000#32
  let main_v20 : FVec F S128x1 .f32 := broadcastInDim S128x1 ![] bcast_S_S128x1 main_cst_6
  let main_v21 : IVec S128x1 1 := cmpf .olt main_v19 main_v20
  let main_c_7 : IVec S_ 1 := constantI S_ 1 1#1
  let main_v22 : IVec S_ 1 := (fun x v => Host.reduce IntOp.andi x v reducesTo_S128x1_S_d0_1 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  main_v28

def fn {F : FTy → Type} [FloatOps F] (main_arg0 : FVec F S100000x128 .f32) (main_arg1 : FVec F S128x128 .f32) (main_arg2 : FVec F S128x128 .f32) (main_arg3 : FVec F S128x128 .f32) (main_arg4 : FVec F S128x1 .f32) (main_arg5 : FVec F S128x1 .f32) (main_arg6 : IVec S1600000 32) (main_arg7 : IVec S1600000 32) (main_arg8 : IVec S1600000 32) (main_arg9 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_v13 main_v16
-- ==== Kernel.lean ====
abbrev S100000x128 : Shape := ⟨2, ![100000, 128]⟩
abbrev S128x128 : Shape := ⟨2, ![128, 128]⟩
abbrev S128x1 : Shape := ⟨2, ![128, 1]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S4000x1 : Shape := ⟨2, ![4000, 1]⟩
abbrev S1600000x128 : Shape := ⟨2, ![1600000, 128]⟩
abbrev S128x126 : Shape := ⟨2, ![128, 126]⟩
abbrev S128x256 : Shape := ⟨2, ![128, 256]⟩
abbrev S100000x256 : Shape := ⟨2, ![100000, 256]⟩
abbrev S4000x256 : Shape := ⟨2, ![4000, 256]⟩
abbrev S512x128 : Shape := ⟨2, ![512, 128]⟩
abbrev S512x1 : Shape := ⟨2, ![512, 1]⟩
abbrev S512 : Shape := ⟨1, ![512]⟩
abbrev S1x1600000 : Shape := ⟨2, ![1, 1600000]⟩
abbrev S6x1600000 : Shape := ⟨2, ![6, 1600000]⟩

abbrev nBuf : Space → Nat
  | .hbm => 166
  | .vmem => 53
  | .smem => 0
  | _ => 0

abbrev hbmTy0_0 (i : Nat) : BufTy := match i % 128 with
  | 0 => ⟨S100000x128, .f32⟩
  | 1 => ⟨S128x128, .f32⟩
  | 2 => ⟨S128x128, .f32⟩
  | 3 => ⟨S128x128, .f32⟩
  | 4 => ⟨S128x1, .f32⟩
  | 5 => ⟨S128x1, .f32⟩
  | 6 => ⟨S1600000, .i32⟩
  | 7 => ⟨S1600000, .i32⟩
  | 8 => ⟨S1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S100000x1, .f32⟩
  | 20 => ⟨S100000, .f32⟩
  | 21 => ⟨S100000x1, .f32⟩
  | 22 => ⟨S100000x128, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S_, .f32⟩
  | 33 => ⟨S100000x128, .f32⟩
  | 34 => ⟨S1600000x1, .i32⟩
  | 35 => ⟨S100000x128, .f32⟩
  | 36 => ⟨S100000x128, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000x128, .f32⟩
  | 46 => ⟨S_, .f32⟩
  | 47 => ⟨S100000x128, .f32⟩
  | 48 => ⟨S1600000x1, .i32⟩
  | 49 => ⟨S100000x128, .f32⟩
  | 50 => ⟨S_, .f32⟩
  | 51 => ⟨S128x126, .f32⟩
  | 52 => ⟨S128x256, .f32⟩
  | 53 => ⟨S100000x256, .f32⟩
  | 54 => ⟨S100000x128, .f32⟩
  | 55 => ⟨S100000x1, .f32⟩
  | 56 => ⟨S100000x1, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x128, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1600000x128, .f32⟩
  | 75 => ⟨S_, .i32⟩
  | 76 => ⟨S1600000, .i32⟩
  | 77 => ⟨S1600000, .i1⟩
  | 78 => ⟨S_, .i32⟩
  | 79 => ⟨S1600000, .i32⟩
  | 80 => ⟨S1600000, .i32⟩
  | 81 => ⟨S1600000, .i32⟩
  | 82 => ⟨S1600000x1, .i32⟩
  | 83 => ⟨S1600000x128, .f32⟩
  | 84 => ⟨S_, .i32⟩
  | 85 => ⟨S1600000, .i32⟩
  | 86 => ⟨S1600000, .i1⟩
  | 87 => ⟨S_, .i32⟩
  | 88 => ⟨S1600000, .i32⟩
  | 89 => ⟨S1600000, .i32⟩
  | 90 => ⟨S1600000, .i32⟩
  | 91 => ⟨S1600000x1, .i32⟩
  | 92 => ⟨S1600000x1, .f32⟩
  | 93 => ⟨S_, .i32⟩
  | 94 => ⟨S1600000, .i32⟩
  | 95 => ⟨S1600000, .i1⟩
  | 96 => ⟨S_, .i32⟩
  | 97 => ⟨S1600000, .i32⟩
  | 98 => ⟨S1600000, .i32⟩
  | 99 => ⟨S1600000, .i32⟩
  | 100 => ⟨S1600000x1, .i32⟩
  | 101 => ⟨S1600000x1, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000x1, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000x1, .f32⟩
  | 120 => ⟨S_, .i32⟩
  | 121 => ⟨S1600000, .i32⟩
  | 122 => ⟨S1600000, .i1⟩
  | 123 => ⟨S_, .i32⟩
  | 124 => ⟨S1600000, .i32⟩
  | 125 => ⟨S1600000, .i32⟩
  | 126 => ⟨S1600000, .i32⟩
  | 127 => ⟨S1600000x1, .i32⟩
  | _ => ⟨S100000x128, .f32⟩

abbrev hbmTy0_1 (i : Nat) : BufTy := match i % 128 with
  | 0 => ⟨S1600000x1, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x1, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x1, .f32⟩
  | 19 => ⟨S1600000x1, .f32⟩
  | 20 => ⟨S1600000x1, .f32⟩
  | 21 => ⟨S1600000x1, .f32⟩
  | 22 => ⟨S1600000x1, .f32⟩
  | 23 => ⟨S1600000x1, .f32⟩
  | 24 => ⟨S1600000x1, .f32⟩
  | 25 => ⟨S1600000, .f32⟩
  | 26 => ⟨S1600000, .f32⟩
  | 27 => ⟨S1600000, .f32⟩
  | 28 => ⟨S1600000, .f32⟩
  | 29 => ⟨S1600000, .f32⟩
  | 30 => ⟨S1600000, .f32⟩
  | 31 => ⟨S1x1600000, .f32⟩
  | 32 => ⟨S1x1600000, .f32⟩
  | 33 => ⟨S1x1600000, .f32⟩
  | 34 => ⟨S1x1600000, .f32⟩
  | 35 => ⟨S1x1600000, .f32⟩
  | 36 => ⟨S1x1600000, .f32⟩
  | 37 => ⟨S6x1600000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S128x128, .f32⟩
  | .local _ .vmem, ⟨5, _⟩ => ⟨S4000x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x1, .f32⟩
  | .local _ .vmem, ⟨10, _⟩ => ⟨S4000x1, .f32⟩
  | .local _ .vmem, ⟨11, _⟩ => ⟨S128x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x1, .f32⟩
  | .local _ .vmem, ⟨17, _⟩ => ⟨S4000x1, .f32⟩
  | .local _ .vmem, ⟨18, _⟩ => ⟨S128x256, .f32⟩
  | .local _ .vmem, ⟨19, _⟩ => ⟨S4000x256, .f32⟩
  | .local _ .vmem, ⟨20, _⟩ => ⟨S4000x256, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x1, .f32⟩
  | .local _ .vmem, ⟨28, _⟩ => ⟨S512x1, .f32⟩
  | .local _ .vmem, ⟨29, _⟩ => ⟨S512x1, .f32⟩
  | .local _ .vmem, ⟨30, _⟩ => ⟨S512x1, .f32⟩
  | .local _ .vmem, ⟨31, _⟩ => ⟨S512x1, .f32⟩
  | .local _ .vmem, ⟨32, _⟩ => ⟨S512x1, .f32⟩
  | .local _ .vmem, ⟨33, _⟩ => ⟨S512x1, .f32⟩
  | .local _ .vmem, ⟨34, _⟩ => ⟨S512x1, .f32⟩
  | .local _ .vmem, ⟨35, _⟩ => ⟨S512x1, .f32⟩
  | .local _ .vmem, ⟨36, _⟩ => ⟨S512x1, .f32⟩
  | .local _ .vmem, ⟨37, _⟩ => ⟨S512x1, .f32⟩
  | .local _ .vmem, ⟨38, _⟩ => ⟨S512x1, .f32⟩
  | .local _ .vmem, ⟨39, _⟩ => ⟨S512x1, .f32⟩
  | .local _ .vmem, ⟨40, _⟩ => ⟨S512x1, .f32⟩
  | .local _ .vmem, ⟨41, _⟩ => ⟨S512x1, .f32⟩
  | .local _ .vmem, ⟨42, _⟩ => ⟨S512x1, .f32⟩
  | .local _ .vmem, ⟨43, _⟩ => ⟨S512x1, .f32⟩
  | .local _ .vmem, ⟨44, _⟩ => ⟨S512x1, .f32⟩
  | .local _ .vmem, ⟨45, _⟩ => ⟨S512x1, .f32⟩
  | .local _ .vmem, ⟨46, _⟩ => ⟨S512x1, .f32⟩
  | .local _ .vmem, ⟨47, _⟩ => ⟨S512x1, .f32⟩
  | .local _ .vmem, ⟨48, _⟩ => ⟨S512x1, .f32⟩
  | .local _ .vmem, ⟨49, _⟩ => ⟨S512x1, .f32⟩
  | .local _ .vmem, ⟨50, _⟩ => ⟨S512x1, .f32⟩
  | .local _ .vmem, ⟨51, _⟩ => ⟨S512x1, .f32⟩
  | .local _ .vmem, ⟨52, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_c_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_6 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_c_8 : Ref sig .tc := ⟨.hbm, 57, rfl⟩
abbrev main_v37 : Ref sig .tc := ⟨.hbm, 58, rfl⟩
abbrev main_v38 : Ref sig .tc := ⟨.hbm, 59, rfl⟩
abbrev main_c_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_10 : Ref sig .tc := ⟨.hbm, 66, rfl⟩
abbrev main_v44 : Ref sig .tc := ⟨.hbm, 67, rfl⟩
abbrev main_v45 : Ref sig .tc := ⟨.hbm, 68, rfl⟩
abbrev main_c_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_12 : Ref sig .tc := ⟨.hbm, 75, rfl⟩
abbrev main_v51 : Ref sig .tc := ⟨.hbm, 76, rfl⟩
abbrev main_v52 : Ref sig .tc := ⟨.hbm, 77, rfl⟩
abbrev main_c_13 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_14 : Ref sig .tc := ⟨.hbm, 84, rfl⟩
abbrev main_v58 : Ref sig .tc := ⟨.hbm, 85, rfl⟩
abbrev main_v59 : Ref sig .tc := ⟨.hbm, 86, rfl⟩
abbrev main_c_15 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_c_16 : Ref sig .tc := ⟨.hbm, 93, rfl⟩
abbrev main_v65 : Ref sig .tc := ⟨.hbm, 94, rfl⟩
abbrev main_v66 : Ref sig .tc := ⟨.hbm, 95, rfl⟩
abbrev main_c_17 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_c_18 : Ref sig .tc := ⟨.hbm, 102, rfl⟩
abbrev main_v72 : Ref sig .tc := ⟨.hbm, 103, rfl⟩
abbrev main_v73 : Ref sig .tc := ⟨.hbm, 104, rfl⟩
abbrev main_c_19 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_20 : Ref sig .tc := ⟨.hbm, 111, rfl⟩
abbrev main_v79 : Ref sig .tc := ⟨.hbm, 112, rfl⟩
abbrev main_v80 : Ref sig .tc := ⟨.hbm, 113, rfl⟩
abbrev main_c_21 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_22 : Ref sig .tc := ⟨.hbm, 120, rfl⟩
abbrev main_v86 : Ref sig .tc := ⟨.hbm, 121, rfl⟩
abbrev main_v87 : Ref sig .tc := ⟨.hbm, 122, rfl⟩
abbrev main_c_23 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_c_24 : Ref sig .tc := ⟨.hbm, 129, rfl⟩
abbrev main_v93 : Ref sig .tc := ⟨.hbm, 130, rfl⟩
abbrev main_v94 : Ref sig .tc := ⟨.hbm, 131, rfl⟩
abbrev main_c_25 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_c_26 : Ref sig .tc := ⟨.hbm, 138, rfl⟩
abbrev main_v100 : Ref sig .tc := ⟨.hbm, 139, rfl⟩
abbrev main_v101 : Ref sig .tc := ⟨.hbm, 140, rfl⟩
abbrev main_c_27 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107_0 : Ref sig .tc := ⟨.hbm, 147, rfl⟩
abbrev main_v107_1 : Ref sig .tc := ⟨.hbm, 148, rfl⟩
abbrev main_v107_2 : Ref sig .tc := ⟨.hbm, 149, rfl⟩
abbrev main_v107_3 : Ref sig .tc := ⟨.hbm, 150, rfl⟩
abbrev main_v107_4 : Ref sig .tc := ⟨.hbm, 151, rfl⟩
abbrev main_v107_5 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg2_1 : Ref sig .tc := ⟨.vmem, 26, rfl⟩
abbrev cc3_stg3_0 : Ref sig .tc := ⟨.vmem, 27, rfl⟩
abbrev cc3_stg3_1 : Ref sig .tc := ⟨.vmem, 28, rfl⟩
abbrev cc3_stg4_0 : Ref sig .tc := ⟨.vmem, 29, rfl⟩
abbrev cc3_stg4_1 : Ref sig .tc := ⟨.vmem, 30, rfl⟩
abbrev cc3_stg5_0 : Ref sig .tc := ⟨.vmem, 31, rfl⟩
abbrev cc3_stg5_1 : Ref sig .tc := ⟨.vmem, 32, rfl⟩
abbrev cc3_stg6_0 : Ref sig .tc := ⟨.vmem, 33, rfl⟩
abbrev cc3_stg6_1 : Ref sig .tc := ⟨.vmem, 34, rfl⟩
abbrev cc3_stg7_0 : Ref sig .tc := ⟨.vmem, 35, rfl⟩
abbrev cc3_stg7_1 : Ref sig .tc := ⟨.vmem, 36, rfl⟩
abbrev cc3_stg8_0 : Ref sig .tc := ⟨.vmem, 37, rfl⟩
abbrev cc3_stg8_1 : Ref sig .tc := ⟨.vmem, 38, rfl⟩
abbrev cc3_stg9_0 : Ref sig .tc := ⟨.vmem, 39, rfl⟩
abbrev cc3_stg9_1 : Ref sig .tc := ⟨.vmem, 40, rfl⟩
abbrev cc3_stg10_0 : Ref sig .tc := ⟨.vmem, 41, rfl⟩
abbrev cc3_stg10_1 : Ref sig .tc := ⟨.vmem, 42, rfl⟩
abbrev cc3_stg11_0 : Ref sig .tc := ⟨.vmem, 43, rfl⟩
abbrev cc3_stg11_1 : Ref sig .tc := ⟨.vmem, 44, rfl⟩
abbrev cc3_stg12_0 : Ref sig .tc := ⟨.vmem, 45, rfl⟩
abbrev cc3_stg12_1 : Ref sig .tc := ⟨.vmem, 46, rfl⟩
abbrev cc3_stg13_0 : Ref sig .tc := ⟨.vmem, 47, rfl⟩
abbrev cc3_stg13_1 : Ref sig .tc := ⟨.vmem, 48, rfl⟩
abbrev cc3_stg14_0 : Ref sig .tc := ⟨.vmem, 49, rfl⟩
abbrev cc3_stg14_1 : Ref sig .tc := ⟨.vmem, 50, rfl⟩
abbrev cc3_stg15_0 : Ref sig .tc := ⟨.vmem, 51, rfl⟩
abbrev cc3_stg15_1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem2_1 : DmaSem sig := 26
abbrev cc3_sem3_0 : DmaSem sig := 27
abbrev cc3_sem3_1 : DmaSem sig := 28
abbrev cc3_sem4_0 : DmaSem sig := 29
abbrev cc3_sem4_1 : DmaSem sig := 30
abbrev cc3_sem5_0 : DmaSem sig := 31
abbrev cc3_sem5_1 : DmaSem sig := 32
abbrev cc3_sem6_0 : DmaSem sig := 33
abbrev cc3_sem6_1 : DmaSem sig := 34
abbrev cc3_sem7_0 : DmaSem sig := 35
abbrev cc3_sem7_1 : DmaSem sig := 36
abbrev cc3_sem8_0 : DmaSem sig := 37
abbrev cc3_sem8_1 : DmaSem sig := 38
abbrev cc3_sem9_0 : DmaSem sig := 39
abbrev cc3_sem9_1 : DmaSem sig := 40
abbrev cc3_sem10_0 : DmaSem sig := 41
abbrev cc3_sem10_1 : DmaSem sig := 42
abbrev cc3_sem11_0 : DmaSem sig := 43
abbrev cc3_sem11_1 : DmaSem sig := 44
abbrev cc3_sem12_0 : DmaSem sig := 45
abbrev cc3_sem12_1 : DmaSem sig := 46
abbrev cc3_sem13_0 : DmaSem sig := 47
abbrev cc3_sem13_1 : DmaSem sig := 48
abbrev cc3_sem14_0 : DmaSem sig := 49
abbrev cc3_sem14_1 : DmaSem sig := 50
abbrev cc3_sem15_0 : DmaSem sig := 51
abbrev cc3_sem15_1 : DmaSem sig := 52

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![3125], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_11 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_13 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_14 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_15 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S512x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S512x1 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S512x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S512x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S512x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S512x1 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S512x1 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev stage3_10 : Fin 2 → Memref sig .tc .vmem S512x1 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

abbrev stage3_11 : Fin 2 → Memref sig .tc .vmem S512x1 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev stage3_12 : Fin 2 → Memref sig .tc .vmem S512x1 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev stage3_13 : Fin 2 → Memref sig .tc .vmem S512x1 .f32 := fun | 0 => Memref.whole cc3_stg13_0 | 1 => Memref.whole cc3_stg13_1 | ⟨_ + 2, h⟩ => absurd h (Nat.not_lt.2 (Nat.le_add_left _ _))
abbrev sem3_13 : Fin 2 → DmaSem sig := fun | 0 => cc3_sem13_0 | 1 => cc3_sem13_1 | ⟨_ + 2, h⟩ => absurd h (Nat.not_lt.2 (Nat.le_add_left _ _))
abbrev reads3_13 : Fin grid3.rank → Bool := ![true]

abbrev stage3_14 : Fin 2 → Memref sig .tc .vmem S512x1 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true]

abbrev stage3_15 : Fin 2 → Memref sig .tc .vmem S512x1 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S4000x128_S4000x128_0_0 : ∀ a, (![0, 0] : Fin 2 → Nat) a + S4000x128.size a ≤ S4000x128.size a
  h_S4000x128 : 0 < S4000x128.numel
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S4000x128_S4000x128 : S4000x128.ShapeCasts S4000x128
  bcast_S_S128x126 : S_.BroadcastsInDim S128x126 (![] : Fin 0 → Fin S128x126.rank)
  concatenates_S128x128_S128x1_S128x1_S128x126_S128x256_d1 : Shape.Concatenates [S128x128, S128x1, S128x1, S128x126] S128x256 1
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S4000x256_S4000x256_0_0 : ∀ a, (![0, 0] : Fin 2 → Nat) a + S4000x256.size a ≤ S4000x256.size a
  h_S4000x256 : 0 < S4000x256.numel
  slices_S100000x256_S100000x128_0_0 : S100000x256.Slices ![0, 0] S100000x128
  slices_S100000x256_S100000x1_0_128 : S100000x256.Slices ![0, 128] S100000x1
  slices_S100000x256_S100000x1_0_129 : S100000x256.Slices ![0, 129] S100000x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x128_S512 : S512x128.Reduces [1] S512
  shapeCasts_S512_S512x1 : S512.ShapeCasts S512x1
  broadcasts_S512x1_S512x128 : S512x1.Broadcasts S512x128
  shapeCasts_S1600000x1_S1600000 : S1600000x1.ShapeCasts S1600000
  bcast_S1600000_S1x1600000_1 : S1600000.BroadcastsInDim S1x1600000 (![1] : Fin 1 → Fin S1x1600000.rank)
  concatenates_S1x1600000_S1x1600000_S1x1600000_S1x1600000_S1x1600000_S1x1600000_S6x1600000_d0 : Shape.Concatenates [S1x1600000, S1x1600000, S1x1600000, S1x1600000, S1x1600000, S1x1600000] S6x1600000 0
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x256_S4000x256_1_0_0_1_n_n_wf : DotDims.WF S4000x128 S128x256 S4000x256 [1] [0] [0] [1] [] []
  gather_S100000x1_S1600000x1_S1600000x1_1_0_n_n_0_1_11_wf : GatherDims.WF S100000x1 S1600000x1 S1600000x1 [1] [0] [] [0] [] 1 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x128.size a ≤ S100000x128.size a
  hwx0_3 : ∀ i : grid0.Coords, EltTy.bits .f32 = 32 ∨ (Rect.block (s := S100000x128) S4000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x256.size a ≤ S128x256.size a
  hwx2_2 : ∀ i : grid2.Coords, EltTy.bits .f32 = 32 ∨ (Rect.block (s := S128x256) S128x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x256.size a ≤ S100000x256.size a
  hwx2_3 : ∀ i : grid2.Coords, EltTy.bits .f32 = 32 ∨ (Rect.block (s := S100000x256) S4000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S1600000x128.size a
  hwx3_0 : ∀ i : grid3.Coords, EltTy.bits .f32 = 32 ∨ (Rect.block (s := S1600000x128) S512x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S512x128.size a ≤ S1600000x128.size a
  hwx3_1 : ∀ i : grid3.Coords, EltTy.bits .f32 = 32 ∨ (Rect.block (s := S1600000x128) S512x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S512x128.size a ≤ S1600000x128.size a
  hwx3_2 : ∀ i : grid3.Coords, EltTy.bits .f32 = 32 ∨ (Rect.block (s := S1600000x128) S512x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x1.size a ≤ S1600000x1.size a
  hwx3_3 : ∀ i : grid3.Coords, EltTy.bits .f32 = 32 ∨ (Rect.block (s := S1600000x1) S512x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x1.size a ≤ S1600000x1.size a
  hwx3_4 : ∀ i : grid3.Coords, EltTy.bits .f32 = 32 ∨ (Rect.block (s := S1600000x1) S512x1.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S512x1.size a ≤ S1600000x1.size a
  hwx3_5 : ∀ i : grid3.Coords, EltTy.bits .f32 = 32 ∨ (Rect.block (s := S1600000x1) S512x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S512x1.size a ≤ S1600000x1.size a
  hwx3_6 : ∀ i : grid3.Coords, EltTy.bits .f32 = 32 ∨ (Rect.block (s := S1600000x1) S512x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S512x1.size a ≤ S1600000x1.size a
  hwx3_7 : ∀ i : grid3.Coords, EltTy.bits .f32 = 32 ∨ (Rect.block (s := S1600000x1) S512x1.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S512x1.size a ≤ S1600000x1.size a
  hwx3_8 : ∀ i : grid3.Coords, EltTy.bits .f32 = 32 ∨ (Rect.block (s := S1600000x1) S512x1.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S512x1.size a ≤ S1600000x1.size a
  hwx3_9 : ∀ i : grid3.Coords, EltTy.bits .f32 = 32 ∨ (Rect.block (s := S1600000x1) S512x1.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S512x1.size a ≤ S1600000x1.size a
  hwx3_10 : ∀ i : grid3.Coords, EltTy.bits .f32 = 32 ∨ (Rect.block (s := S1600000x1) S512x1.size (cc3_transform_10 i) (hinb3_10 i)).WholeWords (EltTy.packing .f32)
  hstage3_11 : ∀ j, (stage3_11 j).IsWhole
  nbuf3_11 : grid3.bufCount reads3_11 false = 2
  hreads3_11 : ∀ i i' : grid3.Coords, (∀ a, reads3_11 a = true → i a = i' a) → cc3_transform_11 i = cc3_transform_11 i'
  hinb3_11 : ∀ (i : grid3.Coords) a, (cc3_transform_11 i a + 1) * S512x1.size a ≤ S1600000x1.size a
  hwx3_11 : ∀ i : grid3.Coords, EltTy.bits .f32 = 32 ∨ (Rect.block (s := S1600000x1) S512x1.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S512x1.size a ≤ S1600000x1.size a
  hwx3_12 : ∀ i : grid3.Coords, EltTy.bits .f32 = 32 ∨ (Rect.block (s := S1600000x1) S512x1.size (cc3_transform_12 i) (hinb3_12 i)).WholeWords (EltTy.packing .f32)
  hstage3_13 : ∀ j, (stage3_13 j).IsWhole
  nbuf3_13 : grid3.bufCount reads3_13 false = 2
  hreads3_13 : ∀ i i' : grid3.Coords, (∀ a, reads3_13 a = true → i a = i' a) → cc3_transform_13 i = cc3_transform_13 i'
  hinb3_13 : ∀ (i : grid3.Coords) a, (cc3_transform_13 i a + 1) * S512x1.size a ≤ S1600000x1.size a
  hwx3_13 : ∀ i : grid3.Coords, EltTy.bits .f32 = 32 ∨ (Rect.block (s := S1600000x1) S512x1.size (cc3_transform_13 i) (hinb3_13 i)).WholeWords (EltTy.packing .f32)
  hstage3_14 : ∀ j, (stage3_14 j).IsWhole
  nbuf3_14 : grid3.bufCount reads3_14 false = 2
  hreads3_14 : ∀ i i' : grid3.Coords, (∀ a, reads3_14 a = true → i a = i' a) → cc3_transform_14 i = cc3_transform_14 i'
  hinb3_14 : ∀ (i : grid3.Coords) a, (cc3_transform_14 i a + 1) * S512x1.size a ≤ S1600000x1.size a
  hwx3_14 : ∀ i : grid3.Coords, EltTy.bits .f32 = 32 ∨ (Rect.block (s := S1600000x1) S512x1.size (cc3_transform_14 i) (hinb3_14 i)).WholeWords (EltTy.packing .f32)
  hstage3_15 : ∀ j, (stage3_15 j).IsWhole
  nbuf3_15 : grid3.bufCount reads3_15 false = 2
  hreads3_15 : ∀ i i' : grid3.Coords, (∀ a, reads3_15 a = true → i a = i' a) → cc3_transform_15 i = cc3_transform_15 i'
  hinb3_15 : ∀ (i : grid3.Coords) a, (cc3_transform_15 i a + 1) * S512x1.size a ≤ S1600000x1.size a
  hwx3_15 : ∀ i : grid3.Coords, EltTy.bits .f32 = 32 ∨ (Rect.block (s := S1600000x1) S512x1.size (cc3_transform_15 i) (hinb3_15 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x256_S4000x256_1_0_0_1_n_n : DotDims S4000x128 S128x256 S4000x256 where
  lhsContracting := [1]
  rhsContracting := [0]
  lhsNonContracting := [0]
  rhsNonContracting := [1]
  lhsBatch := []
  rhsBatch := []
  wf := dot_S4000x128_S128x256_S4000x256_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S4000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v19) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S128x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S4000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v43) S512x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S512x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v57) S512x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v64) S512x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v71) S512x1.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v78) S512x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v85) S512x1.size cc3_transform_6 reads3_6 false false 2 stage3_6 sem3_6
    hrank3 hreads3_6 hinb3_6 nbuf3_6 (Memref.isWhole_whole _) hwx3_6 hstage3_6

abbrev win3_7 : Pipeline.Window sig grid3 :=
  Pipeline.Window.ofSpec (Memref.whole main_v92) S512x1.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v99) S512x1.size cc3_transform_8 reads3_8 false false 2 stage3_8 sem3_8
    hrank3 hreads3_8 hinb3_8 nbuf3_8 (Memref.isWhole_whole _) hwx3_8 hstage3_8

abbrev win3_9 : Pipeline.Window sig grid3 :=
  Pipeline.Window.ofSpec (Memref.whole main_v106) S512x1.size cc3_transform_9 reads3_9 false false 2 stage3_9 sem3_9
    hrank3 hreads3_9 hinb3_9 nbuf3_9 (Memref.isWhole_whole _) hwx3_9 hstage3_9

abbrev win3_10 : Pipeline.Window sig grid3 :=
  Pipeline.Window.ofSpec (Memref.whole main_v107_0) S512x1.size cc3_transform_10 reads3_10 true false 2 stage3_10 sem3_10
    hrank3 hreads3_10 hinb3_10 nbuf3_10 (Memref.isWhole_whole _) hwx3_10 hstage3_10

abbrev win3_11 : Pipeline.Window sig grid3 :=
  Pipeline.Window.ofSpec (Memref.whole main_v107_1) S512x1.size cc3_transform_11 reads3_11 true false 2 stage3_11 sem3_11
    hrank3 hreads3_11 hinb3_11 nbuf3_11 (Memref.isWhole_whole _) hwx3_11 hstage3_11

abbrev win3_12 : Pipeline.Window sig grid3 :=
  Pipeline.Window.ofSpec (Memref.whole main_v107_2) S512x1.size cc3_transform_12 reads3_12 true false 2 stage3_12 sem3_12
    hrank3 hreads3_12 hinb3_12 nbuf3_12 (Memref.isWhole_whole _) hwx3_12 hstage3_12

abbrev win3_13 : Pipeline.Window sig grid3 :=
  Pipeline.Window.ofSpec (Memref.whole main_v107_3) S512x1.size cc3_transform_13 reads3_13 true false 2 stage3_13 sem3_13
    hrank3 hreads3_13 hinb3_13 nbuf3_13 (Memref.isWhole_whole _) hwx3_13 hstage3_13

abbrev win3_14 : Pipeline.Window sig grid3 :=
  Pipeline.Window.ofSpec (Memref.whole main_v107_4) S512x1.size cc3_transform_14 reads3_14 true false 2 stage3_14 sem3_14
    hrank3 hreads3_14 hinb3_14 nbuf3_14 (Memref.isWhole_whole _) hwx3_14 hstage3_14

abbrev win3_15 : Pipeline.Window sig grid3 :=
  Pipeline.Window.ofSpec (Memref.whole main_v107_5) S512x1.size cc3_transform_15 reads3_15 true false 2 stage3_15 sem3_15
    hrank3 hreads3_15 hinb3_15 nbuf3_15 (Memref.isWhole_whole _) hwx3_15 hstage3_15

abbrev win3 : Fin 16 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | 13 => win3_13 | 14 => win3_14 | 15 => win3_15 | ⟨_ + 16, h⟩ => absurd h (Nat.not_lt.2 (Nat.le_add_left _ _))
abbrev spec3 : Fin 16 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128x1 : Shape := ⟨2, ![128, 1]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x1600000 : Shape := ⟨2, ![1, 1600000]⟩
abbrev S6x1600000 : Shape := ⟨2, ![6, 1600000]⟩

abbrev nBuf : Space → Nat
  | .hbm => 219
  | .vmem => 0
  | .smem => 0
  | _ => 0

abbrev hbmTy0_0 (i : Nat) : BufTy := match i % 128 with
  | 0 => ⟨S100000x128, .f32⟩
  | 1 => ⟨S128x128, .f32⟩
  | 2 => ⟨S128x128, .f32⟩
  | 3 => ⟨S128x128, .f32⟩
  | 4 => ⟨S128x1, .f32⟩
  | 5 => ⟨S128x1, .f32⟩
  | 6 => ⟨S1600000, .i32⟩
  | 7 => ⟨S1600000, .i32⟩
  | 8 => ⟨S1600000, .i32⟩
  | 9 => ⟨S1600000, .i32⟩
  | 10 => ⟨S_, .f32⟩
  | 11 => ⟨S1600000, .f32⟩
  | 12 => ⟨S_, .f32⟩
  | 13 => ⟨S100000, .f32⟩
  | 14 => ⟨S1600000x1, .i32⟩
  | 15 => ⟨S100000, .f32⟩
  | 16 => ⟨S_, .f32⟩
  | 17 => ⟨S100000, .f32⟩
  | 18 => ⟨S100000, .f32⟩
  | 19 => ⟨S100000x1, .f32⟩
  | 20 => ⟨S100000x128, .f32⟩
  | 21 => ⟨S100000x128, .f32⟩
  | 22 => ⟨S100000x128, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000x128, .f32⟩
  | 32 => ⟨S_, .f32⟩
  | 33 => ⟨S100000x128, .f32⟩
  | 34 => ⟨S1600000x1, .i32⟩
  | 35 => ⟨S100000x128, .f32⟩
  | 36 => ⟨S100000x128, .f32⟩
  | 37 => ⟨S100000x128, .f32⟩
  | 38 => ⟨S100000x128, .f32⟩
  | 39 => ⟨S100000x128, .f32⟩
  | 40 => ⟨S100000x128, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .f32⟩
  | 50 => ⟨S_, .f32⟩
  | 51 => ⟨S100000x128, .f32⟩
  | 52 => ⟨S1600000x1, .i32⟩
  | 53 => ⟨S100000x128, .f32⟩
  | 54 => ⟨S100000x128, .f32⟩
  | 55 => ⟨S100000x128, .f32⟩
  | 56 => ⟨S100000x128, .f32⟩
  | 57 => ⟨S100000x1, .f32⟩
  | 58 => ⟨S100000x1, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S_, .i32⟩
  | 69 => ⟨S1600000, .i32⟩
  | 70 => ⟨S1600000, .i1⟩
  | 71 => ⟨S_, .i32⟩
  | 72 => ⟨S1600000, .i32⟩
  | 73 => ⟨S1600000, .i32⟩
  | 74 => ⟨S1600000, .i32⟩
  | 75 => ⟨S1600000x1, .i32⟩
  | 76 => ⟨S1600000x128, .f32⟩
  | 77 => ⟨S1600000x128, .f32⟩
  | 78 => ⟨S_, .f32⟩
  | 79 => ⟨S1600000, .f32⟩
  | 80 => ⟨S1600000, .f32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x1, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x1, .f32⟩
  | 99 => ⟨S1600000x1, .f32⟩
  | 100 => ⟨S_, .f32⟩
  | 101 => ⟨S1600000, .f32⟩
  | 102 => ⟨S1600000, .f32⟩
  | 103 => ⟨S_, .i32⟩
  | 104 => ⟨S1600000, .i32⟩
  | 105 => ⟨S1600000, .i1⟩
  | 106 => ⟨S_, .i32⟩
  | 107 => ⟨S1600000, .i32⟩
  | 108 => ⟨S1600000, .i32⟩
  | 109 => ⟨S1600000, .i32⟩
  | 110 => ⟨S1600000x1, .i32⟩
  | 111 => ⟨S1600000x1, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x1, .f32⟩
  | 121 => ⟨S1600000x1, .f32⟩
  | 122 => ⟨S_, .f32⟩
  | 123 => ⟨S1600000, .f32⟩
  | 124 => ⟨S_, .f32⟩
  | 125 => ⟨S1600000, .f32⟩
  | 126 => ⟨S1600000, .f32⟩
  | 127 => ⟨S1600000, .f32⟩
  | _ => ⟨S100000x128, .f32⟩

abbrev hbmTy0_1 (i : Nat) : BufTy := match i % 128 with
  | 0 => ⟨S1600000, .f32⟩
  | 1 => ⟨S_, .f32⟩
  | 2 => ⟨S1600000, .f32⟩
  | 3 => ⟨S1600000, .f32⟩
  | 4 => ⟨S_, .f32⟩
  | 5 => ⟨S1600000, .f32⟩
  | 6 => ⟨S1600000, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x128, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x1, .f32⟩
  | 25 => ⟨S1600000x128, .f32⟩
  | 26 => ⟨S1600000x128, .f32⟩
  | 27 => ⟨S_, .f32⟩
  | 28 => ⟨S1600000, .f32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000x1, .f32⟩
  | 39 => ⟨S_, .i32⟩
  | 40 => ⟨S1600000, .i32⟩
  | 41 => ⟨S1600000, .i1⟩
  | 42 => ⟨S_, .i32⟩
  | 43 => ⟨S1600000, .i32⟩
  | 44 => ⟨S1600000, .i32⟩
  | 45 => ⟨S1600000, .i32⟩
  | 46 => ⟨S1600000x1, .i32⟩
  | 47 => ⟨S1600000x1, .f32⟩
  | 48 => ⟨S1600000x1, .f32⟩
  | 49 => ⟨S_, .f32⟩
  | 50 => ⟨S1600000, .f32⟩
  | 51 => ⟨S1600000, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x1, .f32⟩
  | 61 => ⟨S_, .i32⟩
  | 62 => ⟨S1600000, .i32⟩
  | 63 => ⟨S1600000, .i1⟩
  | 64 => ⟨S_, .i32⟩
  | 65 => ⟨S1600000, .i32⟩
  | 66 => ⟨S1600000, .i32⟩
  | 67 => ⟨S1600000, .i32⟩
  | 68 => ⟨S1600000x1, .i32⟩
  | 69 => ⟨S1600000x1, .f32⟩
  | 70 => ⟨S1600000x1, .f32⟩
  | 71 => ⟨S_, .f32⟩
  | 72 => ⟨S1600000, .f32⟩
  | 73 => ⟨S_, .f32⟩
  | 74 => ⟨S1600000, .f32⟩
  | 75 => ⟨S1600000, .f32⟩
  | 76 => ⟨S1600000, .f32⟩
  | 77 => ⟨S1600000, .f32⟩
  | 78 => ⟨S_, .f32⟩
  | 79 => ⟨S1600000, .f32⟩
  | 80 => ⟨S1600000, .f32⟩
  | 81 => ⟨S_, .f32⟩
  | 82 => ⟨S1600000, .f32⟩
  | 83 => ⟨S1600000, .f32⟩
  | 84 => ⟨S1x1600000, .f32⟩
  | 85 => ⟨S1x1600000, .f32⟩
  | 86 => ⟨S1x1600000, .f32⟩
  | 87 => ⟨S1x1600000, .f32⟩
  | 88 => ⟨S1x1600000, .f32⟩
  | 89 => ⟨S1x1600000, .f32⟩
  | 90 => ⟨S6x1600000, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c_14 : Ref sig .tc := ⟨.hbm, 90, rfl⟩
abbrev main_v64 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_16 : Ref sig .tc := ⟨.hbm, 100, rfl⟩
abbrev main_v72 : Ref sig .tc := ⟨.hbm, 101, rfl⟩
abbrev main_v73 : Ref sig .tc := ⟨.hbm, 102, rfl⟩
abbrev main_c_17 : Ref sig .tc := ⟨.hbm, 103, rfl⟩
abbrev main_v74 : Ref sig .tc := ⟨.hbm, 104, rfl⟩
abbrev main_v75 : Ref sig .tc := ⟨.hbm, 105, rfl⟩
abbrev main_c_18 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_c_19 : Ref sig .tc := ⟨.hbm, 112, rfl⟩
abbrev main_v81 : Ref sig .tc := ⟨.hbm, 113, rfl⟩
abbrev main_v82 : Ref sig .tc := ⟨.hbm, 114, rfl⟩
abbrev main_c_20 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_21 : Ref sig .tc := ⟨.hbm, 122, rfl⟩
abbrev main_v89 : Ref sig .tc := ⟨.hbm, 123, rfl⟩
abbrev main_cst_22 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_cst_23 : Ref sig .tc := ⟨.hbm, 129, rfl⟩
abbrev main_v94 : Ref sig .tc := ⟨.hbm, 130, rfl⟩
abbrev main_v95 : Ref sig .tc := ⟨.hbm, 131, rfl⟩
abbrev main_cst_24 : Ref sig .tc := ⟨.hbm, 132, rfl⟩
abbrev main_v96 : Ref sig .tc := ⟨.hbm, 133, rfl⟩
abbrev main_v97 : Ref sig .tc := ⟨.hbm, 134, rfl⟩
abbrev main_c_25 : Ref sig .tc := ⟨.hbm, 135, rfl⟩
abbrev main_v98 : Ref sig .tc := ⟨.hbm, 136, rfl⟩
abbrev main_v99 : Ref sig .tc := ⟨.hbm, 137, rfl⟩
abbrev main_c_26 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_c_27 : Ref sig .tc := ⟨.hbm, 144, rfl⟩
abbrev main_v105 : Ref sig .tc := ⟨.hbm, 145, rfl⟩
abbrev main_v106 : Ref sig .tc := ⟨.hbm, 146, rfl⟩
abbrev main_c_28 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_29 : Ref sig .tc := ⟨.hbm, 155, rfl⟩
abbrev main_v114 : Ref sig .tc := ⟨.hbm, 156, rfl⟩
abbrev main_v115 : Ref sig .tc := ⟨.hbm, 157, rfl⟩
abbrev main_c_30 : Ref sig .tc := ⟨.hbm, 158, rfl⟩
abbrev main_v116 : Ref sig .tc := ⟨.hbm, 159, rfl⟩
abbrev main_v117 : Ref sig .tc := ⟨.hbm, 160, rfl⟩
abbrev main_c_31 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_c_32 : Ref sig .tc := ⟨.hbm, 167, rfl⟩
abbrev main_v123 : Ref sig .tc := ⟨.hbm, 168, rfl⟩
abbrev main_v124 : Ref sig .tc := ⟨.hbm, 169, rfl⟩
abbrev main_c_33 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_cst_34 : Ref sig .tc := ⟨.hbm, 177, rfl⟩
abbrev main_v131 : Ref sig .tc := ⟨.hbm, 178, rfl⟩
abbrev main_v132 : Ref sig .tc := ⟨.hbm, 179, rfl⟩
abbrev main_c_35 : Ref sig .tc := ⟨.hbm, 180, rfl⟩
abbrev main_v133 : Ref sig .tc := ⟨.hbm, 181, rfl⟩
abbrev main_v134 : Ref sig .tc := ⟨.hbm, 182, rfl⟩
abbrev main_c_36 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_c_37 : Ref sig .tc := ⟨.hbm, 189, rfl⟩
abbrev main_v140 : Ref sig .tc := ⟨.hbm, 190, rfl⟩
abbrev main_v141 : Ref sig .tc := ⟨.hbm, 191, rfl⟩
abbrev main_c_38 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_cst_39 : Ref sig .tc := ⟨.hbm, 199, rfl⟩
abbrev main_v148 : Ref sig .tc := ⟨.hbm, 200, rfl⟩
abbrev main_cst_40 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_cst_41 : Ref sig .tc := ⟨.hbm, 206, rfl⟩
abbrev main_v153 : Ref sig .tc := ⟨.hbm, 207, rfl⟩
abbrev main_v154 : Ref sig .tc := ⟨.hbm, 208, rfl⟩
abbrev main_cst_42 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_v163 : Ref sig .tc := ⟨.hbm, 218, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  reducesTo_S1600000x128_S1600000_d1 : S1600000x128.ReducesTo [1] S1600000
  h_S_ : 0 < S_.numel
  reducesTo_S1600000x1_S1600000_d1 : S1600000x1.ReducesTo [1] S1600000
  bcast_S1600000x1_S1600000x128_0_1 : S1600000x1.BroadcastsInDim S1600000x128 (![0, 1] : Fin 2 → Fin S1600000x128.rank)
  bcast_S1600000_S1x1600000_1 : S1600000.BroadcastsInDim S1x1600000 (![1] : Fin 1 → Fin S1x1600000.rank)
  concatenates_S1x1600000_S1x1600000_S1x1600000_S1x1600000_S1x1600000_S1x1600000_S6x1600000_d0 : Shape.Concatenates [S1x1600000, S1x1600000, S1x1600000, S1x1600000, S1x1600000, S1x1600000] S6x1600000 0
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x1_S100000x1_1_0_0_1_n_n_wf : DotDims.WF S100000x128 S128x1 S100000x1 [1] [0] [0] [1] [] []
  gather_S100000x1_S1600000x1_S1600000x1_1_0_n_n_0_1_11_wf : GatherDims.WF S100000x1 S1600000x1 S1600000x1 [1] [0] [] [0] [] 1 ![1, 1]

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf

class Facts : Prop extends Facts₀ where

variable [Facts]
-- ==== Proof.KMat.lean ====
/-
  The three dense projections of the graph network, each one pipelined region of 25 grid points: a block of 4000
  rows of `x`, the same rows of a per-row scale column, and the whole weight matrix go in; the block of rows of
  `(x * scale) · w` comes out. For each region, at any contents `V` of the buffers when the region is entered:
  what the body leaves in the output window, the body's run, the pipeline's proof data and its body obligation.
  (The word-level program: the same text read at any instance.)
-/
import proofs.«158881_j66597762892109_2_alg».proof.Proof.Gen.Kernel.Launch
import proofs.«158881_j66597762892109_2_alg».proof.Proof.Gen.Kernel.Skeleton
import proofs.«158881_j66597762892109_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: rows of `(x * scale) · w`, one block of 4000 rows per grid point

The region is entered with the TensorCore's buffers at `V`. Window 0 is the block of 4000 rows of `x`, window 1
the same rows of the scale column, window 2 the whole weight matrix (its block index never moves), window 3 the
block of 4000 rows of the product that the point writes back. -/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or the
    block index did not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the pipeline fetched it there or the
    block index did not move. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the pipeline fetched it there or the
    block index did not move. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rectangles the body loads and stores through. -/
abbrev rx0 : Rect S4000x128 := Rect.unit (s := S4000x128) ![0, 0] S4000x128.size inb_S4000x128_S4000x128_0_0
abbrev rs0 : Rect S4000x1 := Rect.unit (s := S4000x1) ![0, 0] S4000x1.size inb_S4000x1_S4000x1_0_0
abbrev rw0 : Rect S128x128 := Rect.unit (s := S128x128) ![0, 0] S128x128.size inb_S128x128_S128x128_0_0
abbrev ro0 : Rect S4000x128 := Rect.unit (s := S4000x128) ![0, 0] S4000x128.size inb_S4000x128_S4000x128_0_0

/-- What the body leaves in the output window's buffer: its one store, of the product of the scaled rows with the
    weights, over the whole buffer. -/
def out0_3 (x0 : Vec F S4000x128 .f32) (x1 : Vec F S4000x1 .f32) (x2 : Vec F S128x128 .f32) : Vec F S4000x128 .f32 :=
  View.canon [⟨ro0, k0_pay1 (View.ld x0 rx0) (View.ld x1 rs0) (View.ld x2 rw0)⟩]

/-- The one store covers the buffer. -/
theorem cover0_3 (p0 : Vec F S4000x128 .f32) (y : S4000x128.Idx) :
    ∃ pc ∈ ([⟨ro0, p0⟩] : List (View.Piece (Elt F) S4000x128 .f32)), y ∈ pc.1.set :=
  View.cover_of_tiled [⟨ro0, p0⟩] S4000x128.size (by rfl) y

set_option maxHeartbeats 1000000 in
/-- The body on whole staging buffers: the three inputs are read and kept, the output ends at `out0_3` of them. -/
theorem sound_kernel0 (c : Dev nD) (E : Set ℕ) (i : grid0.Coords) (arg1 : Memref sig .tc .vmem S4000x128 .f32) (harg1 : arg1.IsWhole) (arg2 : Memref sig .tc .vmem S4000x1 .f32) (harg2 : arg2.IsWhole) (arg3 : Memref sig .tc .vmem S128x128 .f32) (harg3 : arg3.IsWhole) (arg4 : Memref sig .tc .vmem S4000x128 .f32) (harg4 : arg4.IsWhole)
    (x0 : Vec F S4000x128 .f32) (x1 : Vec F S4000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__scale_matmul_kernel i arg1 harg1 arg2 harg2 arg3 harg3 arg4 harg4) K := by
  simp only [cc0__scale_matmul_kernel_eq_skeleton]; unfold cc0__scale_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data: the arrays as the region finds them; after the body each input's buffer still at its
    block and the output's at `out0_3` of the three input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region0

/-! # Region 1: rows of `(x * scale) · w`, one block of 4000 rows per grid point

The region is entered with the TensorCore's buffers at `V`. Window 0 is the block of 4000 rows of `x`, window 1
the same rows of the scale column, window 2 the whole weight matrix (its block index never moves), window 3 the
block of 4000 rows of the product that the point writes back. -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or the
    block index did not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the pipeline fetched it there or the
    block index did not move. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the pipeline fetched it there or the
    block index did not move. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles the body loads and stores through. -/
abbrev rx1 : Rect S4000x128 := Rect.unit (s := S4000x128) ![0, 0] S4000x128.size inb_S4000x128_S4000x128_0_0
abbrev rs1 : Rect S4000x1 := Rect.unit (s := S4000x1) ![0, 0] S4000x1.size inb_S4000x1_S4000x1_0_0
abbrev rw1 : Rect S128x128 := Rect.unit (s := S128x128) ![0, 0] S128x128.size inb_S128x128_S128x128_0_0
abbrev ro1 : Rect S4000x128 := Rect.unit (s := S4000x128) ![0, 0] S4000x128.size inb_S4000x128_S4000x128_0_0

/-- What the body leaves in the output window's buffer: its one store, of the product of the scaled rows with the
    weights, over the whole buffer. -/
def out1_3 (x0 : Vec F S4000x128 .f32) (x1 : Vec F S4000x1 .f32) (x2 : Vec F S128x128 .f32) : Vec F S4000x128 .f32 :=
  View.canon [⟨ro1, k1_pay1 (View.ld x0 rx1) (View.ld x1 rs1) (View.ld x2 rw1)⟩]

/-- The one store covers the buffer. -/
theorem cover1_3 (p0 : Vec F S4000x128 .f32) (y : S4000x128.Idx) :
    ∃ pc ∈ ([⟨ro1, p0⟩] : List (View.Piece (Elt F) S4000x128 .f32)), y ∈ pc.1.set :=
  View.cover_of_tiled [⟨ro1, p0⟩] S4000x128.size (by rfl) y

set_option maxHeartbeats 1000000 in
/-- The body on whole staging buffers: the three inputs are read and kept, the output ends at `out1_3` of them. -/
theorem sound_kernel1 (c : Dev nD) (E : Set ℕ) (i : grid1.Coords) (arg1 : Memref sig .tc .vmem S4000x128 .f32) (harg1 : arg1.IsWhole) (arg2 : Memref sig .tc .vmem S4000x1 .f32) (harg2 : arg2.IsWhole) (arg3 : Memref sig .tc .vmem S128x128 .f32) (harg3 : arg3.IsWhole) (arg4 : Memref sig .tc .vmem S4000x128 .f32) (harg4 : arg4.IsWhole)
    (x0 : Vec F S4000x128 .f32) (x1 : Vec F S4000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__scale_matmul_kernel i arg1 harg1 arg2 harg2 arg3 harg3 arg4 harg4) K := by
  simp only [cc1__scale_matmul_kernel_eq_skeleton]; unfold cc1__scale_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data: the arrays as the region finds them; after the body each input's buffer still at its
    block and the output's at `out1_3` of the three input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region1

/-! # Region 2: rows of `(x * scale) · w`, one block of 4000 rows per grid point

The region is entered with the TensorCore's buffers at `V`. Window 0 is the block of 4000 rows of `x`, window 1
the same rows of the scale column, window 2 the whole weight matrix (its block index never moves), window 3 the
block of 4000 rows of the product that the point writes back. -/

section Region2
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the pipeline fetched it there or the
    block index did not move. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the pipeline fetched it there or the
    block index did not move. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the pipeline fetched it there or the
    block index did not move. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole rectangles the body loads and stores through. -/
abbrev rx2 : Rect S4000x128 := Rect.unit (s := S4000x128) ![0, 0] S4000x128.size inb_S4000x128_S4000x128_0_0
abbrev rs2 : Rect S4000x1 := Rect.unit (s := S4000x1) ![0, 0] S4000x1.size inb_S4000x1_S4000x1_0_0
abbrev rw2 : Rect S128x256 := Rect.unit (s := S128x256) ![0, 0] S128x256.size inb_S128x256_S128x256_0_0
abbrev ro2 : Rect S4000x256 := Rect.unit (s := S4000x256) ![0, 0] S4000x256.size inb_S4000x256_S4000x256_0_0

/-- What the body leaves in the output window's buffer: its one store, of the product of the scaled rows with the
    weights, over the whole buffer. -/
def out2_3 (x0 : Vec F S4000x128 .f32) (x1 : Vec F S4000x1 .f32) (x2 : Vec F S128x256 .f32) : Vec F S4000x256 .f32 :=
  View.canon [⟨ro2, k2_pay1 (View.ld x0 rx2) (View.ld x1 rs2) (View.ld x2 rw2)⟩]

/-- The one store covers the buffer. -/
theorem cover2_3 (p0 : Vec F S4000x256 .f32) (y : S4000x256.Idx) :
    ∃ pc ∈ ([⟨ro2, p0⟩] : List (View.Piece (Elt F) S4000x256 .f32)), y ∈ pc.1.set :=
  View.cover_of_tiled [⟨ro2, p0⟩] S4000x256.size (by rfl) y

set_option maxHeartbeats 1000000 in
/-- The body on whole staging buffers: the three inputs are read and kept, the output ends at `out2_3` of them. -/
theorem sound_kernel2 (c : Dev nD) (E : Set ℕ) (i : grid2.Coords) (arg1 : Memref sig .tc .vmem S4000x128 .f32) (harg1 : arg1.IsWhole) (arg2 : Memref sig .tc .vmem S4000x1 .f32) (harg2 : arg2.IsWhole) (arg3 : Memref sig .tc .vmem S128x256 .f32) (harg3 : arg3.IsWhole) (arg4 : Memref sig .tc .vmem S4000x256 .f32) (harg4 : arg4.IsWhole)
    (x0 : Vec F S4000x128 .f32) (x1 : Vec F S4000x1 .f32) (x2 : Vec F S128x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__scale_matmul_kernel i arg1 harg1 arg2 harg2 arg3 harg3 arg4 harg4) K := by
  simp only [cc2__scale_matmul_kernel_eq_skeleton]; unfold cc2__scale_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data: the arrays as the region finds them; after the body each input's buffer still at its
    block and the output's at `out2_3` of the three input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.KEdge.lean ====
/-
  The edge-scoring region: 3125 grid points, each a block of 512 edges. Ten gathered inputs go in (three of width
  128, seven of width 1) and six score columns come out. At any contents `V` of the buffers when the region is
  entered: what the body leaves in each output window, the body's run, the pipeline's proof data and its body
  obligation. (The word-level program: the same text read at any instance.)
-/
import proofs.«158881_j66597762892109_2_alg».proof.Proof.Gen.Kernel.Launch
import proofs.«158881_j66597762892109_2_alg».proof.Proof.Gen.Kernel.Skeleton
import proofs.«158881_j66597762892109_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the six edge scores, one block of 512 edges per grid point

Windows 0–2 are blocks of 512 gathered rows of width 128, windows 3–9 blocks of 512 gathered single entries, and
windows 10–15 the six blocks of 512 scores the point writes back. -/

section Region3
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's staging buffer holds its block at every point. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's staging buffer holds its block at every point. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's staging buffer holds its block at every point. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's staging buffer holds its block at every point. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- The whole rectangles the body loads and stores through. -/
abbrev rw3 : Rect S512x128 := Rect.unit (s := S512x128) ![0, 0] S512x128.size inb_S512x128_S512x128_0_0
abbrev rn3 : Rect S512x1 := Rect.unit (s := S512x1) ![0, 0] S512x1.size inb_S512x1_S512x1_0_0

/-- Output window 10 after the body: exp of the row sums of rate0[src] + rate0[dst], stored over the whole buffer. -/
def out3_10 (x0 : Vec F S512x128 .f32) (x1 : Vec F S512x128 .f32) : Vec F S512x1 .f32 :=
  View.canon [⟨rn3, k3_pay10 (View.ld x0 rw3) (View.ld x1 rw3)⟩]

/-- Output window 11 after the body: exp of rate1[src] + rate1[dst], stored over the whole buffer. -/
def out3_11 (x3 : Vec F S512x1 .f32) (x4 : Vec F S512x1 .f32) : Vec F S512x1 .f32 :=
  View.canon [⟨rn3, k3_pay11 (View.ld x3 rn3) (View.ld x4 rn3)⟩]

/-- Output window 12 after the body: the logistic function of alpha[src] * alpha[dst] (times the literal one), stored over the whole buffer. -/
def out3_12 (x7 : Vec F S512x1 .f32) (x8 : Vec F S512x1 .f32) : Vec F S512x1 .f32 :=
  View.canon [⟨rn3, k3_pay1 (k3_pay12 (View.ld x7 rn3) (View.ld x8 rn3))⟩]

/-- Output window 13 after the body: exp of the row sums of rate0[src_fake] + rate1[dst_fake] spread along the row, stored over the whole buffer. -/
def out3_13 (x2 : Vec F S512x128 .f32) (x6 : Vec F S512x1 .f32) : Vec F S512x1 .f32 :=
  View.canon [⟨rn3, k3_pay2 (k3_pay5 (View.ld x2 rw3)) (k3_pay7 (View.ld x6 rn3))⟩]

/-- Output window 14 after the body: exp of rate1[src_fake] + rate1[dst_fake], stored over the whole buffer. -/
def out3_14 (x5 : Vec F S512x1 .f32) (x6 : Vec F S512x1 .f32) : Vec F S512x1 .f32 :=
  View.canon [⟨rn3, k3_pay3 (k3_pay6 (View.ld x5 rn3)) (k3_pay7 (View.ld x6 rn3))⟩]

/-- Output window 15 after the body: the logistic function of alpha[src] * alpha[dst_fake] (times the literal one), stored over the whole buffer. -/
def out3_15 (x7 : Vec F S512x1 .f32) (x9 : Vec F S512x1 .f32) : Vec F S512x1 .f32 :=
  View.canon [⟨rn3, k3_pay4 (k3_pay8 (View.ld x7 rn3)) (k3_pay9 (View.ld x9 rn3))⟩]

/-- One store over the whole 512×1 buffer covers it. -/
theorem cover3 (p0 : Vec F S512x1 .f32) (y : S512x1.Idx) :
    ∃ pc ∈ ([⟨rn3, p0⟩] : List (View.Piece (Elt F) S512x1 .f32)), y ∈ pc.1.set :=
  View.cover_of_tiled [⟨rn3, p0⟩] S512x1.size (by rfl) y

set_option maxHeartbeats 4000000 in
/-- The body on whole staging buffers: the ten inputs are read and kept, each of the six outputs ends at its score. -/
theorem sound_kernel3 (c : Dev nD) (E : Set ℕ) (i : grid3.Coords) (arg1 : Memref sig .tc .vmem S512x128 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole)
    (x0 : Vec F S512x128 .f32) (x1 : Vec F S512x128 .f32) (x2 : Vec F S512x128 .f32) (x3 : Vec F S512x1 .f32) (x4 : Vec F S512x1 .f32) (x5 : Vec F S512x1 .f32) (x6 : Vec F S512x1 .f32) (x7 : Vec F S512x1 .f32) (x8 : Vec F S512x1 .f32) (x9 : Vec F S512x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out3_10 x0 x1) ∗ owns (c : Thread nD τ) arg12 fullShare (out3_11 x3 x4) ∗ owns (c : Thread nD τ) arg13 fullShare (out3_12 x7 x8) ∗ owns (c : Thread nD τ) arg14 fullShare (out3_13 x2 x6) ∗ owns (c : Thread nD τ) arg15 fullShare (out3_14 x5 x6) ∗ owns (c : Thread nD τ) arg16 fullShare (out3_15 x7 x9)) -∗ K ⟨⟩))
      ⊢ wp frame (wpE (defs₀ (F := F)) Variants.none c none) E (cc3__edge_score_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc3__edge_score_kernel_eq_skeleton]; unfold cc3__edge_score_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover3 _)
  isplitl [H11]
  · iexists _; isplitr
    swap; · iexact H11
    ipureintro
    exact View.read_writes_eq_canon _ _ _ (cover3 _)
  isplitl [H12]
  · iexists _; isplitr
    swap; · iexact H12
    ipureintro
    exact View.read_writes_eq_canon _ _ _ (cover3 _)
  isplitl [H13]
  · iexists _; isplitr
    swap; · iexact H13
    ipureintro
    exact View.read_writes_eq_canon _ _ _ (cover3 _)
  isplitl [H14]
  · iexists _; isplitr
    swap; · iexact H14
    ipureintro
    exact View.read_writes_eq_canon _ _ _ (cover3 _)
  iexists _; isplitr
  swap; · iexact H15
  ipureintro
  exact View.read_writes_eq_canon _ _ _ (cover3 _)

/-- The pipeline's proof data: the arrays as the region finds them; after the body each input's buffer still at its
    block and each output's at its score of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t)
    | ⟨11, _⟩ => out3_11 (iblk3 V c 3 t) (iblk3 V c 4 t)
    | ⟨12, _⟩ => out3_12 (iblk3 V c 7 t) (iblk3 V c 8 t)
    | ⟨13, _⟩ => out3_13 (iblk3 V c 2 t) (iblk3 V c 6 t)
    | ⟨14, _⟩ => out3_14 (iblk3 V c 5 t) (iblk3 V c 6 t)
    | ⟨15, _⟩ => out3_15 (iblk3 V c 7 t) (iblk3 V c 9 t)
    | ⟨_ + 16, h⟩ => absurd h (Nat.not_lt.2 (Nat.le_add_left _ _))
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = out3_10 (iblk3 V c 0 t) (iblk3 V c 1 t) := by dsimp only [dat3]
theorem after3_11 (c : Dev nD) (t : Fin cfg3.N) : (dat3 V c).after 11 t = out3_11 (iblk3 V c 3 t) (iblk3 V c 4 t) := by dsimp only [dat3]
theorem after3_12 (c : Dev nD) (t : Fin cfg3.N) : (dat3 V c).after 12 t = out3_12 (iblk3 V c 7 t) (iblk3 V c 8 t) := by dsimp only [dat3]
theorem after3_13 (c : Dev nD) (t : Fin cfg3.N) : (dat3 V c).after 13 t = out3_13 (iblk3 V c 2 t) (iblk3 V c 6 t) := by dsimp only [dat3]
theorem after3_14 (c : Dev nD) (t : Fin cfg3.N) : (dat3 V c).after 14 t = out3_14 (iblk3 V c 5 t) (iblk3 V c 6 t) := by dsimp only [dat3]
theorem after3_15 (c : Dev nD) (t : Fin cfg3.N) : (dat3 V c).after 15 t = out3_15 (iblk3 V c 7 t) (iblk3 V c 9 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t))

set_option maxHeartbeats 1000000 in
/-- The body at any point: the inputs' buffers hold their blocks, so `sound_kernel3` applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel3 c Set.univ _ _ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.KRun.lean ====
/-
  The whole program as nine segments: five stretches of host operations and, between them, the four pipelined
  regions. The buffer contents at each segment boundary are a fold from the launch memory: a host stretch applies its
  operations, a region replaces its arrays by what its write-backs leave. The launch theorem for programs of several
  regions then gives: every weakly fair execution terminates, faults nowhere, and ends with every unscoped buffer at
  the last boundary's contents.
-/
import proofs.«158881_j66597762892109_2_alg».proof.Proof.KMat
import proofs.«158881_j66597762892109_2_alg».proof.Proof.KEdge
import proofs.«158881_j66597762892109_2_alg».proof.Proof.Gen.Kernel.Launch
import proofs.«158881_j66597762892109_2_alg».proof.Proof.Gen.Kernel.Skeleton
import proofs.«158881_j66597762892109_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After `hostOps0`: region 0's entry contents. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline's write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`: region 1's entry contents. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline's write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`: region 2's entry contents. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline's write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`: region 3's entry contents. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline's write-backs leave, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4`: the contents at the return. -/
abbrev W9 : Dev nD → Valuation τ sig (Elt F) := fun c => StableHlo.after hostOps4 (W8 m ρ c)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
set_option maxHeartbeats 40000000 in
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered with every unscoped buffer at `W1`, left with them at `W2`. Its
    arrays are split out of the unscoped buffers at entry and put back, at what the write-backs leave, at exit; the
    generator register goes into the pipeline's invariant and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are split out of the unscoped buffers at entry and put back, at what the write-backs leave, at exit; the
    generator register goes into the pipeline's invariant and comes out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its
    arrays are split out of the unscoped buffers at entry and put back, at what the write-backs leave, at exit; the
    generator register goes into the pipeline's invariant and comes out; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W7`, left with them at `W8`. Its
    arrays are split out of the unscoped buffers at entry and put back, at what the write-backs leave, at exit; the
    generator register goes into the pipeline's invariant and comes out; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

set_option maxHeartbeats 40000000 in
/-- The program is the run of its segments. -/
theorem main_run (c : Dev nD) : main (F := F) c = Pipeline.Seg.run (segs m ρ) := (main_chain c).trans (by chain_rfl)

set_option backward.isDefEq.respectTransparency.types false in
set_option maxHeartbeats 4000000 in
/-- Every weakly fair execution of the program from the launch memory terminates, nothing faulting, with every
    unscoped buffer of every core at the last boundary's contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W9 m ρ c) ∗ R c)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.Kernel.Hand

end
-- ==== Proof.KArgs.lean ====
/-
  The argument arrays end as launched. Each stretch of host operations writes only its own result buffers (listed
  here), and each region writes only its output windows' arrays; an argument is neither, so the contents at the last
  boundary, read at an argument, are the launch memory's. With the run of the whole program this is the frame claim.
-/
import proofs.«158881_j66597762892109_2_alg».proof.Proof.KRun
import proofs.«158881_j66597762892109_2_alg».proof.Proof.Gen.Kernel.Launch
import proofs.«158881_j66597762892109_2_alg».proof.Proof.Gen.Kernel.Skeleton
import proofs.«158881_j66597762892109_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the operations of `hostOps0` write. -/
abbrev hostW0 : List (Ref sig .tc) := [main_cst, main_v0, main_cst_0, main_v1, main_v2, main_v3, main_cst_1, main_v4, main_v5, main_v6, main_v7, main_v8]
set_option maxHeartbeats 40000000 in
set_option maxRecDepth 65536 in
theorem hostOps0_writes : (hostOps0 : List (HloOp τ sig (Elt F))).Forall fun op => op.writes ⊆ (hostW0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer `hostOps0` does not write keeps its contents through the stretch. -/
theorem keep0 (c : Dev nD) (r : Ref sig .tc) (h : r ∉ hostW0) :
    W1 m ρ c (Proc.devRef .tc r) = W0 m ρ c (Proc.devRef .tc r) :=
  StableHlo.after_of_writes_sub hostOps0 _ hostOps0_writes h

/-- The buffers the operations of `hostOps1` write. -/
abbrev hostW1 : List (Ref sig .tc) := [main_c, main_v10, main_v11, main_c_2, main_v12, main_v13, main_v14, main_v15, main_v16, main_cst_3, main_v17, main_v18, main_v19]
set_option maxHeartbeats 40000000 in
set_option maxRecDepth 65536 in
theorem hostOps1_writes : (hostOps1 : List (HloOp τ sig (Elt F))).Forall fun op => op.writes ⊆ (hostW1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer `hostOps1` does not write keeps its contents through the stretch. -/
theorem keep1 (c : Dev nD) (r : Ref sig .tc) (h : r ∉ hostW1) :
    W3 m ρ c (Proc.devRef .tc r) = W2 m ρ c (Proc.devRef .tc r) :=
  StableHlo.after_of_writes_sub hostOps1 _ hostOps1_writes h

/-- The buffers the operations of `hostOps2` write. -/
abbrev hostW2 : List (Ref sig .tc) := [main_c_4, main_v21, main_v22, main_c_5, main_v23, main_v24, main_v25, main_v26, main_v27, main_cst_6, main_v28, main_v29, main_v30, main_cst_7, main_v31, main_v32]
set_option maxHeartbeats 40000000 in
set_option maxRecDepth 65536 in
theorem hostOps2_writes : (hostOps2 : List (HloOp τ sig (Elt F))).Forall fun op => op.writes ⊆ (hostW2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer `hostOps2` does not write keeps its contents through the stretch. -/
theorem keep2 (c : Dev nD) (r : Ref sig .tc) (h : r ∉ hostW2) :
    W5 m ρ c (Proc.devRef .tc r) = W4 m ρ c (Proc.devRef .tc r) :=
  StableHlo.after_of_writes_sub hostOps2 _ hostOps2_writes h

/-- The buffers the operations of `hostOps3` write. -/
abbrev hostW3 : List (Ref sig .tc) := [main_v34, main_v35, main_v36, main_c_8, main_v37, main_v38, main_c_9, main_v39, main_v40, main_v41, main_v42, main_v43, main_c_10, main_v44, main_v45, main_c_11, main_v46, main_v47, main_v48, main_v49, main_v50, main_c_12, main_v51, main_v52, main_c_13, main_v53, main_v54, main_v55, main_v56, main_v57, main_c_14, main_v58, main_v59, main_c_15, main_v60, main_v61, main_v62, main_v63, main_v64, main_c_16, main_v65, main_v66, main_c_17, main_v67, main_v68, main_v69, main_v70, main_v71, main_c_18, main_v72, main_v73, main_c_19, main_v74, main_v75, main_v76, main_v77, main_v78, main_c_20, main_v79, main_v80, main_c_21, main_v81, main_v82, main_v83, main_v84, main_v85, main_c_22, main_v86, main_v87, main_c_23, main_v88, main_v89, main_v90, main_v91, main_v92, main_c_24, main_v93, main_v94, main_c_25, main_v95, main_v96, main_v97, main_v98, main_v99, main_c_26, main_v100, main_v101, main_c_27, main_v102, main_v103, main_v104, main_v105, main_v106]
set_option maxHeartbeats 40000000 in
set_option maxRecDepth 65536 in
theorem hostOps3_writes : (hostOps3 : List (HloOp τ sig (Elt F))).Forall fun op => op.writes ⊆ (hostW3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer `hostOps3` does not write keeps its contents through the stretch. -/
theorem keep3 (c : Dev nD) (r : Ref sig .tc) (h : r ∉ hostW3) :
    W7 m ρ c (Proc.devRef .tc r) = W6 m ρ c (Proc.devRef .tc r) :=
  StableHlo.after_of_writes_sub hostOps3 _ hostOps3_writes h

/-- The buffers the operations of `hostOps4` write. -/
abbrev hostW4 : List (Ref sig .tc) := [main_v108, main_v109, main_v110, main_v111, main_v112, main_v113, main_v114, main_v115, main_v116, main_v117, main_v118, main_v119, main_v120]
set_option maxHeartbeats 40000000 in
set_option maxRecDepth 65536 in
theorem hostOps4_writes : (hostOps4 : List (HloOp τ sig (Elt F))).Forall fun op => op.writes ⊆ (hostW4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer `hostOps4` does not write keeps its contents through the stretch. -/
theorem keep4 (c : Dev nD) (r : Ref sig .tc) (h : r ∉ hostW4) :
    W9 m ρ c (Proc.devRef .tc r) = W8 m ρ c (Proc.devRef .tc r) :=
  StableHlo.after_of_writes_sub hostOps4 _ hostOps4_writes h

/-- Argument 0 is never written: no host operation has it as its result and no region has it as an output window, so
    the fold at its buffer walks back to the launch memory. -/
theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := keep4 m ρ c main_arg0 (by decide)
    _ = W7 m ρ c (Proc.devRef .tc main_arg0) := W8_of_ne m ρ c main_arg0 (by decide)
    _ = W6 m ρ c (Proc.devRef .tc main_arg0) := keep3 m ρ c main_arg0 (by decide)
    _ = W5 m ρ c (Proc.devRef .tc main_arg0) := W6_of_ne m ρ c main_arg0 (by decide)
    _ = W4 m ρ c (Proc.devRef .tc main_arg0) := keep2 m ρ c main_arg0 (by decide)
    _ = W3 m ρ c (Proc.devRef .tc main_arg0) := W4_of_ne m ρ c main_arg0 (by decide)
    _ = W2 m ρ c (Proc.devRef .tc main_arg0) := keep1 m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := keep0 m ρ c main_arg0 (by decide)
    _ = m ((c : Thread nD τ).loc main_arg0) := rfl

/-- Argument 1 is never written: no host operation has it as its result and no region has it as an output window, so
    the fold at its buffer walks back to the launch memory. -/
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := keep4 m ρ c main_arg1 (by decide)
    _ = W7 m ρ c (Proc.devRef .tc main_arg1) := W8_of_ne m ρ c main_arg1 (by decide)
    _ = W6 m ρ c (Proc.devRef .tc main_arg1) := keep3 m ρ c main_arg1 (by decide)
    _ = W5 m ρ c (Proc.devRef .tc main_arg1) := W6_of_ne m ρ c main_arg1 (by decide)
    _ = W4 m ρ c (Proc.devRef .tc main_arg1) := keep2 m ρ c main_arg1 (by decide)
    _ = W3 m ρ c (Proc.devRef .tc main_arg1) := W4_of_ne m ρ c main_arg1 (by decide)
    _ = W2 m ρ c (Proc.devRef .tc main_arg1) := keep1 m ρ c main_arg1 (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := keep0 m ρ c main_arg1 (by decide)
    _ = m ((c : Thread nD τ).loc main_arg1) := rfl

/-- Argument 2 is never written: no host operation has it as its result and no region has it as an output window, so
    the fold at its buffer walks back to the launch memory. -/
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := keep4 m ρ c main_arg2 (by decide)
    _ = W7 m ρ c (Proc.devRef .tc main_arg2) := W8_of_ne m ρ c main_arg2 (by decide)
    _ = W6 m ρ c (Proc.devRef .tc main_arg2) := keep3 m ρ c main_arg2 (by decide)
    _ = W5 m ρ c (Proc.devRef .tc main_arg2) := W6_of_ne m ρ c main_arg2 (by decide)
    _ = W4 m ρ c (Proc.devRef .tc main_arg2) := keep2 m ρ c main_arg2 (by decide)
    _ = W3 m ρ c (Proc.devRef .tc main_arg2) := (W4_arr m ρ c 2).trans (((dat1 (V3 m ρ) c).arrAt_in 2 rfl _).trans (A_eq1 (V3 m ρ) c 2))
    _ = W2 m ρ c (Proc.devRef .tc main_arg2) := keep1 m ρ c main_arg2 (by decide)
    _ = W1 m ρ c (Proc.devRef .tc main_arg2) := W2_of_ne m ρ c main_arg2 (by decide)
    _ = W0 m ρ c (Proc.devRef .tc main_arg2) := keep0 m ρ c main_arg2 (by decide)
    _ = m ((c : Thread nD τ).loc main_arg2) := rfl

/-- Argument 3 is never written: no host operation has it as its result and no region has it as an output window, so
    the fold at its buffer walks back to the launch memory. -/
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := keep4 m ρ c main_arg3 (by decide)
    _ = W7 m ρ c (Proc.devRef .tc main_arg3) := W8_of_ne m ρ c main_arg3 (by decide)
    _ = W6 m ρ c (Proc.devRef .tc main_arg3) := keep3 m ρ c main_arg3 (by decide)
    _ = W5 m ρ c (Proc.devRef .tc main_arg3) := W6_of_ne m ρ c main_arg3 (by decide)
    _ = W4 m ρ c (Proc.devRef .tc main_arg3) := keep2 m ρ c main_arg3 (by decide)
    _ = W3 m ρ c (Proc.devRef .tc main_arg3) := W4_of_ne m ρ c main_arg3 (by decide)
    _ = W2 m ρ c (Proc.devRef .tc main_arg3) := keep1 m ρ c main_arg3 (by decide)
    _ = W1 m ρ c (Proc.devRef .tc main_arg3) := W2_of_ne m ρ c main_arg3 (by decide)
    _ = W0 m ρ c (Proc.devRef .tc main_arg3) := keep0 m ρ c main_arg3 (by decide)
    _ = m ((c : Thread nD τ).loc main_arg3) := rfl

/-- Argument 4 is never written: no host operation has it as its result and no region has it as an output window, so
    the fold at its buffer walks back to the launch memory. -/
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := keep4 m ρ c main_arg4 (by decide)
    _ = W7 m ρ c (Proc.devRef .tc main_arg4) := W8_of_ne m ρ c main_arg4 (by decide)
    _ = W6 m ρ c (Proc.devRef .tc main_arg4) := keep3 m ρ c main_arg4 (by decide)
    _ = W5 m ρ c (Proc.devRef .tc main_arg4) := W6_of_ne m ρ c main_arg4 (by decide)
    _ = W4 m ρ c (Proc.devRef .tc main_arg4) := keep2 m ρ c main_arg4 (by decide)
    _ = W3 m ρ c (Proc.devRef .tc main_arg4) := W4_of_ne m ρ c main_arg4 (by decide)
    _ = W2 m ρ c (Proc.devRef .tc main_arg4) := keep1 m ρ c main_arg4 (by decide)
    _ = W1 m ρ c (Proc.devRef .tc main_arg4) := W2_of_ne m ρ c main_arg4 (by decide)
    _ = W0 m ρ c (Proc.devRef .tc main_arg4) := keep0 m ρ c main_arg4 (by decide)
    _ = m ((c : Thread nD τ).loc main_arg4) := rfl

/-- Argument 5 is never written: no host operation has it as its result and no region has it as an output window, so
    the fold at its buffer walks back to the launch memory. -/
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := keep4 m ρ c main_arg5 (by decide)
    _ = W7 m ρ c (Proc.devRef .tc main_arg5) := W8_of_ne m ρ c main_arg5 (by decide)
    _ = W6 m ρ c (Proc.devRef .tc main_arg5) := keep3 m ρ c main_arg5 (by decide)
    _ = W5 m ρ c (Proc.devRef .tc main_arg5) := W6_of_ne m ρ c main_arg5 (by decide)
    _ = W4 m ρ c (Proc.devRef .tc main_arg5) := keep2 m ρ c main_arg5 (by decide)
    _ = W3 m ρ c (Proc.devRef .tc main_arg5) := W4_of_ne m ρ c main_arg5 (by decide)
    _ = W2 m ρ c (Proc.devRef .tc main_arg5) := keep1 m ρ c main_arg5 (by decide)
    _ = W1 m ρ c (Proc.devRef .tc main_arg5) := W2_of_ne m ρ c main_arg5 (by decide)
    _ = W0 m ρ c (Proc.devRef .tc main_arg5) := keep0 m ρ c main_arg5 (by decide)
    _ = m ((c : Thread nD τ).loc main_arg5) := rfl

/-- Argument 6 is never written: no host operation has it as its result and no region has it as an output window, so
    the fold at its buffer walks back to the launch memory. -/
theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := keep4 m ρ c main_arg6 (by decide)
    _ = W7 m ρ c (Proc.devRef .tc main_arg6) := W8_of_ne m ρ c main_arg6 (by decide)
    _ = W6 m ρ c (Proc.devRef .tc main_arg6) := keep3 m ρ c main_arg6 (by decide)
    _ = W5 m ρ c (Proc.devRef .tc main_arg6) := W6_of_ne m ρ c main_arg6 (by decide)
    _ = W4 m ρ c (Proc.devRef .tc main_arg6) := keep2 m ρ c main_arg6 (by decide)
    _ = W3 m ρ c (Proc.devRef .tc main_arg6) := W4_of_ne m ρ c main_arg6 (by decide)
    _ = W2 m ρ c (Proc.devRef .tc main_arg6) := keep1 m ρ c main_arg6 (by decide)
    _ = W1 m ρ c (Proc.devRef .tc main_arg6) := W2_of_ne m ρ c main_arg6 (by decide)
    _ = W0 m ρ c (Proc.devRef .tc main_arg6) := keep0 m ρ c main_arg6 (by decide)
    _ = m ((c : Thread nD τ).loc main_arg6) := rfl

/-- Argument 7 is never written: no host operation has it as its result and no region has it as an output window, so
    the fold at its buffer walks back to the launch memory. -/
theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := keep4 m ρ c main_arg7 (by decide)
    _ = W7 m ρ c (Proc.devRef .tc main_arg7) := W8_of_ne m ρ c main_arg7 (by decide)
    _ = W6 m ρ c (Proc.devRef .tc main_arg7) := keep3 m ρ c main_arg7 (by decide)
    _ = W5 m ρ c (Proc.devRef .tc main_arg7) := W6_of_ne m ρ c main_arg7 (by decide)
    _ = W4 m ρ c (Proc.devRef .tc main_arg7) := keep2 m ρ c main_arg7 (by decide)
    _ = W3 m ρ c (Proc.devRef .tc main_arg7) := W4_of_ne m ρ c main_arg7 (by decide)
    _ = W2 m ρ c (Proc.devRef .tc main_arg7) := keep1 m ρ c main_arg7 (by decide)
    _ = W1 m ρ c (Proc.devRef .tc main_arg7) := W2_of_ne m ρ c main_arg7 (by decide)
    _ = W0 m ρ c (Proc.devRef .tc main_arg7) := keep0 m ρ c main_arg7 (by decide)
    _ = m ((c : Thread nD τ).loc main_arg7) := rfl

/-- Argument 8 is never written: no host operation has it as its result and no region has it as an output window, so
    the fold at its buffer walks back to the launch memory. -/
theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := keep4 m ρ c main_arg8 (by decide)
    _ = W7 m ρ c (Proc.devRef .tc main_arg8) := W8_of_ne m ρ c main_arg8 (by decide)
    _ = W6 m ρ c (Proc.devRef .tc main_arg8) := keep3 m ρ c main_arg8 (by decide)
    _ = W5 m ρ c (Proc.devRef .tc main_arg8) := W6_of_ne m ρ c main_arg8 (by decide)
    _ = W4 m ρ c (Proc.devRef .tc main_arg8) := keep2 m ρ c main_arg8 (by decide)
    _ = W3 m ρ c (Proc.devRef .tc main_arg8) := W4_of_ne m ρ c main_arg8 (by decide)
    _ = W2 m ρ c (Proc.devRef .tc main_arg8) := keep1 m ρ c main_arg8 (by decide)
    _ = W1 m ρ c (Proc.devRef .tc main_arg8) := W2_of_ne m ρ c main_arg8 (by decide)
    _ = W0 m ρ c (Proc.devRef .tc main_arg8) := keep0 m ρ c main_arg8 (by decide)
    _ = m ((c : Thread nD τ).loc main_arg8) := rfl

/-- Argument 9 is never written: no host operation has it as its result and no region has it as an output window, so
    the fold at its buffer walks back to the launch memory. -/
theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := keep4 m ρ c main_arg9 (by decide)
    _ = W7 m ρ c (Proc.devRef .tc main_arg9) := W8_of_ne m ρ c main_arg9 (by decide)
    _ = W6 m ρ c (Proc.devRef .tc main_arg9) := keep3 m ρ c main_arg9 (by decide)
    _ = W5 m ρ c (Proc.devRef .tc main_arg9) := W6_of_ne m ρ c main_arg9 (by decide)
    _ = W4 m ρ c (Proc.devRef .tc main_arg9) := keep2 m ρ c main_arg9 (by decide)
    _ = W3 m ρ c (Proc.devRef .tc main_arg9) := W4_of_ne m ρ c main_arg9 (by decide)
    _ = W2 m ρ c (Proc.devRef .tc main_arg9) := keep1 m ρ c main_arg9 (by decide)
    _ = W1 m ρ c (Proc.devRef .tc main_arg9) := W2_of_ne m ρ c main_arg9 (by decide)
    _ = W0 m ρ c (Proc.devRef .tc main_arg9) := keep0 m ρ c main_arg9 (by decide)
    _ = m ((c : Thread nD τ).loc main_arg9) := rfl

/-- The frame claim at any instance: every weakly fair execution terminates, nothing faulting, and the ten argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c)⟩) (run_all m ρ)

end Cert.Kernel.Hand

end
-- ==== Proof.KiMat.lean ====
/-
  The three dense projections of the graph network, each one pipelined region of 25 grid points: a block of 4000
  rows of `x`, the same rows of a per-row scale column, and the whole weight matrix go in; the block of rows of
  `(x * scale) · w` comes out. For each region, at any contents `V` of the buffers when the region is entered:
  what the body leaves in the output window, the body's run, the pipeline's proof data and its body obligation.
-/
import proofs.«158881_j66597762892109_2_alg».proof.Proof.Gen.KernelIdeal.Launch
import proofs.«158881_j66597762892109_2_alg».proof.Proof.Gen.KernelIdeal.Skeleton
import proofs.«158881_j66597762892109_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: rows of `(x * scale) · w`, one block of 4000 rows per grid point

The region is entered with the TensorCore's buffers at `V`. Window 0 is the block of 4000 rows of `x`, window 1
the same rows of the scale column, window 2 the whole weight matrix (its block index never moves), window 3 the
block of 4000 rows of the product that the point writes back. -/

section Region0
variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's staging buffer holds its block at every point, whether the pipeline fetched it there or the
    block index did not move. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's staging buffer holds its block at every point, whether the pipeline fetched it there or the
    block index did not move. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's staging buffer holds its block at every point, whether the pipeline fetched it there or the
    block index did not move. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole rectangles the body loads and stores through. -/
abbrev rx0 : Rect S4000x128 := Rect.unit (s := S4000x128) ![0, 0] S4000x128.size inb_S4000x128_S4000x128_0_0
abbrev rs0 : Rect S4000x1 := Rect.unit (s := S4000x1) ![0, 0] S4000x1.size inb_S4000x1_S4000x1_0_0
abbrev rw0 : Rect S128x128 := Rect.unit (s := S128x128) ![0, 0] S128x128.size inb_S128x128_S128x128_0_0
abbrev ro0 : Rect S4000x128 := Rect.unit (s := S4000x128) ![0, 0] S4000x128.size inb_S4000x128_S4000x128_0_0

/-- What the body leaves in the output window's buffer: its one store, of the product of the scaled rows with the
    weights, over the whole buffer. -/
def out0_3 (x0 : Vec F S4000x128 .f32) (x1 : Vec F S4000x1 .f32) (x2 : Vec F S128x128 .f32) : Vec F S4000x128 .f32 :=
  View.canon [⟨ro0, k0_pay1 (View.ld x0 rx0) (View.ld x1 rs0) (View.ld x2 rw0)⟩]

/-- The one store covers the buffer. -/
theorem cover0_3 (p0 : Vec F S4000x128 .f32) (y : S4000x128.Idx) :
    ∃ pc ∈ ([⟨ro0, p0⟩] : List (View.Piece (Elt F) S4000x128 .f32)), y ∈ pc.1.set :=
  View.cover_of_tiled [⟨ro0, p0⟩] S4000x128.size (by rfl) y

set_option maxHeartbeats 1000000 in
/-- The body on whole staging buffers: the three inputs are read and kept, the output ends at `out0_3` of them. -/
theorem sound_kernel0 (c : Dev nD) (E : Set ℕ) (i : grid0.Coords) (arg1 : Memref sig .tc .vmem S4000x128 .f32) (harg1 : arg1.IsWhole) (arg2 : Memref sig .tc .vmem S4000x1 .f32) (harg2 : arg2.IsWhole) (arg3 : Memref sig .tc .vmem S128x128 .f32) (harg3 : arg3.IsWhole) (arg4 : Memref sig .tc .vmem S4000x128 .f32) (harg4 : arg4.IsWhole)
    (x0 : Vec F S4000x128 .f32) (x1 : Vec F S4000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__scale_matmul_kernel i arg1 harg1 arg2 harg2 arg3 harg3 arg4 harg4) K := by
  simp only [cc0__scale_matmul_kernel_eq_skeleton]; unfold cc0__scale_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The pipeline's proof data: the arrays as the region finds them; after the body each input's buffer still at its
    block and the output's at `out0_3` of the three input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so `sound_kernel0` applies. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end Region0

/-! # Region 1: rows of `(x * scale) · w`, one block of 4000 rows per grid point

The region is entered with the TensorCore's buffers at `V`. Window 0 is the block of 4000 rows of `x`, window 1
the same rows of the scale column, window 2 the whole weight matrix (its block index never moves), window 3 the
block of 4000 rows of the product that the point writes back. -/

section Region1
variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block at every point, whether the pipeline fetched it there or the
    block index did not move. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block at every point, whether the pipeline fetched it there or the
    block index did not move. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block at every point, whether the pipeline fetched it there or the
    block index did not move. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The whole rectangles the body loads and stores through. -/
abbrev rx1 : Rect S4000x128 := Rect.unit (s := S4000x128) ![0, 0] S4000x128.size inb_S4000x128_S4000x128_0_0
abbrev rs1 : Rect S4000x1 := Rect.unit (s := S4000x1) ![0, 0] S4000x1.size inb_S4000x1_S4000x1_0_0
abbrev rw1 : Rect S128x128 := Rect.unit (s := S128x128) ![0, 0] S128x128.size inb_S128x128_S128x128_0_0
abbrev ro1 : Rect S4000x128 := Rect.unit (s := S4000x128) ![0, 0] S4000x128.size inb_S4000x128_S4000x128_0_0

/-- What the body leaves in the output window's buffer: its one store, of the product of the scaled rows with the
    weights, over the whole buffer. -/
def out1_3 (x0 : Vec F S4000x128 .f32) (x1 : Vec F S4000x1 .f32) (x2 : Vec F S128x128 .f32) : Vec F S4000x128 .f32 :=
  View.canon [⟨ro1, k1_pay1 (View.ld x0 rx1) (View.ld x1 rs1) (View.ld x2 rw1)⟩]

/-- The one store covers the buffer. -/
theorem cover1_3 (p0 : Vec F S4000x128 .f32) (y : S4000x128.Idx) :
    ∃ pc ∈ ([⟨ro1, p0⟩] : List (View.Piece (Elt F) S4000x128 .f32)), y ∈ pc.1.set :=
  View.cover_of_tiled [⟨ro1, p0⟩] S4000x128.size (by rfl) y

set_option maxHeartbeats 1000000 in
/-- The body on whole staging buffers: the three inputs are read and kept, the output ends at `out1_3` of them. -/
theorem sound_kernel1 (c : Dev nD) (E : Set ℕ) (i : grid1.Coords) (arg1 : Memref sig .tc .vmem S4000x128 .f32) (harg1 : arg1.IsWhole) (arg2 : Memref sig .tc .vmem S4000x1 .f32) (harg2 : arg2.IsWhole) (arg3 : Memref sig .tc .vmem S128x128 .f32) (harg3 : arg3.IsWhole) (arg4 : Memref sig .tc .vmem S4000x128 .f32) (harg4 : arg4.IsWhole)
    (x0 : Vec F S4000x128 .f32) (x1 : Vec F S4000x1 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__scale_matmul_kernel i arg1 harg1 arg2 harg2 arg3 harg3 arg4 harg4) K := by
  simp only [cc1__scale_matmul_kernel_eq_skeleton]; unfold cc1__scale_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The pipeline's proof data: the arrays as the region finds them; after the body each input's buffer still at its
    block and the output's at `out1_3` of the three input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

end Region1

/-! # Region 2: rows of `(x * scale) · w`, one block of 4000 rows per grid point

The region is entered with the TensorCore's buffers at `V`. Window 0 is the block of 4000 rows of `x`, window 1
the same rows of the scale column, window 2 the whole weight matrix (its block index never moves), window 3 the
block of 4000 rows of the product that the point writes back. -/

section Region2
variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether the pipeline fetched it there or the
    block index did not move. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's staging buffer holds its block at every point, whether the pipeline fetched it there or the
    block index did not move. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's staging buffer holds its block at every point, whether the pipeline fetched it there or the
    block index did not move. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The whole rectangles the body loads and stores through. -/
abbrev rx2 : Rect S4000x128 := Rect.unit (s := S4000x128) ![0, 0] S4000x128.size inb_S4000x128_S4000x128_0_0
abbrev rs2 : Rect S4000x1 := Rect.unit (s := S4000x1) ![0, 0] S4000x1.size inb_S4000x1_S4000x1_0_0
abbrev rw2 : Rect S128x256 := Rect.unit (s := S128x256) ![0, 0] S128x256.size inb_S128x256_S128x256_0_0
abbrev ro2 : Rect S4000x256 := Rect.unit (s := S4000x256) ![0, 0] S4000x256.size inb_S4000x256_S4000x256_0_0

/-- What the body leaves in the output window's buffer: its one store, of the product of the scaled rows with the
    weights, over the whole buffer. -/
def out2_3 (x0 : Vec F S4000x128 .f32) (x1 : Vec F S4000x1 .f32) (x2 : Vec F S128x256 .f32) : Vec F S4000x256 .f32 :=
  View.canon [⟨ro2, k2_pay1 (View.ld x0 rx2) (View.ld x1 rs2) (View.ld x2 rw2)⟩]

/-- The one store covers the buffer. -/
theorem cover2_3 (p0 : Vec F S4000x256 .f32) (y : S4000x256.Idx) :
    ∃ pc ∈ ([⟨ro2, p0⟩] : List (View.Piece (Elt F) S4000x256 .f32)), y ∈ pc.1.set :=
  View.cover_of_tiled [⟨ro2, p0⟩] S4000x256.size (by rfl) y

set_option maxHeartbeats 1000000 in
/-- The body on whole staging buffers: the three inputs are read and kept, the output ends at `out2_3` of them. -/
theorem sound_kernel2 (c : Dev nD) (E : Set ℕ) (i : grid2.Coords) (arg1 : Memref sig .tc .vmem S4000x128 .f32) (harg1 : arg1.IsWhole) (arg2 : Memref sig .tc .vmem S4000x1 .f32) (harg2 : arg2.IsWhole) (arg3 : Memref sig .tc .vmem S128x256 .f32) (harg3 : arg3.IsWhole) (arg4 : Memref sig .tc .vmem S4000x256 .f32) (harg4 : arg4.IsWhole)
    (x0 : Vec F S4000x128 .f32) (x1 : Vec F S4000x1 .f32) (x2 : Vec F S128x256 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__scale_matmul_kernel i arg1 harg1 arg2 harg2 arg3 harg3 arg4 harg4) K := by
  simp only [cc2__scale_matmul_kernel_eq_skeleton]; unfold cc2__scale_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The pipeline's proof data: the arrays as the region finds them; after the body each input's buffer still at its
    block and the output's at `out2_3` of the three input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KiEdge.lean ====
/-
  The edge-scoring region: 3125 grid points, each a block of 512 edges. Ten gathered inputs go in (three of width
  128, seven of width 1) and six score columns come out: exp of a row sum, exp of a sum, or the logistic function of
  a product. At any contents `V` of the buffers when the region is entered: what the body leaves in each output
  window, the body's run, the pipeline's proof data and its body obligation.
-/
import proofs.«158881_j66597762892109_2_alg».proof.Proof.Gen.KernelIdeal.Launch
import proofs.«158881_j66597762892109_2_alg».proof.Proof.Gen.KernelIdeal.Skeleton
import proofs.«158881_j66597762892109_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 3: the six edge scores, one block of 512 edges per grid point

Windows 0–2 are blocks of 512 gathered rows of width 128, windows 3–9 blocks of 512 gathered single entries, and
windows 10–15 the six blocks of 512 scores the point writes back. -/

section Region3
variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's staging buffer holds its block at every point. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's staging buffer holds its block at every point. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's staging buffer holds its block at every point. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's staging buffer holds its block at every point. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's staging buffer holds its block at every point. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-- Input window 5's staging buffer holds its block at every point. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-- Input window 6's staging buffer holds its block at every point. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

/-- Input window 7's staging buffer holds its block at every point. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-- Input window 8's staging buffer holds its block at every point. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)

/-- Input window 9's staging buffer holds its block at every point. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)

/-- The whole rectangles the body loads and stores through. -/
abbrev rw3 : Rect S512x128 := Rect.unit (s := S512x128) ![0, 0] S512x128.size inb_S512x128_S512x128_0_0
abbrev rn3 : Rect S512x1 := Rect.unit (s := S512x1) ![0, 0] S512x1.size inb_S512x1_S512x1_0_0

/-- Output window 10 after the body: exp of the row sums of rate0[src] + rate0[dst], stored over the whole buffer. -/
def out3_10 (x0 : Vec F S512x128 .f32) (x1 : Vec F S512x128 .f32) : Vec F S512x1 .f32 :=
  View.canon [⟨rn3, k3_pay10 (View.ld x0 rw3) (View.ld x1 rw3)⟩]

/-- Output window 11 after the body: exp of rate1[src] + rate1[dst], stored over the whole buffer. -/
def out3_11 (x3 : Vec F S512x1 .f32) (x4 : Vec F S512x1 .f32) : Vec F S512x1 .f32 :=
  View.canon [⟨rn3, k3_pay11 (View.ld x3 rn3) (View.ld x4 rn3)⟩]

/-- Output window 12 after the body: the logistic function of alpha[src] * alpha[dst] (times the literal one), stored over the whole buffer. -/
def out3_12 (x7 : Vec F S512x1 .f32) (x8 : Vec F S512x1 .f32) : Vec F S512x1 .f32 :=
  View.canon [⟨rn3, k3_pay1 (k3_pay12 (View.ld x7 rn3) (View.ld x8 rn3))⟩]

/-- Output window 13 after the body: exp of the row sums of rate0[src_fake] + rate1[dst_fake] spread along the row, stored over the whole buffer. -/
def out3_13 (x2 : Vec F S512x128 .f32) (x6 : Vec F S512x1 .f32) : Vec F S512x1 .f32 :=
  View.canon [⟨rn3, k3_pay2 (k3_pay5 (View.ld x2 rw3)) (k3_pay7 (View.ld x6 rn3))⟩]

/-- Output window 14 after the body: exp of rate1[src_fake] + rate1[dst_fake], stored over the whole buffer. -/
def out3_14 (x5 : Vec F S512x1 .f32) (x6 : Vec F S512x1 .f32) : Vec F S512x1 .f32 :=
  View.canon [⟨rn3, k3_pay3 (k3_pay6 (View.ld x5 rn3)) (k3_pay7 (View.ld x6 rn3))⟩]

/-- Output window 15 after the body: the logistic function of alpha[src] * alpha[dst_fake] (times the literal one), stored over the whole buffer. -/
def out3_15 (x7 : Vec F S512x1 .f32) (x9 : Vec F S512x1 .f32) : Vec F S512x1 .f32 :=
  View.canon [⟨rn3, k3_pay4 (k3_pay8 (View.ld x7 rn3)) (k3_pay9 (View.ld x9 rn3))⟩]

/-- One store over the whole 512×1 buffer covers it. -/
theorem cover3 (p0 : Vec F S512x1 .f32) (y : S512x1.Idx) :
    ∃ pc ∈ ([⟨rn3, p0⟩] : List (View.Piece (Elt F) S512x1 .f32)), y ∈ pc.1.set :=
  View.cover_of_tiled [⟨rn3, p0⟩] S512x1.size (by rfl) y

set_option maxHeartbeats 4000000 in
/-- The body on whole staging buffers: the ten inputs are read and kept, each of the six outputs ends at its score. -/
theorem sound_kernel3 (c : Dev nD) (E : Set ℕ) (i : grid3.Coords) (arg1 : Memref sig .tc .vmem S512x128 .f32) (harg1 : arg1.IsWhole) (arg2 : Memref sig .tc .vmem S512x128 .f32) (harg2 : arg2.IsWhole) (arg3 : Memref sig .tc .vmem S512x128 .f32) (harg3 : arg3.IsWhole) (arg4 : Memref sig .tc .vmem S512x1 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (arg14 : Memref sig .tc .vmem S512x1 .f32) (harg14 : arg14.IsWhole) (arg15 : Memref sig .tc .vmem S512x1 .f32) (harg15 : arg15.IsWhole) (arg16 : Memref sig .tc .vmem S512x1 .f32) (harg16 : arg16.IsWhole)
    (x0 : Vec F S512x128 .f32) (x1 : Vec F S512x128 .f32) (x2 : Vec F S512x128 .f32) (x3 : Vec F S512x1 .f32) (x4 : Vec F S512x1 .f32) (x5 : Vec F S512x1 .f32) (x6 : Vec F S512x1 .f32) (x7 : Vec F S512x1 .f32) (x8 : Vec F S512x1 .f32) (x9 : Vec F S512x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9
            ∗ owns (c : Thread nD τ) arg11 fullShare (out3_10 x0 x1) ∗ owns (c : Thread nD τ) arg12 fullShare (out3_11 x3 x4) ∗ owns (c : Thread nD τ) arg13 fullShare (out3_12 x7 x8) ∗ owns (c : Thread nD τ) arg14 fullShare (out3_13 x2 x6) ∗ owns (c : Thread nD τ) arg15 fullShare (out3_14 x5 x6) ∗ owns (c : Thread nD τ) arg16 fullShare (out3_15 x7 x9)) -∗ K ⟨⟩))
      ⊢ wp frame (wpE (defs₀ (F := F)) Variants.none c none) E (cc3__edge_score_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc3__edge_score_kernel_eq_skeleton]; unfold cc3__edge_score_kernel_skel
  simp only [k3_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (cover3 _)
  isplitl [H11]
  · iexists _; isplitr
    swap; · iexact H11
    ipureintro
    exact View.read_writes_eq_canon _ _ _ (cover3 _)
  isplitl [H12]
  · iexists _; isplitr
    swap; · iexact H12
    ipureintro
    exact View.read_writes_eq_canon _ _ _ (cover3 _)
  isplitl [H13]
  · iexists _; isplitr
    swap; · iexact H13
    ipureintro
    exact View.read_writes_eq_canon _ _ _ (cover3 _)
  isplitl [H14]
  · iexists _; isplitr
    swap; · iexact H14
    ipureintro
    exact View.read_writes_eq_canon _ _ _ (cover3 _)
  iexists _; isplitr
  swap; · iexact H15
  ipureintro
  exact View.read_writes_eq_canon _ _ _ (cover3 _)

/-- The pipeline's proof data: the arrays as the region finds them; after the body each input's buffer still at its
    block and each output's at its score of the input blocks; nothing owed, full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => out3_10 (iblk3 V c 0 t) (iblk3 V c 1 t)
    | ⟨11, _⟩ => out3_11 (iblk3 V c 3 t) (iblk3 V c 4 t)
    | ⟨12, _⟩ => out3_12 (iblk3 V c 7 t) (iblk3 V c 8 t)
    | ⟨13, _⟩ => out3_13 (iblk3 V c 2 t) (iblk3 V c 6 t)
    | ⟨14, _⟩ => out3_14 (iblk3 V c 5 t) (iblk3 V c 6 t)
    | ⟨15, _⟩ => out3_15 (iblk3 V c 7 t) (iblk3 V c 9 t)
    | ⟨_ + 16, h⟩ => absurd h (Nat.not_lt.2 (Nat.le_add_left _ _))
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = out3_10 (iblk3 V c 0 t) (iblk3 V c 1 t) := by dsimp only [dat3]
theorem after3_11 (c : Dev nD) (t : Fin cfg3.N) : (dat3 V c).after 11 t = out3_11 (iblk3 V c 3 t) (iblk3 V c 4 t) := by dsimp only [dat3]
theorem after3_12 (c : Dev nD) (t : Fin cfg3.N) : (dat3 V c).after 12 t = out3_12 (iblk3 V c 7 t) (iblk3 V c 8 t) := by dsimp only [dat3]
theorem after3_13 (c : Dev nD) (t : Fin cfg3.N) : (dat3 V c).after 13 t = out3_13 (iblk3 V c 2 t) (iblk3 V c 6 t) := by dsimp only [dat3]
theorem after3_14 (c : Dev nD) (t : Fin cfg3.N) : (dat3 V c).after 14 t = out3_14 (iblk3 V c 5 t) (iblk3 V c 6 t) := by dsimp only [dat3]
theorem after3_15 (c : Dev nD) (t : Fin cfg3.N) : (dat3 V c).after 15 t = out3_15 (iblk3 V c 7 t) (iblk3 V c 9 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t))

set_option maxHeartbeats 1000000 in
/-- The body at any point: the inputs' buffers hold their blocks, so `sound_kernel3` applies. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply (sound_kernel3 c Set.univ _ _ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KiRun.lean ====
/-
  The whole program as nine segments: five stretches of host operations and, between them, the four pipelined
  regions. The buffer contents at each segment boundary are a fold from the launch memory: a host stretch applies its
  operations, a region replaces its arrays by what its write-backs leave. The launch theorem for programs of several
  regions then gives: every weakly fair execution terminates, faults nowhere, and ends with every unscoped buffer at
  the last boundary's contents.
-/
import proofs.«158881_j66597762892109_2_alg».proof.Proof.KiMat
import proofs.«158881_j66597762892109_2_alg».proof.Proof.KiEdge
import proofs.«158881_j66597762892109_2_alg».proof.Proof.Gen.KernelIdeal.Launch
import proofs.«158881_j66597762892109_2_alg».proof.Proof.Gen.KernelIdeal.Skeleton
import proofs.«158881_j66597762892109_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)

/-- After `hostOps0`: region 0's entry contents. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline's write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1`: region 1's entry contents. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At region 1's exit: its arrays at what the pipeline's write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2`: region 2's entry contents. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At region 2's exit: its arrays at what the pipeline's write-backs leave, every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3`: region 3's entry contents. -/
abbrev W7 : Dev nD → Valuation τ sig (Elt F) := fun c => StableHlo.after hostOps3 (W6 m ρ c)
abbrev V7 : (c : Dev nD) → (b : Ref sig .tc) → Buf (Elt F) ((c : Thread nD τ).loc b) := fun c b => W7 m ρ c b
/-- At region 3's exit: its arrays at what the pipeline's write-backs leave, every other buffer as entered. -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
abbrev V8 : (c : Dev nD) → (b : Ref sig .tc) → Buf (Elt F) ((c : Thread nD τ).loc b) := fun c b => W8 m ρ c b
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-- After `hostOps4`: the contents at the return. -/
abbrev W9 : Dev nD → Valuation τ sig (Elt F) := fun c => StableHlo.after hostOps4 (W8 m ρ c)

/-! ## The proof data family and the thread state -/

abbrev adm : (p : Fin 4) → (pcfgs (F := F) p).Adm := fun p => (cfgs p).toPCfg_adm
/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped buffers, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
set_option maxHeartbeats 40000000 in
theorem hostOps3_fresh : (hostOps3 : List (HloOp τ sig (Elt F))).Forall fun op => op.fresh = ∅ := by
  simp only [List.Forall]; repeat' constructor
theorem hostOps4_fresh : (hostOps4 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W9 m ρ c) ∗ ∃ r, prngReg c r)

/-! ## The regions as segments -/

set_option backward.isDefEq.respectTransparency.types false in
/-- Region 0 over the thread state: entered with every unscoped buffer at `W1`, left with them at `W2`. Its
    arrays are split out of the unscoped buffers at entry and put back, at what the write-backs leave, at exit; the
    generator register goes into the pipeline's invariant and comes out; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left with them at `W4`. Its
    arrays are split out of the unscoped buffers at entry and put back, at what the write-backs leave, at exit; the
    generator register goes into the pipeline's invariant and comes out; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W5`, left with them at `W6`. Its
    arrays are split out of the unscoped buffers at entry and put back, at what the write-backs leave, at exit; the
    generator register goes into the pipeline's invariant and comes out; nothing is owed. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered with every unscoped buffer at `W7`, left with them at `W8`. Its
    arrays are split out of the unscoped buffers at entry and put back, at what the write-backs leave, at exit; the
    generator register goes into the pipeline's invariant and comes out; nothing is owed. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ),
    .host (hseg hostOps4 hostOps4_sub hostOps4_fresh (W8 m ρ)) ]

set_option maxHeartbeats 40000000 in
/-- The program is the run of its segments. -/
theorem main_run (c : Dev nD) : main (F := F) c = Pipeline.Seg.run (segs m ρ) := (main_chain c).trans (by chain_rfl)

set_option backward.isDefEq.respectTransparency.types false in
set_option maxHeartbeats 4000000 in
/-- Every weakly fair execution of the program from the launch memory terminates, nothing faulting, with every
    unscoped buffer of every core at the last boundary's contents `W9`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => show iprop(StableHlo.held (c : Thread nD τ) (Pipeline.ucRefs τ sig) (W9 m ρ c) ∗ R c)
          ⊢ iprop(Tₙ m ρ c ∗ ∃ W, owes (c : Thread nD τ) (0 : CellTallies nD τ sig Unit) W) from by
        iintro ⟨Hh, Hp, HO⟩
        isplitr [HO]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

end Cert.KernelIdeal.Hand

end
-- ==== Proof.KiArgs.lean ====
/-
  The argument arrays end as launched. Each stretch of host operations writes only its own result buffers (listed
  here), and each region writes only its output windows' arrays; an argument is neither, so the contents at the last
  boundary, read at an argument, are the launch memory's. With the run of the whole program this is the frame claim.
-/
import proofs.«158881_j66597762892109_2_alg».proof.Proof.KiRun
import proofs.«158881_j66597762892109_2_alg».proof.Proof.Gen.KernelIdeal.Launch
import proofs.«158881_j66597762892109_2_alg».proof.Proof.Gen.KernelIdeal.Skeleton
import proofs.«158881_j66597762892109_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers the operations of `hostOps0` write. -/
abbrev hostW0 : List (Ref sig .tc) := [main_cst, main_v0, main_cst_0, main_v1, main_v2, main_v3, main_cst_1, main_v4, main_v5, main_v6, main_v7, main_v8]
set_option maxHeartbeats 40000000 in
set_option maxRecDepth 65536 in
theorem hostOps0_writes : (hostOps0 : List (HloOp τ sig (Elt F))).Forall fun op => op.writes ⊆ (hostW0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer `hostOps0` does not write keeps its contents through the stretch. -/
theorem keep0 (c : Dev nD) (r : Ref sig .tc) (h : r ∉ hostW0) :
    W1 m ρ c (Proc.devRef .tc r) = W0 m ρ c (Proc.devRef .tc r) :=
  StableHlo.after_of_writes_sub hostOps0 _ hostOps0_writes h

/-- The buffers the operations of `hostOps1` write. -/
abbrev hostW1 : List (Ref sig .tc) := [main_c, main_v10, main_v11, main_c_2, main_v12, main_v13, main_v14, main_v15, main_v16, main_cst_3, main_v17, main_v18, main_v19]
set_option maxHeartbeats 40000000 in
set_option maxRecDepth 65536 in
theorem hostOps1_writes : (hostOps1 : List (HloOp τ sig (Elt F))).Forall fun op => op.writes ⊆ (hostW1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer `hostOps1` does not write keeps its contents through the stretch. -/
theorem keep1 (c : Dev nD) (r : Ref sig .tc) (h : r ∉ hostW1) :
    W3 m ρ c (Proc.devRef .tc r) = W2 m ρ c (Proc.devRef .tc r) :=
  StableHlo.after_of_writes_sub hostOps1 _ hostOps1_writes h

/-- The buffers the operations of `hostOps2` write. -/
abbrev hostW2 : List (Ref sig .tc) := [main_c_4, main_v21, main_v22, main_c_5, main_v23, main_v24, main_v25, main_v26, main_v27, main_cst_6, main_v28, main_v29, main_v30, main_cst_7, main_v31, main_v32]
set_option maxHeartbeats 40000000 in
set_option maxRecDepth 65536 in
theorem hostOps2_writes : (hostOps2 : List (HloOp τ sig (Elt F))).Forall fun op => op.writes ⊆ (hostW2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer `hostOps2` does not write keeps its contents through the stretch. -/
theorem keep2 (c : Dev nD) (r : Ref sig .tc) (h : r ∉ hostW2) :
    W5 m ρ c (Proc.devRef .tc r) = W4 m ρ c (Proc.devRef .tc r) :=
  StableHlo.after_of_writes_sub hostOps2 _ hostOps2_writes h

/-- The buffers the operations of `hostOps3` write. -/
abbrev hostW3 : List (Ref sig .tc) := [main_v34, main_v35, main_v36, main_c_8, main_v37, main_v38, main_c_9, main_v39, main_v40, main_v41, main_v42, main_v43, main_c_10, main_v44, main_v45, main_c_11, main_v46, main_v47, main_v48, main_v49, main_v50, main_c_12, main_v51, main_v52, main_c_13, main_v53, main_v54, main_v55, main_v56, main_v57, main_c_14, main_v58, main_v59, main_c_15, main_v60, main_v61, main_v62, main_v63, main_v64, main_c_16, main_v65, main_v66, main_c_17, main_v67, main_v68, main_v69, main_v70, main_v71, main_c_18, main_v72, main_v73, main_c_19, main_v74, main_v75, main_v76, main_v77, main_v78, main_c_20, main_v79, main_v80, main_c_21, main_v81, main_v82, main_v83, main_v84, main_v85, main_c_22, main_v86, main_v87, main_c_23, main_v88, main_v89, main_v90, main_v91, main_v92, main_c_24, main_v93, main_v94, main_c_25, main_v95, main_v96, main_v97, main_v98, main_v99, main_c_26, main_v100, main_v101, main_c_27, main_v102, main_v103, main_v104, main_v105, main_v106]
set_option maxHeartbeats 40000000 in
set_option maxRecDepth 65536 in
theorem hostOps3_writes : (hostOps3 : List (HloOp τ sig (Elt F))).Forall fun op => op.writes ⊆ (hostW3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer `hostOps3` does not write keeps its contents through the stretch. -/
theorem keep3 (c : Dev nD) (r : Ref sig .tc) (h : r ∉ hostW3) :
    W7 m ρ c (Proc.devRef .tc r) = W6 m ρ c (Proc.devRef .tc r) :=
  StableHlo.after_of_writes_sub hostOps3 _ hostOps3_writes h

/-- The buffers the operations of `hostOps4` write. -/
abbrev hostW4 : List (Ref sig .tc) := [main_v108, main_v109, main_v110, main_v111, main_v112, main_v113, main_v114, main_v115, main_v116, main_v117, main_v118, main_v119, main_v120]
set_option maxHeartbeats 40000000 in
set_option maxRecDepth 65536 in
theorem hostOps4_writes : (hostOps4 : List (HloOp τ sig (Elt F))).Forall fun op => op.writes ⊆ (hostW4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))
/-- A buffer `hostOps4` does not write keeps its contents through the stretch. -/
theorem keep4 (c : Dev nD) (r : Ref sig .tc) (h : r ∉ hostW4) :
    W9 m ρ c (Proc.devRef .tc r) = W8 m ρ c (Proc.devRef .tc r) :=
  StableHlo.after_of_writes_sub hostOps4 _ hostOps4_writes h

/-- Argument 0 is never written: no host operation has it as its result and no region has it as an output window, so
    the fold at its buffer walks back to the launch memory. -/
theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := keep4 m ρ c main_arg0 (by decide)
    _ = W7 m ρ c (Proc.devRef .tc main_arg0) := W8_of_ne m ρ c main_arg0 (by decide)
    _ = W6 m ρ c (Proc.devRef .tc main_arg0) := keep3 m ρ c main_arg0 (by decide)
    _ = W5 m ρ c (Proc.devRef .tc main_arg0) := W6_of_ne m ρ c main_arg0 (by decide)
    _ = W4 m ρ c (Proc.devRef .tc main_arg0) := keep2 m ρ c main_arg0 (by decide)
    _ = W3 m ρ c (Proc.devRef .tc main_arg0) := W4_of_ne m ρ c main_arg0 (by decide)
    _ = W2 m ρ c (Proc.devRef .tc main_arg0) := keep1 m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := keep0 m ρ c main_arg0 (by decide)
    _ = m ((c : Thread nD τ).loc main_arg0) := rfl

/-- Argument 1 is never written: no host operation has it as its result and no region has it as an output window, so
    the fold at its buffer walks back to the launch memory. -/
theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := keep4 m ρ c main_arg1 (by decide)
    _ = W7 m ρ c (Proc.devRef .tc main_arg1) := W8_of_ne m ρ c main_arg1 (by decide)
    _ = W6 m ρ c (Proc.devRef .tc main_arg1) := keep3 m ρ c main_arg1 (by decide)
    _ = W5 m ρ c (Proc.devRef .tc main_arg1) := W6_of_ne m ρ c main_arg1 (by decide)
    _ = W4 m ρ c (Proc.devRef .tc main_arg1) := keep2 m ρ c main_arg1 (by decide)
    _ = W3 m ρ c (Proc.devRef .tc main_arg1) := W4_of_ne m ρ c main_arg1 (by decide)
    _ = W2 m ρ c (Proc.devRef .tc main_arg1) := keep1 m ρ c main_arg1 (by decide)
    _ = W1 m ρ c (Proc.devRef .tc main_arg1) := (W2_arr m ρ c 2).trans (((dat0 (V1 m ρ) c).arrAt_in 2 rfl _).trans (A_eq0 (V1 m ρ) c 2))
    _ = W0 m ρ c (Proc.devRef .tc main_arg1) := keep0 m ρ c main_arg1 (by decide)
    _ = m ((c : Thread nD τ).loc main_arg1) := rfl

/-- Argument 2 is never written: no host operation has it as its result and no region has it as an output window, so
    the fold at its buffer walks back to the launch memory. -/
theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := keep4 m ρ c main_arg2 (by decide)
    _ = W7 m ρ c (Proc.devRef .tc main_arg2) := W8_of_ne m ρ c main_arg2 (by decide)
    _ = W6 m ρ c (Proc.devRef .tc main_arg2) := keep3 m ρ c main_arg2 (by decide)
    _ = W5 m ρ c (Proc.devRef .tc main_arg2) := W6_of_ne m ρ c main_arg2 (by decide)
    _ = W4 m ρ c (Proc.devRef .tc main_arg2) := keep2 m ρ c main_arg2 (by decide)
    _ = W3 m ρ c (Proc.devRef .tc main_arg2) := (W4_arr m ρ c 2).trans (((dat1 (V3 m ρ) c).arrAt_in 2 rfl _).trans (A_eq1 (V3 m ρ) c 2))
    _ = W2 m ρ c (Proc.devRef .tc main_arg2) := keep1 m ρ c main_arg2 (by decide)
    _ = W1 m ρ c (Proc.devRef .tc main_arg2) := W2_of_ne m ρ c main_arg2 (by decide)
    _ = W0 m ρ c (Proc.devRef .tc main_arg2) := keep0 m ρ c main_arg2 (by decide)
    _ = m ((c : Thread nD τ).loc main_arg2) := rfl

/-- Argument 3 is never written: no host operation has it as its result and no region has it as an output window, so
    the fold at its buffer walks back to the launch memory. -/
theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := keep4 m ρ c main_arg3 (by decide)
    _ = W7 m ρ c (Proc.devRef .tc main_arg3) := W8_of_ne m ρ c main_arg3 (by decide)
    _ = W6 m ρ c (Proc.devRef .tc main_arg3) := keep3 m ρ c main_arg3 (by decide)
    _ = W5 m ρ c (Proc.devRef .tc main_arg3) := W6_of_ne m ρ c main_arg3 (by decide)
    _ = W4 m ρ c (Proc.devRef .tc main_arg3) := keep2 m ρ c main_arg3 (by decide)
    _ = W3 m ρ c (Proc.devRef .tc main_arg3) := W4_of_ne m ρ c main_arg3 (by decide)
    _ = W2 m ρ c (Proc.devRef .tc main_arg3) := keep1 m ρ c main_arg3 (by decide)
    _ = W1 m ρ c (Proc.devRef .tc main_arg3) := W2_of_ne m ρ c main_arg3 (by decide)
    _ = W0 m ρ c (Proc.devRef .tc main_arg3) := keep0 m ρ c main_arg3 (by decide)
    _ = m ((c : Thread nD τ).loc main_arg3) := rfl

/-- Argument 4 is never written: no host operation has it as its result and no region has it as an output window, so
    the fold at its buffer walks back to the launch memory. -/
theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := keep4 m ρ c main_arg4 (by decide)
    _ = W7 m ρ c (Proc.devRef .tc main_arg4) := W8_of_ne m ρ c main_arg4 (by decide)
    _ = W6 m ρ c (Proc.devRef .tc main_arg4) := keep3 m ρ c main_arg4 (by decide)
    _ = W5 m ρ c (Proc.devRef .tc main_arg4) := W6_of_ne m ρ c main_arg4 (by decide)
    _ = W4 m ρ c (Proc.devRef .tc main_arg4) := keep2 m ρ c main_arg4 (by decide)
    _ = W3 m ρ c (Proc.devRef .tc main_arg4) := W4_of_ne m ρ c main_arg4 (by decide)
    _ = W2 m ρ c (Proc.devRef .tc main_arg4) := keep1 m ρ c main_arg4 (by decide)
    _ = W1 m ρ c (Proc.devRef .tc main_arg4) := W2_of_ne m ρ c main_arg4 (by decide)
    _ = W0 m ρ c (Proc.devRef .tc main_arg4) := keep0 m ρ c main_arg4 (by decide)
    _ = m ((c : Thread nD τ).loc main_arg4) := rfl

/-- Argument 5 is never written: no host operation has it as its result and no region has it as an output window, so
    the fold at its buffer walks back to the launch memory. -/
theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := keep4 m ρ c main_arg5 (by decide)
    _ = W7 m ρ c (Proc.devRef .tc main_arg5) := W8_of_ne m ρ c main_arg5 (by decide)
    _ = W6 m ρ c (Proc.devRef .tc main_arg5) := keep3 m ρ c main_arg5 (by decide)
    _ = W5 m ρ c (Proc.devRef .tc main_arg5) := W6_of_ne m ρ c main_arg5 (by decide)
    _ = W4 m ρ c (Proc.devRef .tc main_arg5) := keep2 m ρ c main_arg5 (by decide)
    _ = W3 m ρ c (Proc.devRef .tc main_arg5) := W4_of_ne m ρ c main_arg5 (by decide)
    _ = W2 m ρ c (Proc.devRef .tc main_arg5) := keep1 m ρ c main_arg5 (by decide)
    _ = W1 m ρ c (Proc.devRef .tc main_arg5) := W2_of_ne m ρ c main_arg5 (by decide)
    _ = W0 m ρ c (Proc.devRef .tc main_arg5) := keep0 m ρ c main_arg5 (by decide)
    _ = m ((c : Thread nD τ).loc main_arg5) := rfl

/-- Argument 6 is never written: no host operation has it as its result and no region has it as an output window, so
    the fold at its buffer walks back to the launch memory. -/
theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := keep4 m ρ c main_arg6 (by decide)
    _ = W7 m ρ c (Proc.devRef .tc main_arg6) := W8_of_ne m ρ c main_arg6 (by decide)
    _ = W6 m ρ c (Proc.devRef .tc main_arg6) := keep3 m ρ c main_arg6 (by decide)
    _ = W5 m ρ c (Proc.devRef .tc main_arg6) := W6_of_ne m ρ c main_arg6 (by decide)
    _ = W4 m ρ c (Proc.devRef .tc main_arg6) := keep2 m ρ c main_arg6 (by decide)
    _ = W3 m ρ c (Proc.devRef .tc main_arg6) := W4_of_ne m ρ c main_arg6 (by decide)
    _ = W2 m ρ c (Proc.devRef .tc main_arg6) := keep1 m ρ c main_arg6 (by decide)
    _ = W1 m ρ c (Proc.devRef .tc main_arg6) := W2_of_ne m ρ c main_arg6 (by decide)
    _ = W0 m ρ c (Proc.devRef .tc main_arg6) := keep0 m ρ c main_arg6 (by decide)
    _ = m ((c : Thread nD τ).loc main_arg6) := rfl

/-- Argument 7 is never written: no host operation has it as its result and no region has it as an output window, so
    the fold at its buffer walks back to the launch memory. -/
theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := keep4 m ρ c main_arg7 (by decide)
    _ = W7 m ρ c (Proc.devRef .tc main_arg7) := W8_of_ne m ρ c main_arg7 (by decide)
    _ = W6 m ρ c (Proc.devRef .tc main_arg7) := keep3 m ρ c main_arg7 (by decide)
    _ = W5 m ρ c (Proc.devRef .tc main_arg7) := W6_of_ne m ρ c main_arg7 (by decide)
    _ = W4 m ρ c (Proc.devRef .tc main_arg7) := keep2 m ρ c main_arg7 (by decide)
    _ = W3 m ρ c (Proc.devRef .tc main_arg7) := W4_of_ne m ρ c main_arg7 (by decide)
    _ = W2 m ρ c (Proc.devRef .tc main_arg7) := keep1 m ρ c main_arg7 (by decide)
    _ = W1 m ρ c (Proc.devRef .tc main_arg7) := W2_of_ne m ρ c main_arg7 (by decide)
    _ = W0 m ρ c (Proc.devRef .tc main_arg7) := keep0 m ρ c main_arg7 (by decide)
    _ = m ((c : Thread nD τ).loc main_arg7) := rfl

/-- Argument 8 is never written: no host operation has it as its result and no region has it as an output window, so
    the fold at its buffer walks back to the launch memory. -/
theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := keep4 m ρ c main_arg8 (by decide)
    _ = W7 m ρ c (Proc.devRef .tc main_arg8) := W8_of_ne m ρ c main_arg8 (by decide)
    _ = W6 m ρ c (Proc.devRef .tc main_arg8) := keep3 m ρ c main_arg8 (by decide)
    _ = W5 m ρ c (Proc.devRef .tc main_arg8) := W6_of_ne m ρ c main_arg8 (by decide)
    _ = W4 m ρ c (Proc.devRef .tc main_arg8) := keep2 m ρ c main_arg8 (by decide)
    _ = W3 m ρ c (Proc.devRef .tc main_arg8) := W4_of_ne m ρ c main_arg8 (by decide)
    _ = W2 m ρ c (Proc.devRef .tc main_arg8) := keep1 m ρ c main_arg8 (by decide)
    _ = W1 m ρ c (Proc.devRef .tc main_arg8) := W2_of_ne m ρ c main_arg8 (by decide)
    _ = W0 m ρ c (Proc.devRef .tc main_arg8) := keep0 m ρ c main_arg8 (by decide)
    _ = m ((c : Thread nD τ).loc main_arg8) := rfl

/-- Argument 9 is never written: no host operation has it as its result and no region has it as an output window, so
    the fold at its buffer walks back to the launch memory. -/
theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := keep4 m ρ c main_arg9 (by decide)
    _ = W7 m ρ c (Proc.devRef .tc main_arg9) := W8_of_ne m ρ c main_arg9 (by decide)
    _ = W6 m ρ c (Proc.devRef .tc main_arg9) := keep3 m ρ c main_arg9 (by decide)
    _ = W5 m ρ c (Proc.devRef .tc main_arg9) := W6_of_ne m ρ c main_arg9 (by decide)
    _ = W4 m ρ c (Proc.devRef .tc main_arg9) := keep2 m ρ c main_arg9 (by decide)
    _ = W3 m ρ c (Proc.devRef .tc main_arg9) := W4_of_ne m ρ c main_arg9 (by decide)
    _ = W2 m ρ c (Proc.devRef .tc main_arg9) := keep1 m ρ c main_arg9 (by decide)
    _ = W1 m ρ c (Proc.devRef .tc main_arg9) := W2_of_ne m ρ c main_arg9 (by decide)
    _ = W0 m ρ c (Proc.devRef .tc main_arg9) := keep0 m ρ c main_arg9 (by decide)
    _ = m ((c : Thread nD τ).loc main_arg9) := rfl

/-- The frame claim at any instance: every weakly fair execution terminates, nothing faulting, and the ten argument
    arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c)⟩) (run_all m ρ)

end Cert.KernelIdeal.Hand

end
-- ==== Proof.KiStage.lean ====
/-
  The functions the idealized kernel program's host stretches compute, named: the degree norm, a vector as a column,
  an index vector as jnp reads it, the neighbourhood sum (rows gathered at the edges' destinations and added up by
  their sources), the three heads' weights side by side, the two gathers, the three heads' columns of the third
  projection, a score column as a row, and the six rows stacked.
-/
import proofs.«158881_j66597762892109_2_alg».proof.Proof.Gen.KernelIdeal

noncomputable section

namespace Cert.KernelIdeal.Hand

open Cert.KernelIdeal Cert.KernelIdeal.Gen
open Idealize.ShloMosaic Idealize.ShloMosaic.TcCoe

section Defs
variable {F : FTy → Type} [FloatOps F]

/-! ## The host stretches' functions -/

/-- Each node's out-degree to the power -1/2: ones added up by source node, then the power. -/
def nrm (a6 : (⟨S1600000, .i32⟩ : BufTy).Contents (Elt F)) : (⟨S100000, .f32⟩ : BufTy).Contents (Elt F) :=
  Host.powf (Host.scatterAdd scatter_S100000_S1600000x1_S1600000_n_0_0_1 (broadcastInDim S100000 ![] bcast_S_S100000 (constant S_ .f32 0x00000000#32)) (broadcastInDim S1600000x1 ![0] bcast_S1600000_S1600000x1_0 a6) (broadcastInDim S1600000 ![] bcast_S_S1600000 (constant S_ .f32 0x3F800000#32))) (broadcastInDim S100000 ![] bcast_S_S100000 (constant S_ .f32 0xBF000000#32))

/-- A vector over the nodes as an [N, 1] column. -/
def colOf (v : (⟨S100000, .f32⟩ : BufTy).Contents (Elt F)) : (⟨S100000x1, .f32⟩ : BufTy).Contents (Elt F) :=
  broadcastInDim S100000x1 ![0] bcast_S100000_S100000x1_0 v

/-- An index vector as jnp reads it (a negative index counts from the end), as an [E, 1] column of start indices. -/
def idxOf (a : (⟨S1600000, .i32⟩ : BufTy).Contents (Elt F)) : (⟨S1600000x1, .i32⟩ : BufTy).Contents (Elt F) :=
  broadcastInDim S1600000x1 ![0] bcast_S1600000_S1600000x1_0 (select (cmpi .slt a (broadcastInDim S1600000 ![] bcast_S_S1600000 (constantI S_ 32 0#32))) (addi a (broadcastInDim S1600000 ![] bcast_S_S1600000 (constantI S_ 32 100000#32))) a)

/-- The rows of `X` at the edges' destinations, added up by the edges' sources. -/
def agg (a6 a7 : (⟨S1600000, .i32⟩ : BufTy).Contents (Elt F)) (X : (⟨S100000x128, .f32⟩ : BufTy).Contents (Elt F)) : (⟨S100000x128, .f32⟩ : BufTy).Contents (Elt F) :=
  Host.scatterAdd scatter_S100000x128_S1600000x1_S1600000x128_1_0_0_1 (broadcastInDim S100000x128 ![] bcast_S_S100000x128 (constant S_ .f32 0x00000000#32)) (broadcastInDim S1600000x1 ![0] bcast_S1600000_S1600000x1_0 a6) (Host.gather gather_S100000x128_S1600000x1_S1600000x128_1_0_n_n_0_1_1128 X (idxOf a7))

/-- The three heads' weights side by side, padded with zero columns to width 256. -/
def combW (w3 : (⟨S128x128, .f32⟩ : BufTy).Contents (Elt F)) (w4 w5 : (⟨S128x1, .f32⟩ : BufTy).Contents (Elt F)) : (⟨S128x256, .f32⟩ : BufTy).Contents (Elt F) :=
  concatenate S128x256 1 [⟨S128x128, w3⟩, ⟨S128x1, w4⟩, ⟨S128x1, w5⟩, ⟨S128x126, broadcastInDim S128x126 ![] bcast_S_S128x126 (constant S_ .f32 0x00000000#32)⟩] concatenates_S128x128_S128x1_S128x1_S128x126_S128x256_d1

/-- Rows of a width-128 table, and entries of a width-1 table, at an index vector. -/
def gat128 (X : (⟨S100000x128, .f32⟩ : BufTy).Contents (Elt F)) (a : (⟨S1600000, .i32⟩ : BufTy).Contents (Elt F)) : (⟨S1600000x128, .f32⟩ : BufTy).Contents (Elt F) :=
  Host.gather gather_S100000x128_S1600000x1_S1600000x128_1_0_n_n_0_1_1128 X (idxOf a)
def gat1 (x : (⟨S100000x1, .f32⟩ : BufTy).Contents (Elt F)) (a : (⟨S1600000, .i32⟩ : BufTy).Contents (Elt F)) : (⟨S1600000x1, .f32⟩ : BufTy).Contents (Elt F) :=
  Host.gather gather_S100000x1_S1600000x1_S1600000x1_1_0_n_n_0_1_11 x (idxOf a)

/-- The three heads' columns of the third projection. -/
def sl0 (P : (⟨S100000x256, .f32⟩ : BufTy).Contents (Elt F)) : (⟨S100000x128, .f32⟩ : BufTy).Contents (Elt F) := extractStridedSlice S100000x128 ![0, 0] P slices_S100000x256_S100000x128_0_0
def sl1 (P : (⟨S100000x256, .f32⟩ : BufTy).Contents (Elt F)) : (⟨S100000x1, .f32⟩ : BufTy).Contents (Elt F) := extractStridedSlice S100000x1 ![0, 128] P slices_S100000x256_S100000x1_0_128
def sl2 (P : (⟨S100000x256, .f32⟩ : BufTy).Contents (Elt F)) : (⟨S100000x1, .f32⟩ : BufTy).Contents (Elt F) := extractStridedSlice S100000x1 ![0, 129] P slices_S100000x256_S100000x1_0_129

/-- A score column as one row of the result. -/
def rowOf (c0 : (⟨S1600000x1, .f32⟩ : BufTy).Contents (Elt F)) : (⟨S1x1600000, .f32⟩ : BufTy).Contents (Elt F) :=
  broadcastInDim S1x1600000 ![1] bcast_S1600000_S1x1600000_1 (shapeCast S1600000 c0 shapeCasts_S1600000x1_S1600000)

/-- The six rows stacked. -/
def stack6 (r0 r1 r2 r3 r4 r5 : (⟨S1x1600000, .f32⟩ : BufTy).Contents (Elt F)) : (⟨S6x1600000, .f32⟩ : BufTy).Contents (Elt F) :=
  concatenate S6x1600000 0 [⟨S1x1600000, r0⟩, ⟨S1x1600000, r1⟩, ⟨S1x1600000, r2⟩, ⟨S1x1600000, r3⟩, ⟨S1x1600000, r4⟩, ⟨S1x1600000, r5⟩] concatenates_S1x1600000_S1x1600000_S1x1600000_S1x1600000_S1x1600000_S1x1600000_S6x1600000_d0

end Defs

end Cert.KernelIdeal.Hand

end
-- ==== Proof.Spec.lean ====
/-
  The arrays the four pipelined regions compute, each as one function of whole input arrays, entry by entry, over
  the extended reals.

  * `scaledProd x s w`: row n of x is scaled by the n-th entry of the column s and multiplied into w; entry (n, q)
    is the sum over k of (x[n,k] · s[n,0]) · w[k,q].
  * The four kinds of edge score, each an [E, 1] column: exp of the row sum of a + b (two [E, K] arrays); exp of the
    row sum of a + b with b an [E, 1] column spread along the row; exp of a + b for two columns; and the logistic
    function of (a · b) · u for two columns and a fixed scalar u.
-/
import Idealize.ShloMosaic.Lib.ValueIdx
import Idealize.ShloMosaic.PureOps.Ideal

noncomputable section

namespace Cert.Spec

open Idealize.ShloMosaic Idealize.ShloMosaic.ValueIdx

/-- The first coordinate of a rank-2 index, typed by the literal extent. -/
abbrev row {n0 n1 : ℕ} (i : (⟨2, ![n0, n1]⟩ : Shape).Idx) : Fin n0 := ⟨(i 0).val, idx2_lt0 i⟩
/-- The second coordinate of a rank-2 index, typed by the literal extent. -/
abbrev col {n0 n1 : ℕ} (i : (⟨2, ![n0, n1]⟩ : Shape).Idx) : Fin n1 := ⟨(i 1).val, idx2_lt1 i⟩

/-- Entry (n, q) of `(x * s) · w`: the sum over k of (x[n,k] · s[n,0]) · w[k,q]. -/
def scaledProd {N K C : ℕ} (x : (⟨2, ![N, K]⟩ : Shape).Idx → EReal) (s : (⟨2, ![N, 1]⟩ : Shape).Idx → EReal)
    (w : (⟨2, ![K, C]⟩ : Shape).Idx → EReal) : (⟨2, ![N, C]⟩ : Shape).Idx → EReal :=
  fun i => ∑ k : Fin K, (x (ix2 (row i) k) * s (ix2 (row i) (0 : Fin 1))) * w (ix2 k (col i))

/-- exp of the sum along row e of a + b. -/
def expRowSum {E K : ℕ} (a b : (⟨2, ![E, K]⟩ : Shape).Idx → EReal) : (⟨2, ![E, 1]⟩ : Shape).Idx → EReal :=
  fun i => Ideal.exp (∑ k : Fin K, (a (ix2 (row i) k) + b (ix2 (row i) k)))

/-- exp of the sum along row e of a[e,k] + b[e,0]: the column b spread along the row. -/
def expRowSumCol {E K : ℕ} (a : (⟨2, ![E, K]⟩ : Shape).Idx → EReal) (b : (⟨2, ![E, 1]⟩ : Shape).Idx → EReal) :
    (⟨2, ![E, 1]⟩ : Shape).Idx → EReal :=
  fun i => Ideal.exp (∑ k : Fin K, (a (ix2 (row i) k) + b (ix2 (row i) (0 : Fin 1))))

/-- exp of a + b, two columns. -/
def expAdd {E : ℕ} (a b : (⟨2, ![E, 1]⟩ : Shape).Idx → EReal) : (⟨2, ![E, 1]⟩ : Shape).Idx → EReal :=
  fun i => Ideal.exp (a (ix2 (row i) (0 : Fin 1)) + b (ix2 (row i) (0 : Fin 1)))

/-- The logistic function of (a · b) · u, two columns and a scalar. -/
def logisticMul {E : ℕ} (u : EReal) (a b : (⟨2, ![E, 1]⟩ : Shape).Idx → EReal) : (⟨2, ![E, 1]⟩ : Shape).Idx → EReal :=
  fun i => Ideal.logistic ((a (ix2 (row i) (0 : Fin 1)) * b (ix2 (row i) (0 : Fin 1))) * u)

end Cert.Spec

end
-- ==== Proof.LibPlainDot.lean ====
/-
  A matrix product contracted over ONE axis, read at an entry as a sum over `Fin n`.

  The library reads a product at an entry `j` as a sum over the contraction's own index type, the operands read at the
  product's operand indices. When the contraction has one axis of extent `n`, and the operand indices at `j` are known
  functions `li`, `ri` of that axis's coordinate, the sum is over `k : Fin n` of the left operand at `li k` times the
  right operand at `ri k`. Also here: two rank-2 indices are equal when their coordinates are.
-/
import Idealize.ShloMosaic.Lib.ValueIdx
import Idealize.ShloMosaic.PureOps.Ideal.Laws

noncomputable section

namespace Cert.LibPlainDot

open Idealize.ShloMosaic

/-- Two indices of a rank-2 shape are equal when their two coordinates are equal as numbers. -/
theorem ext2 {n0 n1 : ℕ} (i i' : (⟨2, ![n0, n1]⟩ : Shape).Idx) (h0 : (i 0).val = (i' 0).val) (h1 : (i 1).val = (i' 1).val) :
    i = i' :=
  funext fun a => Fin.ext (match a with
    | ⟨0, _⟩ => h0
    | ⟨1, _⟩ => h1)

/-- The sum over a one-axis contraction, re-indexed by the axis's coordinate `k : Fin n`: given what the two operand
    indices are at each contraction index (`hl`, `hr`, stated through the coordinate), the product's sum at `j` is
    `∑ k, f (li k) * g (ri k)`. -/
theorem sum_contr {sl sr so : Shape} (d : DotDims sl sr so) (n : ℕ) (hrk : d.contr.rank = 1)
    (hs : d.contr.size ⟨0, by omega⟩ = n) (j : so.Idx) (f : sl.Idx → EReal) (g : sr.Idx → EReal)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    ∑ q : d.contr.Idx, f (d.lhsIdx j q) * g (d.rhsIdx j q) = ∑ k : Fin n, f (li k) * g (ri k) := by
  rw [← Equiv.sum_comp (ValueIdx.contrEquiv1 d n hrk hs)]
  exact Finset.sum_congr rfl fun q _ => by rw [hl q, hr q]

/-- A product into a zero accumulator on the vector unit, at the exact instance, read at an entry over `Fin n`. -/
theorem matmul_zero_apply {sl sr so : Shape} {φ₁ φ₂ : FTy} (d : DotDims sl sr so) (prec : Option ContractPrecision)
    (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.matmul d prec lhs rhs (constant so .f32 0x00000000#32) j = ∑ k : Fin n, lhs (li k) * rhs (ri k) :=
  (Ideal.matmul_constant_zero_apply d prec lhs rhs j).trans (sum_contr d n hrk hs j lhs rhs li ri hl hr)

/-- A host product at the exact instance, read at an entry over `Fin n`. -/
theorem dotGeneral_apply {sl sr so : Shape} {φ₁ φ₂ : FTy} (d : DotDims sl sr so) (prec : Option ContractPrecision)
    (sched : HostSchedule) (n : ℕ) (hrk : d.contr.rank = 1) (hs : d.contr.size ⟨0, by omega⟩ = n)
    (lhs : FVec Ideal sl φ₁) (rhs : FVec Ideal sr φ₂) (j : so.Idx)
    (li : Fin n → sl.Idx) (ri : Fin n → sr.Idx)
    (hl : ∀ q : d.contr.Idx, d.lhsIdx j q = li (ValueIdx.contrEquiv1 d n hrk hs q))
    (hr : ∀ q : d.contr.Idx, d.rhsIdx j q = ri (ValueIdx.contrEquiv1 d n hrk hs q)) :
    FloatOps.dotGeneral d prec sched lhs rhs j = ∑ k : Fin n, lhs (li k) * rhs (ri k) :=
  (Ideal.dotGeneral_apply d prec sched lhs rhs j).trans (sum_contr d n hrk hs j lhs rhs li ri hl hr)

end Cert.LibPlainDot

end
-- ==== Proof.LibLayoutCol.lean ====
/-
  Two layout operations read at an index written by coordinates, for a column kept after a reduction along the
  rows' second axis: a vector of length a viewed as an [a, 1] column, and an [a, 1] column repeated along b columns.
  They complete the leading-unit-axis forms of the library's ValueLayout file.
-/
import Idealize.ShloMosaic.Lib.Pipeline.Value
import Idealize.ShloMosaic.Lib.ValueIdx

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KiMatVal.lean ====
/-
  The three dense projections read as arrays: after each region's 25 grid points its output array holds, at every
  entry (n, q), the sum over the 128 contraction coordinates k of (x[n,k] · s[n,0]) · w[k,q], of the arrays x, s, w
  the region is entered with. Per region: the body's result at an entry of a block; the block a grid point writes
  back as that block of the product array; the blocks cover the array.
-/
import proofs.«158881_j66597762892109_2_alg».proof.Proof.KiMat
import proofs.«158881_j66597762892109_2_alg».proof.Proof.Spec
import proofs.«158881_j66597762892109_2_alg».proof.Proof.LibPlainDot
import proofs.«158881_j66597762892109_2_alg».proof.Proof.LibLayoutCol
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-- The zero offset of a whole rectangle. -/
theorem hz2 : (![0, 0] : Fin 2 → Nat) = fun _ => 0 := funext fun a => by fin_cases a <;> rfl

/-! # Region 0: the array of the product after the run

Entry (n, q) of the output is the sum over the 128 contraction coordinates k of (x[n,k] · s[n,0]) · w[k,q]: first at
an entry of one block, from the body's operations; then for the block a grid point writes back, read off the arrays
the region is entered with; then for the whole array, which the 25 blocks of 4000 rows cover. -/

/-- The body's result at entry (p, q) of a block: rounding to a narrower format keeps an extended real, a cast to the
    same shape reads the same entry, the column spread along the row reads the row's entry, the product of two arrays is
    entry by entry, and the matrix product into a zero accumulator is the sum over the contraction coordinate. -/
theorem pay0_apply (x0 : Vec Ideal S4000x128 .f32) (x1 : Vec Ideal S4000x1 .f32) (x2 : Vec Ideal S128x128 .f32) (p : Fin 4000) (q : Fin 128) :
    k0_pay1 (F := Ideal) x0 x1 x2 (ix2 p q) = ∑ k : Fin 128, (x0 (ix2 p k) * x1 (ix2 p (0 : Fin 1))) * x2 (ix2 k q) := by
  unfold k0_pay1
  refine (Cert.LibPlainDot.matmul_zero_apply dot_S4000x128_S128x128_S4000x128_1_0_0_1_n_n none 128 rfl rfl _ _ (ix2 p q)
    (fun k => ix2 p k) (fun k => ix2 k q) ?hl ?hr).trans ?_
  case hl =>
    intro k
    funext ax; apply Fin.ext
    match ax with
    | ⟨0, _⟩ => simp [DotDims.lhsIdx, dot_S4000x128_S128x128_S4000x128_1_0_0_1_n_n]; rfl
    | ⟨1, _⟩ => simp [DotDims.lhsIdx, dot_S4000x128_S128x128_S4000x128_1_0_0_1_n_n]; rfl
  case hr =>
    intro k
    funext ax; apply Fin.ext
    match ax with
    | ⟨0, _⟩ => simp [DotDims.rhsIdx, dot_S4000x128_S128x128_S4000x128_1_0_0_1_n_n]; rfl
    | ⟨1, _⟩ => simp [DotDims.rhsIdx, dot_S4000x128_S128x128_S4000x128_1_0_0_1_n_n]; rfl
  refine Finset.sum_congr rfl fun k _ => ?_
  show (x0 (ix2 p k) * broadcastTo S4000x128 (shapeCast S4000x1 x1 shapeCasts_S4000x1_S4000x1) broadcasts_S4000x1_S4000x128 (ix2 p k)) * x2 (ix2 k q) = _
  rw [broadcastTo_a1_ab_apply]
  simp only [shapeCast_self]

/-- The index maps over the grid: the two row windows move with the output's block of rows, every other block
    coordinate is 0, and the output's row-block index is below 25. -/
theorem idx_facts0 : ∀ t : Fin cfg0.N, win0_0.index t (0 : Fin 2) = win0_3.index t (0 : Fin 2)
    ∧ win0_0.index t (1 : Fin 2) = 0
    ∧ win0_1.index t (0 : Fin 2) = win0_3.index t (0 : Fin 2)
    ∧ win0_1.index t (1 : Fin 2) = 0
    ∧ win0_2.index t (0 : Fin 2) = 0
    ∧ win0_2.index t (1 : Fin 2) = 0
    ∧ win0_3.index t (1 : Fin 2) = 0
    ∧ win0_3.index t (0 : Fin 2) ≤ 24 :=
  (by decide +kernel : ∀ t : Fin grid0.N, _)

/-- Every block of 4000 rows is some point's. -/
theorem idx_onto0 : ∀ q0 : Fin 25, ∃ t : Fin cfg0.N, win0_3.index t = ![q0.val, 0] :=
  (by decide +kernel : ∀ q0 : Fin 25, ∃ t : Fin grid0.N, win0_3.index t = ![q0.val, 0])

section Region0
variable (V : (c : Dev nD) → (b : Ref sig .tc) → Buf (Elt Ideal) ((c : Thread nD τ).loc b))

set_option maxHeartbeats 400000 in
/-- What point t writes back is block t of the scaled product of the arrays as the region finds them: entry (p, q) of
    the block is row 4000·(block index) + p of x and of the scale column, and column q of the whole weight matrix. -/
theorem flushed0_3_eq (c : Dev nD) (t : Fin cfg0.N) :
    (dat0 (F := Ideal) V c).flushed 3 t = ((cfg0.win 3).blk t).view.read (Elt Ideal)
      (Cert.Spec.scaledProd (N := 100000) (K := 128) (C := 128) (V c main_arg0) (V c main_v6) (V c main_arg1)) := by
  show (cfg0.win 3).cut (grid0.coords t) ((dat0 V c).after 3 t) = _
  rw [after0_3]
  unfold out0_3
  rw [View.canon_unit_zero hz2]
  simp only [View.ld_unit_zero (S := S4000x128) hz2, View.ld_unit_zero (S := S4000x1) hz2, View.ld_unit_zero (S := S128x128) hz2]
  funext j
  obtain ⟨p, q, rfl⟩ : ∃ (p : Fin 4000) (q : Fin 128), j = ix2 p q := ⟨j 0, j 1, eq_ix2 j⟩
  obtain ⟨e00, e01, e10, e11, e20, e21, e31, e3b⟩ := idx_facts0 t
  show k0_pay1 (iblk0 V c 0 t) (iblk0 V c 1 t) (iblk0 V c 2 t) (ix2 p q)
    = Cert.Spec.scaledProd (N := 100000) (K := 128) (C := 128) (V c main_arg0) (V c main_v6) (V c main_arg1) (((cfg0.win 3).blk t).view.emb (ix2 p q))
  rw [pay0_apply]
  unfold Cert.Spec.scaledProd
  refine Finset.sum_congr rfl fun k _ => ?_
  have hp := p.isLt
  have hq := q.isLt
  have hk := k.isLt
  refine congrArg₂ (· * ·) (congrArg₂ (· * ·) ?_ ?_) ?_
  · show V c main_arg0 (((cfg0.win 0).blk t).view.emb (ix2 p k)) = _
    refine congrArg (V c main_arg0) (Cert.LibPlainDot.ext2 _ _ ?_ ?_)
    · show win0_0.index t (0 : Fin 2) * 4000 + 1 * p.val = win0_3.index t (0 : Fin 2) * 4000 + 1 * p.val
      omega
    · show win0_0.index t (1 : Fin 2) * 128 + 1 * k.val = k.val
      omega
  · show V c main_v6 (((cfg0.win 1).blk t).view.emb (ix2 p (0 : Fin 1))) = _
    refine congrArg (V c main_v6) (Cert.LibPlainDot.ext2 _ _ ?_ ?_)
    · show win0_1.index t (0 : Fin 2) * 4000 + 1 * p.val = win0_3.index t (0 : Fin 2) * 4000 + 1 * p.val
      omega
    · show win0_1.index t (1 : Fin 2) * 1 + 1 * 0 = 0
      omega
  · show V c main_arg1 (((cfg0.win 2).blk t).view.emb (ix2 k q)) = _
    refine congrArg (V c main_arg1) (Cert.LibPlainDot.ext2 _ _ ?_ ?_)
    · show win0_2.index t (0 : Fin 2) * 128 + 1 * k.val = k.val
      omega
    · show win0_2.index t (1 : Fin 2) * 128 + 1 * q.val = win0_3.index t (1 : Fin 2) * 128 + 1 * q.val
      omega

/-- An index of the array is in point t's block iff each coordinate is in the block's range on its axis. -/
theorem mem_blk0_3 (t : Fin cfg0.N) (i : S100000x128.Idx) :
    i ∈ ((cfg0.win 3).blk t).view.set ↔ ∀ a : Fin 2, win0_3.index t a * S4000x128.size a ≤ (i a).val ∧ (i a).val < win0_3.index t a * S4000x128.size a + S4000x128.size a := by
  show i ∈ ((View.whole main_v9).slice (win0_3.rect t)).set ↔ _
  rw [View.set_slice_whole, Rect.mem_set_unit]
  exact Iff.rfl

set_option maxHeartbeats 400000 in
/-- The 25 blocks of 4000 rows cover the 100000 rows (row n is in block n / 4000), so the array ends holding the
    scaled product at every entry. -/
theorem final0_3 (c : Dev nD) :
    (dat0 (F := Ideal) V c).arrAt 3 cfg0.N = Cert.Spec.scaledProd (N := 100000) (K := 128) (C := 128) (V c main_arg0) (V c main_v6) (V c main_arg1) :=
  (dat0 (F := Ideal) V c).arrAt_eq_of_cover 3 _ (fun t _ => flushed0_3_eq V c t) fun i => by
    have hi0 : (i 0).val < 100000 := (i 0).isLt
    have hi1 : (i 1).val < 128 := (i 1).isLt
    obtain ⟨t, ht⟩ := idx_onto0 ⟨(i 0).val / 4000, by omega⟩
    have q0 : win0_3.index t (0 : Fin 2) = (i 0).val / 4000 := congrFun ht 0
    have q1 : win0_3.index t (1 : Fin 2) = 0 := congrFun ht 1
    refine ⟨t, flush0_3 t, ?_⟩
    rw [mem_blk0_3]
    intro a
    match a with
    | ⟨0, _⟩ => show win0_3.index t (0 : Fin 2) * 4000 ≤ (i 0).val ∧ (i 0).val < win0_3.index t (0 : Fin 2) * 4000 + 4000; omega
    | ⟨1, _⟩ => show win0_3.index t (1 : Fin 2) * 128 ≤ (i 1).val ∧ (i 1).val < win0_3.index t (1 : Fin 2) * 128 + 128; omega

end Region0

/-! # Region 1: the array of the product after the run

Entry (n, q) of the output is the sum over the 128 contraction coordinates k of (x[n,k] · s[n,0]) · w[k,q]: first at
an entry of one block, from the body's operations; then for the block a grid point writes back, read off the arrays
the region is entered with; then for the whole array, which the 25 blocks of 4000 rows cover. -/

/-- The body's result at entry (p, q) of a block: rounding to a narrower format keeps an extended real, a cast to the
    same shape reads the same entry, the column spread along the row reads the row's entry, the product of two arrays is
    entry by entry, and the matrix product into a zero accumulator is the sum over the contraction coordinate. -/
theorem pay1_apply (x0 : Vec Ideal S4000x128 .f32) (x1 : Vec Ideal S4000x1 .f32) (x2 : Vec Ideal S128x128 .f32) (p : Fin 4000) (q : Fin 128) :
    k1_pay1 (F := Ideal) x0 x1 x2 (ix2 p q) = ∑ k : Fin 128, (x0 (ix2 p k) * x1 (ix2 p (0 : Fin 1))) * x2 (ix2 k q) := by
  unfold k1_pay1
  refine (Cert.LibPlainDot.matmul_zero_apply dot_S4000x128_S128x128_S4000x128_1_0_0_1_n_n none 128 rfl rfl _ _ (ix2 p q)
    (fun k => ix2 p k) (fun k => ix2 k q) ?hl ?hr).trans ?_
  case hl =>
    intro k
    funext ax; apply Fin.ext
    match ax with
    | ⟨0, _⟩ => simp [DotDims.lhsIdx, dot_S4000x128_S128x128_S4000x128_1_0_0_1_n_n]; rfl
    | ⟨1, _⟩ => simp [DotDims.lhsIdx, dot_S4000x128_S128x128_S4000x128_1_0_0_1_n_n]; rfl
  case hr =>
    intro k
    funext ax; apply Fin.ext
    match ax with
    | ⟨0, _⟩ => simp [DotDims.rhsIdx, dot_S4000x128_S128x128_S4000x128_1_0_0_1_n_n]; rfl
    | ⟨1, _⟩ => simp [DotDims.rhsIdx, dot_S4000x128_S128x128_S4000x128_1_0_0_1_n_n]; rfl
  refine Finset.sum_congr rfl fun k _ => ?_
  show (shapeCast S4000x128 x0 shapeCasts_S4000x128_S4000x128 (ix2 p k) * broadcastTo S4000x128 (shapeCast S4000x1 x1 shapeCasts_S4000x1_S4000x1) broadcasts_S4000x1_S4000x128 (ix2 p k)) * x2 (ix2 k q) = _
  rw [broadcastTo_a1_ab_apply]
  simp only [shapeCast_self]

/-- The index maps over the grid: the two row windows move with the output's block of rows, every other block
    coordinate is 0, and the output's row-block index is below 25. -/
theorem idx_facts1 : ∀ t : Fin cfg1.N, win1_0.index t (0 : Fin 2) = win1_3.index t (0 : Fin 2)
    ∧ win1_0.index t (1 : Fin 2) = 0
    ∧ win1_1.index t (0 : Fin 2) = win1_3.index t (0 : Fin 2)
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 24 :=
  (by decide +kernel : ∀ t : Fin grid1.N, _)

/-- Every block of 4000 rows is some point's. -/
theorem idx_onto1 : ∀ q0 : Fin 25, ∃ t : Fin cfg1.N, win1_3.index t = ![q0.val, 0] :=
  (by decide +kernel : ∀ q0 : Fin 25, ∃ t : Fin grid1.N, win1_3.index t = ![q0.val, 0])

section Region1
variable (V : (c : Dev nD) → (b : Ref sig .tc) → Buf (Elt Ideal) ((c : Thread nD τ).loc b))

set_option maxHeartbeats 400000 in
/-- What point t writes back is block t of the scaled product of the arrays as the region finds them: entry (p, q) of
    the block is row 4000·(block index) + p of x and of the scale column, and column q of the whole weight matrix. -/
theorem flushed1_3_eq (c : Dev nD) (t : Fin cfg1.N) :
    (dat1 (F := Ideal) V c).flushed 3 t = ((cfg1.win 3).blk t).view.read (Elt Ideal)
      (Cert.Spec.scaledProd (N := 100000) (K := 128) (C := 128) (V c main_v19) (V c main_v8) (V c main_arg2)) := by
  show (cfg1.win 3).cut (grid1.coords t) ((dat1 V c).after 3 t) = _
  rw [after1_3]
  unfold out1_3
  rw [View.canon_unit_zero hz2]
  simp only [View.ld_unit_zero (S := S4000x128) hz2, View.ld_unit_zero (S := S4000x1) hz2, View.ld_unit_zero (S := S128x128) hz2]
  funext j
  obtain ⟨p, q, rfl⟩ : ∃ (p : Fin 4000) (q : Fin 128), j = ix2 p q := ⟨j 0, j 1, eq_ix2 j⟩
  obtain ⟨e00, e01, e10, e11, e20, e21, e31, e3b⟩ := idx_facts1 t
  show k1_pay1 (iblk1 V c 0 t) (iblk1 V c 1 t) (iblk1 V c 2 t) (ix2 p q)
    = Cert.Spec.scaledProd (N := 100000) (K := 128) (C := 128) (V c main_v19) (V c main_v8) (V c main_arg2) (((cfg1.win 3).blk t).view.emb (ix2 p q))
  rw [pay1_apply]
  unfold Cert.Spec.scaledProd
  refine Finset.sum_congr rfl fun k _ => ?_
  have hp := p.isLt
  have hq := q.isLt
  have hk := k.isLt
  refine congrArg₂ (· * ·) (congrArg₂ (· * ·) ?_ ?_) ?_
  · show V c main_v19 (((cfg1.win 0).blk t).view.emb (ix2 p k)) = _
    refine congrArg (V c main_v19) (Cert.LibPlainDot.ext2 _ _ ?_ ?_)
    · show win1_0.index t (0 : Fin 2) * 4000 + 1 * p.val = win1_3.index t (0 : Fin 2) * 4000 + 1 * p.val
      omega
    · show win1_0.index t (1 : Fin 2) * 128 + 1 * k.val = k.val
      omega
  · show V c main_v8 (((cfg1.win 1).blk t).view.emb (ix2 p (0 : Fin 1))) = _
    refine congrArg (V c main_v8) (Cert.LibPlainDot.ext2 _ _ ?_ ?_)
    · show win1_1.index t (0 : Fin 2) * 4000 + 1 * p.val = win1_3.index t (0 : Fin 2) * 4000 + 1 * p.val
      omega
    · show win1_1.index t (1 : Fin 2) * 1 + 1 * 0 = 0
      omega
  · show V c main_arg2 (((cfg1.win 2).blk t).view.emb (ix2 k q)) = _
    refine congrArg (V c main_arg2) (Cert.LibPlainDot.ext2 _ _ ?_ ?_)
    · show win1_2.index t (0 : Fin 2) * 128 + 1 * k.val = k.val
      omega
    · show win1_2.index t (1 : Fin 2) * 128 + 1 * q.val = win1_3.index t (1 : Fin 2) * 128 + 1 * q.val
      omega

/-- An index of the array is in point t's block iff each coordinate is in the block's range on its axis. -/
theorem mem_blk1_3 (t : Fin cfg1.N) (i : S100000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v20).slice (win1_3.rect t)).set ↔ _
  rw [View.set_slice_whole, Rect.mem_set_unit]
  exact Iff.rfl

set_option maxHeartbeats 400000 in
/-- The 25 blocks of 4000 rows cover the 100000 rows (row n is in block n / 4000), so the array ends holding the
    scaled product at every entry. -/
theorem final1_3 (c : Dev nD) :
    (dat1 (F := Ideal) V c).arrAt 3 cfg1.N = Cert.Spec.scaledProd (N := 100000) (K := 128) (C := 128) (V c main_v19) (V c main_v8) (V c main_arg2) :=
  (dat1 (F := Ideal) V c).arrAt_eq_of_cover 3 _ (fun t _ => flushed1_3_eq V c t) fun i => by
    have hi0 : (i 0).val < 100000 := (i 0).isLt
    have hi1 : (i 1).val < 128 := (i 1).isLt
    obtain ⟨t, ht⟩ := idx_onto1 ⟨(i 0).val / 4000, by omega⟩
    have q0 : win1_3.index t (0 : Fin 2) = (i 0).val / 4000 := congrFun ht 0
    have q1 : win1_3.index t (1 : Fin 2) = 0 := congrFun ht 1
    refine ⟨t, flush1_3 t, ?_⟩
    rw [mem_blk1_3]
    intro a
    match a with
    | ⟨0, _⟩ => show win1_3.index t (0 : Fin 2) * 4000 ≤ (i 0).val ∧ (i 0).val < win1_3.index t (0 : Fin 2) * 4000 + 4000; omega
    | ⟨1, _⟩ => show win1_3.index t (1 : Fin 2) * 128 ≤ (i 1).val ∧ (i 1).val < win1_3.index t (1 : Fin 2) * 128 + 128; omega

end Region1

/-! # Region 2: the array of the product after the run

Entry (n, q) of the output is the sum over the 128 contraction coordinates k of (x[n,k] · s[n,0]) · w[k,q]: first at
an entry of one block, from the body's operations; then for the block a grid point writes back, read off the arrays
the region is entered with; then for the whole array, which the 25 blocks of 4000 rows cover. -/

/-- The body's result at entry (p, q) of a block: rounding to a narrower format keeps an extended real, a cast to the
    same shape reads the same entry, the column spread along the row reads the row's entry, the product of two arrays is
    entry by entry, and the matrix product into a zero accumulator is the sum over the contraction coordinate. -/
theorem pay2_apply (x0 : Vec Ideal S4000x128 .f32) (x1 : Vec Ideal S4000x1 .f32) (x2 : Vec Ideal S128x256 .f32) (p : Fin 4000) (q : Fin 256) :
    k2_pay1 (F := Ideal) x0 x1 x2 (ix2 p q) = ∑ k : Fin 128, (x0 (ix2 p k) * x1 (ix2 p (0 : Fin 1))) * x2 (ix2 k q) := by
  unfold k2_pay1
  refine (Cert.LibPlainDot.matmul_zero_apply dot_S4000x128_S128x256_S4000x256_1_0_0_1_n_n none 128 rfl rfl _ _ (ix2 p q)
    (fun k => ix2 p k) (fun k => ix2 k q) ?hl ?hr).trans ?_
  case hl =>
    intro k
    funext ax; apply Fin.ext
    match ax with
    | ⟨0, _⟩ => simp [DotDims.lhsIdx, dot_S4000x128_S128x256_S4000x256_1_0_0_1_n_n]; rfl
    | ⟨1, _⟩ => simp [DotDims.lhsIdx, dot_S4000x128_S128x256_S4000x256_1_0_0_1_n_n]; rfl
  case hr =>
    intro k
    funext ax; apply Fin.ext
    match ax with
    | ⟨0, _⟩ => simp [DotDims.rhsIdx, dot_S4000x128_S128x256_S4000x256_1_0_0_1_n_n]; rfl
    | ⟨1, _⟩ => simp [DotDims.rhsIdx, dot_S4000x128_S128x256_S4000x256_1_0_0_1_n_n]; rfl
  refine Finset.sum_congr rfl fun k _ => ?_
  show (shapeCast S4000x128 x0 shapeCasts_S4000x128_S4000x128 (ix2 p k) * broadcastTo S4000x128 (shapeCast S4000x1 x1 shapeCasts_S4000x1_S4000x1) broadcasts_S4000x1_S4000x128 (ix2 p k)) * shapeCast S128x256 x2 shapeCasts_S128x256_S128x256 (ix2 k q) = _
  rw [broadcastTo_a1_ab_apply]
  simp only [shapeCast_self]

/-- The index maps over the grid: the two row windows move with the output's block of rows, every other block
    coordinate is 0, and the output's row-block index is below 25. -/
theorem idx_facts2 : ∀ t : Fin cfg2.N, win2_0.index t (0 : Fin 2) = win2_3.index t (0 : Fin 2)
    ∧ win2_0.index t (1 : Fin 2) = 0
    ∧ win2_1.index t (0 : Fin 2) = win2_3.index t (0 : Fin 2)
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) ≤ 24 :=
  (by decide +kernel : ∀ t : Fin grid2.N, _)

/-- Every block of 4000 rows is some point's. -/
theorem idx_onto2 : ∀ q0 : Fin 25, ∃ t : Fin cfg2.N, win2_3.index t = ![q0.val, 0] :=
  (by decide +kernel : ∀ q0 : Fin 25, ∃ t : Fin grid2.N, win2_3.index t = ![q0.val, 0])

section Region2
variable (V : (c : Dev nD) → (b : Ref sig .tc) → Buf (Elt Ideal) ((c : Thread nD τ).loc b))

set_option maxHeartbeats 400000 in
/-- What point t writes back is block t of the scaled product of the arrays as the region finds them: entry (p, q) of
    the block is row 4000·(block index) + p of x and of the scale column, and column q of the whole weight matrix. -/
theorem flushed2_3_eq (c : Dev nD) (t : Fin cfg2.N) :
    (dat2 (F := Ideal) V c).flushed 3 t = ((cfg2.win 3).blk t).view.read (Elt Ideal)
      (Cert.Spec.scaledProd (N := 100000) (K := 128) (C := 256) (V c main_v30) (V c main_v6) (V c main_v32)) := by
  show (cfg2.win 3).cut (grid2.coords t) ((dat2 V c).after 3 t) = _
  rw [after2_3]
  unfold out2_3
  rw [View.canon_unit_zero hz2]
  simp only [View.ld_unit_zero (S := S4000x128) hz2, View.ld_unit_zero (S := S4000x1) hz2, View.ld_unit_zero (S := S128x256) hz2]
  funext j
  obtain ⟨p, q, rfl⟩ : ∃ (p : Fin 4000) (q : Fin 256), j = ix2 p q := ⟨j 0, j 1, eq_ix2 j⟩
  obtain ⟨e00, e01, e10, e11, e20, e21, e31, e3b⟩ := idx_facts2 t
  show k2_pay1 (iblk2 V c 0 t) (iblk2 V c 1 t) (iblk2 V c 2 t) (ix2 p q)
    = Cert.Spec.scaledProd (N := 100000) (K := 128) (C := 256) (V c main_v30) (V c main_v6) (V c main_v32) (((cfg2.win 3).blk t).view.emb (ix2 p q))
  rw [pay2_apply]
  unfold Cert.Spec.scaledProd
  refine Finset.sum_congr rfl fun k _ => ?_
  have hp := p.isLt
  have hq := q.isLt
  have hk := k.isLt
  refine congrArg₂ (· * ·) (congrArg₂ (· * ·) ?_ ?_) ?_
  · show V c main_v30 (((cfg2.win 0).blk t).view.emb (ix2 p k)) = _
    refine congrArg (V c main_v30) (Cert.LibPlainDot.ext2 _ _ ?_ ?_)
    · show win2_0.index t (0 : Fin 2) * 4000 + 1 * p.val = win2_3.index t (0 : Fin 2) * 4000 + 1 * p.val
      omega
    · show win2_0.index t (1 : Fin 2) * 128 + 1 * k.val = k.val
      omega
  · show V c main_v6 (((cfg2.win 1).blk t).view.emb (ix2 p (0 : Fin 1))) = _
    refine congrArg (V c main_v6) (Cert.LibPlainDot.ext2 _ _ ?_ ?_)
    · show win2_1.index t (0 : Fin 2) * 4000 + 1 * p.val = win2_3.index t (0 : Fin 2) * 4000 + 1 * p.val
      omega
    · show win2_1.index t (1 : Fin 2) * 1 + 1 * 0 = 0
      omega
  · show V c main_v32 (((cfg2.win 2).blk t).view.emb (ix2 k q)) = _
    refine congrArg (V c main_v32) (Cert.LibPlainDot.ext2 _ _ ?_ ?_)
    · show win2_2.index t (0 : Fin 2) * 128 + 1 * k.val = k.val
      omega
    · show win2_2.index t (1 : Fin 2) * 256 + 1 * q.val = win2_3.index t (1 : Fin 2) * 256 + 1 * q.val
      omega

/-- An index of the array is in point t's block iff each coordinate is in the block's range on its axis. -/
theorem mem_blk2_3 (t : Fin cfg2.N) (i : S100000x256.Idx) :
    i ∈ ((cfg2.win 3).blk t).view.set ↔ ∀ a : Fin 2, win2_3.index t a * S4000x256.size a ≤ (i a).val ∧ (i a).val < win2_3.index t a * S4000x256.size a + S4000x256.size a := by
  show i ∈ ((View.whole main_v33).slice (win2_3.rect t)).set ↔ _
  rw [View.set_slice_whole, Rect.mem_set_unit]
  exact Iff.rfl

set_option maxHeartbeats 400000 in
/-- The 25 blocks of 4000 rows cover the 100000 rows (row n is in block n / 4000), so the array ends holding the
    scaled product at every entry. -/
theorem final2_3 (c : Dev nD) :
    (dat2 (F := Ideal) V c).arrAt 3 cfg2.N = Cert.Spec.scaledProd (N := 100000) (K := 128) (C := 256) (V c main_v30) (V c main_v6) (V c main_v32) :=
  (dat2 (F := Ideal) V c).arrAt_eq_of_cover 3 _ (fun t _ => flushed2_3_eq V c t) fun i => by
    have hi0 : (i 0).val < 100000 := (i 0).isLt
    have hi1 : (i 1).val < 256 := (i 1).isLt
    obtain ⟨t, ht⟩ := idx_onto2 ⟨(i 0).val / 4000, by omega⟩
    have q0 : win2_3.index t (0 : Fin 2) = (i 0).val / 4000 := congrFun ht 0
    have q1 : win2_3.index t (1 : Fin 2) = 0 := congrFun ht 1
    refine ⟨t, flush2_3 t, ?_⟩
    rw [mem_blk2_3]
    intro a
    match a with
    | ⟨0, _⟩ => show win2_3.index t (0 : Fin 2) * 4000 ≤ (i 0).val ∧ (i 0).val < win2_3.index t (0 : Fin 2) * 4000 + 4000; omega
    | ⟨1, _⟩ => show win2_3.index t (1 : Fin 2) * 256 ≤ (i 1).val ∧ (i 1).val < win2_3.index t (1 : Fin 2) * 256 + 256; omega

end Region2

end Cert.KernelIdeal.Hand

end
-- ==== Proof.KiEdgeVal.lean ====
/-
  The edge-scoring region's six output arrays after its run, at the ideal values: each is one of the four score
  functions of whole input arrays. A grid point writes back a block of 512 rows; the 3125 blocks tile the 1600000
  rows, so each output array ends as its score function at every row.
-/
import proofs.«158881_j66597762892109_2_alg».proof.Proof.KiEdge
import proofs.«158881_j66597762892109_2_alg».proof.Proof.Spec
import proofs.«158881_j66597762892109_2_alg».proof.Proof.LibLayoutCol
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! # The six payloads at one row of a block -/

/-- The index the lane sum reads at row p, lane k, is (p, k). -/
theorem lift3 (p : Fin 512) (k : Fin 128) : reduces_S512x128_S512.lift (ix1 p) k = ix2 p k := by
  funext a
  match a with
  | ⟨0, _⟩ => exact Fin.ext rfl
  | ⟨1, _⟩ => exact Fin.ext rfl

/-- Row p of the first score: exp of the sum along the row of the two blocks added. -/
theorem pay10_apply (x0 x1 : Vec Ideal S512x128 .f32) (p : Fin 512) (u : Fin 1) :
    k3_pay10 (F := Ideal) x0 x1 (ix2 p u) = Ideal.exp (∑ k : Fin 128, (x0 (ix2 p k) + x1 (ix2 p k))) := by
  unfold k3_pay10
  try dsimp only
  rw [shapeCast_self, shapeCast_self]
  refine congrArg Ideal.exp ?_
  refine (shapeCast_a_a1_apply _ _ p u).trans ?_
  refine (Ideal.multiReduction_add_single _ 0x00000000#32 reduces_S512x128_S512 (.inl rfl) rfl (ix1 p)).trans ?_
  refine Finset.sum_congr rfl fun (k : Fin 128) _ => ?_
  rw [lift3 p k]
  rfl

/-- An entry of the second score: exp of the two columns' entries added. -/
theorem pay11_apply (x3 x4 : Vec Ideal S512x1 .f32) (j : S512x1.Idx) :
    k3_pay11 (F := Ideal) x3 x4 j = Ideal.exp (x3 j + x4 j) := by
  unfold k3_pay11
  try dsimp only
  rw [shapeCast_self, shapeCast_self]
  rfl

/-- An entry of the third score: the logistic function of the two columns' entries multiplied, times the literal scalar. -/
theorem pay12_apply (x7 x8 : Vec Ideal S512x1 .f32) (j : S512x1.Idx) :
    k3_pay1 (F := Ideal) (k3_pay12 x7 x8) j = Ideal.logistic ((x7 j * x8 j) * Ideal.ofBits .f32 0x3F800000#32) := by
  unfold k3_pay1 k3_pay12 k3_pay8
  try dsimp only
  rw [shapeCast_self, shapeCast_self]
  rfl

/-- Row p of the fourth score: exp of the sum along the row of the block plus the column's entry of that row. -/
theorem pay13_apply (x2 : Vec Ideal S512x128 .f32) (x6 : Vec Ideal S512x1 .f32) (p : Fin 512) (u : Fin 1) :
    k3_pay2 (F := Ideal) (k3_pay5 x2) (k3_pay7 x6) (ix2 p u) = Ideal.exp (∑ k : Fin 128, (x2 (ix2 p k) + x6 (ix2 p (0 : Fin 1)))) := by
  unfold k3_pay2 k3_pay5 k3_pay7
  try dsimp only
  rw [shapeCast_self, shapeCast_self]
  refine congrArg Ideal.exp ?_
  refine (shapeCast_a_a1_apply _ _ p u).trans ?_
  refine (Ideal.multiReduction_add_single _ 0x00000000#32 reduces_S512x128_S512 (.inl rfl) rfl (ix1 p)).trans ?_
  refine Finset.sum_congr rfl fun (k : Fin 128) _ => ?_
  rw [lift3 p k]
  refine congrArg (fun z : EReal => x2 (ix2 p k) + z) ?_
  exact broadcastTo_a1_ab_apply _ _ p k

/-- An entry of the fifth score: exp of the two columns' entries added. -/
theorem pay14_apply (x5 x6 : Vec Ideal S512x1 .f32) (j : S512x1.Idx) :
    k3_pay3 (F := Ideal) (k3_pay6 x5) (k3_pay7 x6) j = Ideal.exp (x5 j + x6 j) := by
  unfold k3_pay3 k3_pay6 k3_pay7
  try dsimp only
  rw [shapeCast_self, shapeCast_self]
  rfl

/-- An entry of the sixth score: the logistic function of the two columns' entries multiplied, times the literal scalar. -/
theorem pay15_apply (x7 x9 : Vec Ideal S512x1 .f32) (j : S512x1.Idx) :
    k3_pay4 (F := Ideal) (k3_pay8 x7) (k3_pay9 x9) j = Ideal.logistic ((x7 j * x9 j) * Ideal.ofBits .f32 0x3F800000#32) := by
  unfold k3_pay4 k3_pay8 k3_pay9
  try dsimp only
  rw [shapeCast_self, shapeCast_self]
  rfl

/-! # The index maps: at grid point t every window's block is block (t, 0) of its array (decided over the 3125 points) -/

theorem hz3 : (![0, 0] : Fin 2 → Nat) = fun _ => 0 := funext fun a => by fin_cases a <;> rfl

theorem idx3_0 : ∀ t : Fin cfg3.N, win3_0.index t (0 : Fin 2) = t.val ∧ win3_0.index t (1 : Fin 2) = 0 :=
  (by decide +kernel : ∀ t : Fin grid3.N, _)
theorem idx3_1 : ∀ t : Fin cfg3.N, win3_1.index t (0 : Fin 2) = t.val ∧ win3_1.index t (1 : Fin 2) = 0 :=
  (by decide +kernel : ∀ t : Fin grid3.N, _)
theorem idx3_2 : ∀ t : Fin cfg3.N, win3_2.index t (0 : Fin 2) = t.val ∧ win3_2.index t (1 : Fin 2) = 0 :=
  (by decide +kernel : ∀ t : Fin grid3.N, _)
theorem idx3_3 : ∀ t : Fin cfg3.N, win3_3.index t (0 : Fin 2) = t.val ∧ win3_3.index t (1 : Fin 2) = 0 :=
  (by decide +kernel : ∀ t : Fin grid3.N, _)
theorem idx3_4 : ∀ t : Fin cfg3.N, win3_4.index t (0 : Fin 2) = t.val ∧ win3_4.index t (1 : Fin 2) = 0 :=
  (by decide +kernel : ∀ t : Fin grid3.N, _)
theorem idx3_5 : ∀ t : Fin cfg3.N, win3_5.index t (0 : Fin 2) = t.val ∧ win3_5.index t (1 : Fin 2) = 0 :=
  (by decide +kernel : ∀ t : Fin grid3.N, _)
theorem idx3_6 : ∀ t : Fin cfg3.N, win3_6.index t (0 : Fin 2) = t.val ∧ win3_6.index t (1 : Fin 2) = 0 :=
  (by decide +kernel : ∀ t : Fin grid3.N, _)
theorem idx3_7 : ∀ t : Fin cfg3.N, win3_7.index t (0 : Fin 2) = t.val ∧ win3_7.index t (1 : Fin 2) = 0 :=
  (by decide +kernel : ∀ t : Fin grid3.N, _)
theorem idx3_8 : ∀ t : Fin cfg3.N, win3_8.index t (0 : Fin 2) = t.val ∧ win3_8.index t (1 : Fin 2) = 0 :=
  (by decide +kernel : ∀ t : Fin grid3.N, _)
theorem idx3_9 : ∀ t : Fin cfg3.N, win3_9.index t (0 : Fin 2) = t.val ∧ win3_9.index t (1 : Fin 2) = 0 :=
  (by decide +kernel : ∀ t : Fin grid3.N, _)
theorem idx3_10 : ∀ t : Fin cfg3.N, win3_10.index t (0 : Fin 2) = t.val ∧ win3_10.index t (1 : Fin 2) = 0 :=
  (by decide +kernel : ∀ t : Fin grid3.N, _)
theorem idx3_11 : ∀ t : Fin cfg3.N, win3_11.index t (0 : Fin 2) = t.val ∧ win3_11.index t (1 : Fin 2) = 0 :=
  (by decide +kernel : ∀ t : Fin grid3.N, _)
theorem idx3_12 : ∀ t : Fin cfg3.N, win3_12.index t (0 : Fin 2) = t.val ∧ win3_12.index t (1 : Fin 2) = 0 :=
  (by decide +kernel : ∀ t : Fin grid3.N, _)
theorem idx3_13 : ∀ t : Fin cfg3.N, win3_13.index t (0 : Fin 2) = t.val ∧ win3_13.index t (1 : Fin 2) = 0 :=
  (by decide +kernel : ∀ t : Fin grid3.N, _)
theorem idx3_14 : ∀ t : Fin cfg3.N, win3_14.index t (0 : Fin 2) = t.val ∧ win3_14.index t (1 : Fin 2) = 0 :=
  (by decide +kernel : ∀ t : Fin grid3.N, _)
theorem idx3_15 : ∀ t : Fin cfg3.N, win3_15.index t (0 : Fin 2) = t.val ∧ win3_15.index t (1 : Fin 2) = 0 :=
  (by decide +kernel : ∀ t : Fin grid3.N, _)

/-- A row of a block of 512 rows is a row of the array. -/
theorem row_lt3 (t : Fin cfg3.N) (p : Fin 512) : t.val * 512 + p.val < 1600000 := by
  have h : t.val < 3125 := lt_of_lt_of_eq t.isLt N_3
  have := p.isLt
  omega

/-! # The four score functions at an index whose row is known -/

theorem expRowSum_at {E K : ℕ} (a b : (⟨2, ![E, K]⟩ : Shape).Idx → EReal) (i : (⟨2, ![E, 1]⟩ : Shape).Idx) (r : Fin E)
    (h : Cert.Spec.row i = r) : Cert.Spec.expRowSum a b i = Ideal.exp (∑ k : Fin K, (a (ix2 r k) + b (ix2 r k))) := by
  subst h; rfl

theorem expRowSumCol_at {E K : ℕ} (a : (⟨2, ![E, K]⟩ : Shape).Idx → EReal) (b : (⟨2, ![E, 1]⟩ : Shape).Idx → EReal)
    (i : (⟨2, ![E, 1]⟩ : Shape).Idx) (r : Fin E) (h : Cert.Spec.row i = r) :
    Cert.Spec.expRowSumCol a b i = Ideal.exp (∑ k : Fin K, (a (ix2 r k) + b (ix2 r (0 : Fin 1)))) := by
  subst h; rfl

theorem expAdd_at {E : ℕ} (a b : (⟨2, ![E, 1]⟩ : Shape).Idx → EReal) (i : (⟨2, ![E, 1]⟩ : Shape).Idx) (r : Fin E)
    (h : Cert.Spec.row i = r) : Cert.Spec.expAdd a b i = Ideal.exp (a (ix2 r (0 : Fin 1)) + b (ix2 r (0 : Fin 1))) := by
  subst h; rfl

theorem logisticMul_at {E : ℕ} (s : EReal) (a b : (⟨2, ![E, 1]⟩ : Shape).Idx → EReal) (i : (⟨2, ![E, 1]⟩ : Shape).Idx) (r : Fin E)
    (h : Cert.Spec.row i = r) :
    Cert.Spec.logisticMul s a b i = Ideal.logistic ((a (ix2 r (0 : Fin 1)) * b (ix2 r (0 : Fin 1))) * s) := by
  subst h; rfl

section Region3Val
variable (V : (c : Dev nD) → (b : Ref sig .tc) → Buf (Elt Ideal) ((c : Thread nD τ).loc b))

/-! # An entry of an input block is an entry of the array: row p of block t is row 512 t + p -/

theorem iblk3_0_apply (c : Dev nD) (t : Fin cfg3.N) (p : Fin 512) (k : Fin 128) (r : Fin 1600000) (hr : r.val = t.val * 512 + p.val) :
    (iblk3 V c 0 t : Vec Ideal S512x128 .f32) (ix2 p k) = (V c main_v43 : S1600000x128.Idx → EReal) (ix2 r k) := by
  obtain ⟨e0, e1⟩ := idx3_0 t
  unfold iblk3
  rw [View.read_apply]
  show V c main_v43 _ = V c main_v43 _
  congr 1
  funext a
  apply Fin.ext
  match a with
  | ⟨0, _⟩ => show win3_0.index t (0 : Fin 2) * 512 + 1 * p.val = r.val; rw [e0, hr]; omega
  | ⟨1, _⟩ => show win3_0.index t (1 : Fin 2) * 128 + 1 * k.val = k.val; rw [e1]; omega

theorem iblk3_1_apply (c : Dev nD) (t : Fin cfg3.N) (p : Fin 512) (k : Fin 128) (r : Fin 1600000) (hr : r.val = t.val * 512 + p.val) :
    (iblk3 V c 1 t : Vec Ideal S512x128 .f32) (ix2 p k) = (V c main_v50 : S1600000x128.Idx → EReal) (ix2 r k) := by
  obtain ⟨e0, e1⟩ := idx3_1 t
  unfold iblk3
  rw [View.read_apply]
  show V c main_v50 _ = V c main_v50 _
  congr 1
  funext a
  apply Fin.ext
  match a with
  | ⟨0, _⟩ => show win3_1.index t (0 : Fin 2) * 512 + 1 * p.val = r.val; rw [e0, hr]; omega
  | ⟨1, _⟩ => show win3_1.index t (1 : Fin 2) * 128 + 1 * k.val = k.val; rw [e1]; omega

theorem iblk3_2_apply (c : Dev nD) (t : Fin cfg3.N) (p : Fin 512) (k : Fin 128) (r : Fin 1600000) (hr : r.val = t.val * 512 + p.val) :
    (iblk3 V c 2 t : Vec Ideal S512x128 .f32) (ix2 p k) = (V c main_v57 : S1600000x128.Idx → EReal) (ix2 r k) := by
  obtain ⟨e0, e1⟩ := idx3_2 t
  unfold iblk3
  rw [View.read_apply]
  show V c main_v57 _ = V c main_v57 _
  congr 1
  funext a
  apply Fin.ext
  match a with
  | ⟨0, _⟩ => show win3_2.index t (0 : Fin 2) * 512 + 1 * p.val = r.val; rw [e0, hr]; omega
  | ⟨1, _⟩ => show win3_2.index t (1 : Fin 2) * 128 + 1 * k.val = k.val; rw [e1]; omega

theorem iblk3_3_apply (c : Dev nD) (t : Fin cfg3.N) (p : Fin 512) (k : Fin 1) (r : Fin 1600000) (hr : r.val = t.val * 512 + p.val) :
    (iblk3 V c 3 t : Vec Ideal S512x1 .f32) (ix2 p k) = (V c main_v64 : S1600000x1.Idx → EReal) (ix2 r k) := by
  obtain ⟨e0, e1⟩ := idx3_3 t
  unfold iblk3
  rw [View.read_apply]
  show V c main_v64 _ = V c main_v64 _
  congr 1
  funext a
  apply Fin.ext
  match a with
  | ⟨0, _⟩ => show win3_3.index t (0 : Fin 2) * 512 + 1 * p.val = r.val; rw [e0, hr]; omega
  | ⟨1, _⟩ => show win3_3.index t (1 : Fin 2) * 1 + 1 * k.val = k.val; rw [e1]; omega

theorem iblk3_4_apply (c : Dev nD) (t : Fin cfg3.N) (p : Fin 512) (k : Fin 1) (r : Fin 1600000) (hr : r.val = t.val * 512 + p.val) :
    (iblk3 V c 4 t : Vec Ideal S512x1 .f32) (ix2 p k) = (V c main_v71 : S1600000x1.Idx → EReal) (ix2 r k) := by
  obtain ⟨e0, e1⟩ := idx3_4 t
  unfold iblk3
  rw [View.read_apply]
  show V c main_v71 _ = V c main_v71 _
  congr 1
  funext a
  apply Fin.ext
  match a with
  | ⟨0, _⟩ => show win3_4.index t (0 : Fin 2) * 512 + 1 * p.val = r.val; rw [e0, hr]; omega
  | ⟨1, _⟩ => show win3_4.index t (1 : Fin 2) * 1 + 1 * k.val = k.val; rw [e1]; omega

theorem iblk3_5_apply (c : Dev nD) (t : Fin cfg3.N) (p : Fin 512) (k : Fin 1) (r : Fin 1600000) (hr : r.val = t.val * 512 + p.val) :
    (iblk3 V c 5 t : Vec Ideal S512x1 .f32) (ix2 p k) = (V c main_v78 : S1600000x1.Idx → EReal) (ix2 r k) := by
  obtain ⟨e0, e1⟩ := idx3_5 t
  unfold iblk3
  rw [View.read_apply]
  show V c main_v78 _ = V c main_v78 _
  congr 1
  funext a
  apply Fin.ext
  match a with
  | ⟨0, _⟩ => show win3_5.index t (0 : Fin 2) * 512 + 1 * p.val = r.val; rw [e0, hr]; omega
  | ⟨1, _⟩ => show win3_5.index t (1 : Fin 2) * 1 + 1 * k.val = k.val; rw [e1]; omega

theorem iblk3_6_apply (c : Dev nD) (t : Fin cfg3.N) (p : Fin 512) (k : Fin 1) (r : Fin 1600000) (hr : r.val = t.val * 512 + p.val) :
    (iblk3 V c 6 t : Vec Ideal S512x1 .f32) (ix2 p k) = (V c main_v85 : S1600000x1.Idx → EReal) (ix2 r k) := by
  obtain ⟨e0, e1⟩ := idx3_6 t
  unfold iblk3
  rw [View.read_apply]
  show V c main_v85 _ = V c main_v85 _
  congr 1
  funext a
  apply Fin.ext
  match a with
  | ⟨0, _⟩ => show win3_6.index t (0 : Fin 2) * 512 + 1 * p.val = r.val; rw [e0, hr]; omega
  | ⟨1, _⟩ => show win3_6.index t (1 : Fin 2) * 1 + 1 * k.val = k.val; rw [e1]; omega

theorem iblk3_7_apply (c : Dev nD) (t : Fin cfg3.N) (p : Fin 512) (k : Fin 1) (r : Fin 1600000) (hr : r.val = t.val * 512 + p.val) :
    (iblk3 V c 7 t : Vec Ideal S512x1 .f32) (ix2 p k) = (V c main_v92 : S1600000x1.Idx → EReal) (ix2 r k) := by
  obtain ⟨e0, e1⟩ := idx3_7 t
  unfold iblk3
  rw [View.read_apply]
  show V c main_v92 _ = V c main_v92 _
  congr 1
  funext a
  apply Fin.ext
  match a with
  | ⟨0, _⟩ => show win3_7.index t (0 : Fin 2) * 512 + 1 * p.val = r.val; rw [e0, hr]; omega
  | ⟨1, _⟩ => show win3_7.index t (1 : Fin 2) * 1 + 1 * k.val = k.val; rw [e1]; omega

theorem iblk3_8_apply (c : Dev nD) (t : Fin cfg3.N) (p : Fin 512) (k : Fin 1) (r : Fin 1600000) (hr : r.val = t.val * 512 + p.val) :
    (iblk3 V c 8 t : Vec Ideal S512x1 .f32) (ix2 p k) = (V c main_v99 : S1600000x1.Idx → EReal) (ix2 r k) := by
  obtain ⟨e0, e1⟩ := idx3_8 t
  unfold iblk3
  rw [View.read_apply]
  show V c main_v99 _ = V c main_v99 _
  congr 1
  funext a
  apply Fin.ext
  match a with
  | ⟨0, _⟩ => show win3_8.index t (0 : Fin 2) * 512 + 1 * p.val = r.val; rw [e0, hr]; omega
  | ⟨1, _⟩ => show win3_8.index t (1 : Fin 2) * 1 + 1 * k.val = k.val; rw [e1]; omega

theorem iblk3_9_apply (c : Dev nD) (t : Fin cfg3.N) (p : Fin 512) (k : Fin 1) (r : Fin 1600000) (hr : r.val = t.val * 512 + p.val) :
    (iblk3 V c 9 t : Vec Ideal S512x1 .f32) (ix2 p k) = (V c main_v106 : S1600000x1.Idx → EReal) (ix2 r k) := by
  obtain ⟨e0, e1⟩ := idx3_9 t
  unfold iblk3
  rw [View.read_apply]
  show V c main_v106 _ = V c main_v106 _
  congr 1
  funext a
  apply Fin.ext
  match a with
  | ⟨0, _⟩ => show win3_9.index t (0 : Fin 2) * 512 + 1 * p.val = r.val; rw [e0, hr]; omega
  | ⟨1, _⟩ => show win3_9.index t (1 : Fin 2) * 1 + 1 * k.val = k.val; rw [e1]; omega

/-! # The six output arrays -/

/-! ## Output window 10: exp of the row sums of the two wide inputs added -/

/-- The row of the array that row p of output window 10's block at point t is. -/
theorem orow3_10 (t : Fin cfg3.N) (p : Fin 512) (u : Fin 1) :
    Cert.Spec.row (n0 := 1600000) (n1 := 1) (((cfg3.win 10).blk t).view.emb (ix2 p u)) = ⟨t.val * 512 + p.val, row_lt3 t p⟩ := by
  obtain ⟨e0, e1⟩ := idx3_10 t
  apply Fin.ext
  show win3_10.index t (0 : Fin 2) * 512 + 1 * p.val = t.val * 512 + p.val
  rw [e0]; omega

set_option maxHeartbeats 400000 in
/-- What point t writes back is block t of the score function of the whole input arrays. -/
theorem flushed3_10_eq (c : Dev nD) (t : Fin cfg3.N) :
    (dat3 (F := Ideal) V c).flushed 10 t = ((cfg3.win 10).blk t).view.read (Elt Ideal)
      (Cert.Spec.expRowSum (E := 1600000) (K := 128) (V c main_v43) (V c main_v50)) := by
  show (cfg3.win 10).cut (grid3.coords t) ((dat3 V c).after 10 t) = _
  rw [after3_10]
  unfold out3_10
  rw [View.canon_unit_zero hz3]
  simp only [View.ld_unit_zero (S := S512x128) hz3, View.ld_unit_zero (S := S512x1) hz3]
  funext j
  obtain ⟨p, u, rfl⟩ : ∃ (p : Fin 512) (u : Fin 1), j = ix2 p u := ⟨j 0, j 1, eq_ix2 j⟩
  refine (pay10_apply (iblk3 V c 0 t) (iblk3 V c 1 t) p u).trans ?_
  rw [View.read_apply]
  show Ideal.exp _ = Cert.Spec.expRowSum (V c main_v43) (V c main_v50) (((cfg3.win 10).blk t).view.emb (ix2 p u))
  refine Eq.trans ?_ (expRowSum_at _ _ _ _ (orow3_10 t p u)).symm
  refine congrArg Ideal.exp (Finset.sum_congr rfl fun (k : Fin 128) _ => ?_)
  rw [iblk3_0_apply V c t p k ⟨_, row_lt3 t p⟩ rfl, iblk3_1_apply V c t p k ⟨_, row_lt3 t p⟩ rfl]

/-- An index of the array is in point t's block iff each coordinate is in the block's range on its axis. -/
theorem mem_blk3_10 (t : Fin cfg3.N) (i : S1600000x1.Idx) :
    i ∈ ((cfg3.win 10).blk t).view.set ↔ ∀ a : Fin 2, win3_10.index t a * S512x1.size a ≤ (i a).val ∧ (i a).val < win3_10.index t a * S512x1.size a + S512x1.size a := by
  show i ∈ ((View.whole main_v107_0).slice (win3_10.rect t)).set ↔ _
  rw [View.set_slice_whole, Rect.mem_set_unit]
  exact Iff.rfl

/-- Every row of the array is in the block of the point that its number divided by 512 names. -/
theorem cover3_10 (i : S1600000x1.Idx) : ∃ t : Fin cfg3.N, (cfg3.win 10).flush t = true ∧ i ∈ ((cfg3.win 10).blk t).view.set := by
  have hi0 : (i 0).val < 1600000 := (i 0).isLt
  have hi1 : (i 1).val < 1 := (i 1).isLt
  have hN : (i 0).val / 512 < cfg3.N := lt_of_lt_of_eq (by omega) N_3.symm
  obtain ⟨e0, e1⟩ := idx3_10 ⟨(i 0).val / 512, hN⟩
  refine ⟨⟨(i 0).val / 512, hN⟩, flush3_10 _, ?_⟩
  rw [mem_blk3_10]
  intro a
  match a with
  | ⟨0, _⟩ =>
    show win3_10.index ⟨(i 0).val / 512, hN⟩ (0 : Fin 2) * 512 ≤ (i 0).val ∧ (i 0).val < win3_10.index ⟨(i 0).val / 512, hN⟩ (0 : Fin 2) * 512 + 512
    rw [e0]
    show (i 0).val / 512 * 512 ≤ (i 0).val ∧ (i 0).val < (i 0).val / 512 * 512 + 512
    omega
  | ⟨1, _⟩ =>
    show win3_10.index ⟨(i 0).val / 512, hN⟩ (1 : Fin 2) * 1 ≤ (i 1).val ∧ (i 1).val < win3_10.index ⟨(i 0).val / 512, hN⟩ (1 : Fin 2) * 1 + 1
    rw [e1]
    omega

/-- The array after the run: the blocks tile it, so it is the score function at every row. -/
theorem final3_10 (c : Dev nD) : (dat3 (F := Ideal) V c).arrAt 10 cfg3.N = Cert.Spec.expRowSum (E := 1600000) (K := 128) (V c main_v43) (V c main_v50) :=
  (dat3 V c).arrAt_eq_of_cover 10 _ (fun t _ => flushed3_10_eq V c t) cover3_10

/-! ## Output window 11: exp of the two columns added -/

/-- The row of the array that row p of output window 11's block at point t is. -/
theorem orow3_11 (t : Fin cfg3.N) (p : Fin 512) (u : Fin 1) :
    Cert.Spec.row (n0 := 1600000) (n1 := 1) (((cfg3.win 11).blk t).view.emb (ix2 p u)) = ⟨t.val * 512 + p.val, row_lt3 t p⟩ := by
  obtain ⟨e0, e1⟩ := idx3_11 t
  apply Fin.ext
  show win3_11.index t (0 : Fin 2) * 512 + 1 * p.val = t.val * 512 + p.val
  rw [e0]; omega

set_option maxHeartbeats 400000 in
/-- What point t writes back is block t of the score function of the whole input arrays. -/
theorem flushed3_11_eq (c : Dev nD) (t : Fin cfg3.N) :
    (dat3 (F := Ideal) V c).flushed 11 t = ((cfg3.win 11).blk t).view.read (Elt Ideal)
      (Cert.Spec.expAdd (E := 1600000) (V c main_v64) (V c main_v71)) := by
  show (cfg3.win 11).cut (grid3.coords t) ((dat3 V c).after 11 t) = _
  rw [after3_11]
  unfold out3_11
  rw [View.canon_unit_zero hz3]
  simp only [View.ld_unit_zero (S := S512x128) hz3, View.ld_unit_zero (S := S512x1) hz3]
  funext j
  obtain ⟨p, u, rfl⟩ : ∃ (p : Fin 512) (u : Fin 1), j = ix2 p u := ⟨j 0, j 1, eq_ix2 j⟩
  refine (pay11_apply (iblk3 V c 3 t) (iblk3 V c 4 t) (ix2 p u)).trans ?_
  rw [View.read_apply]
  show Ideal.exp _ = Cert.Spec.expAdd (V c main_v64) (V c main_v71) (((cfg3.win 11).blk t).view.emb (ix2 p u))
  refine Eq.trans ?_ (expAdd_at _ _ _ _ (orow3_11 t p u)).symm
  obtain rfl : u = 0 := Subsingleton.elim _ _
  rw [iblk3_3_apply V c t p (0 : Fin 1) ⟨_, row_lt3 t p⟩ rfl, iblk3_4_apply V c t p (0 : Fin 1) ⟨_, row_lt3 t p⟩ rfl]

/-- An index of the array is in point t's block iff each coordinate is in the block's range on its axis. -/
theorem mem_blk3_11 (t : Fin cfg3.N) (i : S1600000x1.Idx) :
    i ∈ ((cfg3.win 11).blk t).view.set ↔ ∀ a : Fin 2, win3_11.index t a * S512x1.size a ≤ (i a).val ∧ (i a).val < win3_11.index t a * S512x1.size a + S512x1.size a := by
  show i ∈ ((View.whole main_v107_1).slice (win3_11.rect t)).set ↔ _
  rw [View.set_slice_whole, Rect.mem_set_unit]
  exact Iff.rfl

/-- Every row of the array is in the block of the point that its number divided by 512 names. -/
theorem cover3_11 (i : S1600000x1.Idx) : ∃ t : Fin cfg3.N, (cfg3.win 11).flush t = true ∧ i ∈ ((cfg3.win 11).blk t).view.set := by
  have hi0 : (i 0).val < 1600000 := (i 0).isLt
  have hi1 : (i 1).val < 1 := (i 1).isLt
  have hN : (i 0).val / 512 < cfg3.N := lt_of_lt_of_eq (by omega) N_3.symm
  obtain ⟨e0, e1⟩ := idx3_11 ⟨(i 0).val / 512, hN⟩
  refine ⟨⟨(i 0).val / 512, hN⟩, flush3_11 _, ?_⟩
  rw [mem_blk3_11]
  intro a
  match a with
  | ⟨0, _⟩ =>
    show win3_11.index ⟨(i 0).val / 512, hN⟩ (0 : Fin 2) * 512 ≤ (i 0).val ∧ (i 0).val < win3_11.index ⟨(i 0).val / 512, hN⟩ (0 : Fin 2) * 512 + 512
    rw [e0]
    show (i 0).val / 512 * 512 ≤ (i 0).val ∧ (i 0).val < (i 0).val / 512 * 512 + 512
    omega
  | ⟨1, _⟩ =>
    show win3_11.index ⟨(i 0).val / 512, hN⟩ (1 : Fin 2) * 1 ≤ (i 1).val ∧ (i 1).val < win3_11.index ⟨(i 0).val / 512, hN⟩ (1 : Fin 2) * 1 + 1
    rw [e1]
    omega

/-- The array after the run: the blocks tile it, so it is the score function at every row. -/
theorem final3_11 (c : Dev nD) : (dat3 (F := Ideal) V c).arrAt 11 cfg3.N = Cert.Spec.expAdd (E := 1600000) (V c main_v64) (V c main_v71) :=
  (dat3 V c).arrAt_eq_of_cover 11 _ (fun t _ => flushed3_11_eq V c t) cover3_11

/-! ## Output window 12: the logistic function of the two columns' product times the scalar -/

/-- The row of the array that row p of output window 12's block at point t is. -/
theorem orow3_12 (t : Fin cfg3.N) (p : Fin 512) (u : Fin 1) :
    Cert.Spec.row (n0 := 1600000) (n1 := 1) (((cfg3.win 12).blk t).view.emb (ix2 p u)) = ⟨t.val * 512 + p.val, row_lt3 t p⟩ := by
  obtain ⟨e0, e1⟩ := idx3_12 t
  apply Fin.ext
  show win3_12.index t (0 : Fin 2) * 512 + 1 * p.val = t.val * 512 + p.val
  rw [e0]; omega

set_option maxHeartbeats 400000 in
/-- What point t writes back is block t of the score function of the whole input arrays. -/
theorem flushed3_12_eq (c : Dev nD) (t : Fin cfg3.N) :
    (dat3 (F := Ideal) V c).flushed 12 t = ((cfg3.win 12).blk t).view.read (Elt Ideal)
      (Cert.Spec.logisticMul (E := 1600000) (Ideal.ofBits .f32 0x3F800000#32) (V c main_v92) (V c main_v99)) := by
  show (cfg3.win 12).cut (grid3.coords t) ((dat3 V c).after 12 t) = _
  rw [after3_12]
  unfold out3_12
  rw [View.canon_unit_zero hz3]
  simp only [View.ld_unit_zero (S := S512x128) hz3, View.ld_unit_zero (S := S512x1) hz3]
  funext j
  obtain ⟨p, u, rfl⟩ : ∃ (p : Fin 512) (u : Fin 1), j = ix2 p u := ⟨j 0, j 1, eq_ix2 j⟩
  refine (pay12_apply (iblk3 V c 7 t) (iblk3 V c 8 t) (ix2 p u)).trans ?_
  rw [View.read_apply]
  show Ideal.logistic _ = Cert.Spec.logisticMul (Ideal.ofBits .f32 0x3F800000#32) (V c main_v92) (V c main_v99) (((cfg3.win 12).blk t).view.emb (ix2 p u))
  refine Eq.trans ?_ (logisticMul_at _ _ _ _ _ (orow3_12 t p u)).symm
  obtain rfl : u = 0 := Subsingleton.elim _ _
  rw [iblk3_7_apply V c t p (0 : Fin 1) ⟨_, row_lt3 t p⟩ rfl, iblk3_8_apply V c t p (0 : Fin 1) ⟨_, row_lt3 t p⟩ rfl]

/-- An index of the array is in point t's block iff each coordinate is in the block's range on its axis. -/
theorem mem_blk3_12 (t : Fin cfg3.N) (i : S1600000x1.Idx) :
    i ∈ ((cfg3.win 12).blk t).view.set ↔ ∀ a : Fin 2, win3_12.index t a * S512x1.size a ≤ (i a).val ∧ (i a).val < win3_12.index t a * S512x1.size a + S512x1.size a := by
  show i ∈ ((View.whole main_v107_2).slice (win3_12.rect t)).set ↔ _
  rw [View.set_slice_whole, Rect.mem_set_unit]
  exact Iff.rfl

/-- Every row of the array is in the block of the point that its number divided by 512 names. -/
theorem cover3_12 (i : S1600000x1.Idx) : ∃ t : Fin cfg3.N, (cfg3.win 12).flush t = true ∧ i ∈ ((cfg3.win 12).blk t).view.set := by
  have hi0 : (i 0).val < 1600000 := (i 0).isLt
  have hi1 : (i 1).val < 1 := (i 1).isLt
  have hN : (i 0).val / 512 < cfg3.N := lt_of_lt_of_eq (by omega) N_3.symm
  obtain ⟨e0, e1⟩ := idx3_12 ⟨(i 0).val / 512, hN⟩
  refine ⟨⟨(i 0).val / 512, hN⟩, flush3_12 _, ?_⟩
  rw [mem_blk3_12]
  intro a
  match a with
  | ⟨0, _⟩ =>
    show win3_12.index ⟨(i 0).val / 512, hN⟩ (0 : Fin 2) * 512 ≤ (i 0).val ∧ (i 0).val < win3_12.index ⟨(i 0).val / 512, hN⟩ (0 : Fin 2) * 512 + 512
    rw [e0]
    show (i 0).val / 512 * 512 ≤ (i 0).val ∧ (i 0).val < (i 0).val / 512 * 512 + 512
    omega
  | ⟨1, _⟩ =>
    show win3_12.index ⟨(i 0).val / 512, hN⟩ (1 : Fin 2) * 1 ≤ (i 1).val ∧ (i 1).val < win3_12.index ⟨(i 0).val / 512, hN⟩ (1 : Fin 2) * 1 + 1
    rw [e1]
    omega

/-- The array after the run: the blocks tile it, so it is the score function at every row. -/
theorem final3_12 (c : Dev nD) : (dat3 (F := Ideal) V c).arrAt 12 cfg3.N = Cert.Spec.logisticMul (E := 1600000) (Ideal.ofBits .f32 0x3F800000#32) (V c main_v92) (V c main_v99) :=
  (dat3 V c).arrAt_eq_of_cover 12 _ (fun t _ => flushed3_12_eq V c t) cover3_12

/-! ## Output window 13: exp of the row sums of the wide input with the column spread along the row -/

/-- The row of the array that row p of output window 13's block at point t is. -/
theorem orow3_13 (t : Fin cfg3.N) (p : Fin 512) (u : Fin 1) :
    Cert.Spec.row (n0 := 1600000) (n1 := 1) (((cfg3.win 13).blk t).view.emb (ix2 p u)) = ⟨t.val * 512 + p.val, row_lt3 t p⟩ := by
  obtain ⟨e0, e1⟩ := idx3_13 t
  apply Fin.ext
  show win3_13.index t (0 : Fin 2) * 512 + 1 * p.val = t.val * 512 + p.val
  rw [e0]; omega

set_option maxHeartbeats 400000 in
/-- What point t writes back is block t of the score function of the whole input arrays. -/
theorem flushed3_13_eq (c : Dev nD) (t : Fin cfg3.N) :
    (dat3 (F := Ideal) V c).flushed 13 t = ((cfg3.win 13).blk t).view.read (Elt Ideal)
      (Cert.Spec.expRowSumCol (E := 1600000) (K := 128) (V c main_v57) (V c main_v85)) := by
  show (cfg3.win 13).cut (grid3.coords t) ((dat3 V c).after 13 t) = _
  rw [after3_13]
  unfold out3_13
  rw [View.canon_unit_zero hz3]
  simp only [View.ld_unit_zero (S := S512x128) hz3, View.ld_unit_zero (S := S512x1) hz3]
  funext j
  obtain ⟨p, u, rfl⟩ : ∃ (p : Fin 512) (u : Fin 1), j = ix2 p u := ⟨j 0, j 1, eq_ix2 j⟩
  refine (pay13_apply (iblk3 V c 2 t) (iblk3 V c 6 t) p u).trans ?_
  rw [View.read_apply]
  show Ideal.exp _ = Cert.Spec.expRowSumCol (V c main_v57) (V c main_v85) (((cfg3.win 13).blk t).view.emb (ix2 p u))
  refine Eq.trans ?_ (expRowSumCol_at _ _ _ _ (orow3_13 t p u)).symm
  refine congrArg Ideal.exp (Finset.sum_congr rfl fun (k : Fin 128) _ => ?_)
  rw [iblk3_2_apply V c t p k ⟨_, row_lt3 t p⟩ rfl, iblk3_6_apply V c t p (0 : Fin 1) ⟨_, row_lt3 t p⟩ rfl]

/-- An index of the array is in point t's block iff each coordinate is in the block's range on its axis. -/
theorem mem_blk3_13 (t : Fin cfg3.N) (i : S1600000x1.Idx) :
    i ∈ ((cfg3.win 13).blk t).view.set ↔ ∀ a : Fin 2, win3_13.index t a * S512x1.size a ≤ (i a).val ∧ (i a).val < win3_13.index t a * S512x1.size a + S512x1.size a := by
  show i ∈ ((View.whole main_v107_3).slice (win3_13.rect t)).set ↔ _
  rw [View.set_slice_whole, Rect.mem_set_unit]
  exact Iff.rfl

/-- Every row of the array is in the block of the point that its number divided by 512 names. -/
theorem cover3_13 (i : S1600000x1.Idx) : ∃ t : Fin cfg3.N, (cfg3.win 13).flush t = true ∧ i ∈ ((cfg3.win 13).blk t).view.set := by
  have hi0 : (i 0).val < 1600000 := (i 0).isLt
  have hi1 : (i 1).val < 1 := (i 1).isLt
  have hN : (i 0).val / 512 < cfg3.N := lt_of_lt_of_eq (by omega) N_3.symm
  obtain ⟨e0, e1⟩ := idx3_13 ⟨(i 0).val / 512, hN⟩
  refine ⟨⟨(i 0).val / 512, hN⟩, flush3_13 _, ?_⟩
  rw [mem_blk3_13]
  intro a
  match a with
  | ⟨0, _⟩ =>
    show win3_13.index ⟨(i 0).val / 512, hN⟩ (0 : Fin 2) * 512 ≤ (i 0).val ∧ (i 0).val < win3_13.index ⟨(i 0).val / 512, hN⟩ (0 : Fin 2) * 512 + 512
    rw [e0]
    show (i 0).val / 512 * 512 ≤ (i 0).val ∧ (i 0).val < (i 0).val / 512 * 512 + 512
    omega
  | ⟨1, _⟩ =>
    show win3_13.index ⟨(i 0).val / 512, hN⟩ (1 : Fin 2) * 1 ≤ (i 1).val ∧ (i 1).val < win3_13.index ⟨(i 0).val / 512, hN⟩ (1 : Fin 2) * 1 + 1
    rw [e1]
    omega

/-- The array after the run: the blocks tile it, so it is the score function at every row. -/
theorem final3_13 (c : Dev nD) : (dat3 (F := Ideal) V c).arrAt 13 cfg3.N = Cert.Spec.expRowSumCol (E := 1600000) (K := 128) (V c main_v57) (V c main_v85) :=
  (dat3 V c).arrAt_eq_of_cover 13 _ (fun t _ => flushed3_13_eq V c t) cover3_13

/-! ## Output window 14: exp of the two columns added -/

/-- The row of the array that row p of output window 14's block at point t is. -/
theorem orow3_14 (t : Fin cfg3.N) (p : Fin 512) (u : Fin 1) :
    Cert.Spec.row (n0 := 1600000) (n1 := 1) (((cfg3.win 14).blk t).view.emb (ix2 p u)) = ⟨t.val * 512 + p.val, row_lt3 t p⟩ := by
  obtain ⟨e0, e1⟩ := idx3_14 t
  apply Fin.ext
  show win3_14.index t (0 : Fin 2) * 512 + 1 * p.val = t.val * 512 + p.val
  rw [e0]; omega

set_option maxHeartbeats 400000 in
/-- What point t writes back is block t of the score function of the whole input arrays. -/
theorem flushed3_14_eq (c : Dev nD) (t : Fin cfg3.N) :
    (dat3 (F := Ideal) V c).flushed 14 t = ((cfg3.win 14).blk t).view.read (Elt Ideal)
      (Cert.Spec.expAdd (E := 1600000) (V c main_v78) (V c main_v85)) := by
  show (cfg3.win 14).cut (grid3.coords t) ((dat3 V c).after 14 t) = _
  rw [after3_14]
  unfold out3_14
  rw [View.canon_unit_zero hz3]
  simp only [View.ld_unit_zero (S := S512x128) hz3, View.ld_unit_zero (S := S512x1) hz3]
  funext j
  obtain ⟨p, u, rfl⟩ : ∃ (p : Fin 512) (u : Fin 1), j = ix2 p u := ⟨j 0, j 1, eq_ix2 j⟩
  refine (pay14_apply (iblk3 V c 5 t) (iblk3 V c 6 t) (ix2 p u)).trans ?_
  rw [View.read_apply]
  show Ideal.exp _ = Cert.Spec.expAdd (V c main_v78) (V c main_v85) (((cfg3.win 14).blk t).view.emb (ix2 p u))
  refine Eq.trans ?_ (expAdd_at _ _ _ _ (orow3_14 t p u)).symm
  obtain rfl : u = 0 := Subsingleton.elim _ _
  rw [iblk3_5_apply V c t p (0 : Fin 1) ⟨_, row_lt3 t p⟩ rfl, iblk3_6_apply V c t p (0 : Fin 1) ⟨_, row_lt3 t p⟩ rfl]

/-- An index of the array is in point t's block iff each coordinate is in the block's range on its axis. -/
theorem mem_blk3_14 (t : Fin cfg3.N) (i : S1600000x1.Idx) :
    i ∈ ((cfg3.win 14).blk t).view.set ↔ ∀ a : Fin 2, win3_14.index t a * S512x1.size a ≤ (i a).val ∧ (i a).val < win3_14.index t a * S512x1.size a + S512x1.size a := by
  show i ∈ ((View.whole main_v107_4).slice (win3_14.rect t)).set ↔ _
  rw [View.set_slice_whole, Rect.mem_set_unit]
  exact Iff.rfl

/-- Every row of the array is in the block of the point that its number divided by 512 names. -/
theorem cover3_14 (i : S1600000x1.Idx) : ∃ t : Fin cfg3.N, (cfg3.win 14).flush t = true ∧ i ∈ ((cfg3.win 14).blk t).view.set := by
  have hi0 : (i 0).val < 1600000 := (i 0).isLt
  have hi1 : (i 1).val < 1 := (i 1).isLt
  have hN : (i 0).val / 512 < cfg3.N := lt_of_lt_of_eq (by omega) N_3.symm
  obtain ⟨e0, e1⟩ := idx3_14 ⟨(i 0).val / 512, hN⟩
  refine ⟨⟨(i 0).val / 512, hN⟩, flush3_14 _, ?_⟩
  rw [mem_blk3_14]
  intro a
  match a with
  | ⟨0, _⟩ =>
    show win3_14.index ⟨(i 0).val / 512, hN⟩ (0 : Fin 2) * 512 ≤ (i 0).val ∧ (i 0).val < win3_14.index ⟨(i 0).val / 512, hN⟩ (0 : Fin 2) * 512 + 512
    rw [e0]
    show (i 0).val / 512 * 512 ≤ (i 0).val ∧ (i 0).val < (i 0).val / 512 * 512 + 512
    omega
  | ⟨1, _⟩ =>
    show win3_14.index ⟨(i 0).val / 512, hN⟩ (1 : Fin 2) * 1 ≤ (i 1).val ∧ (i 1).val < win3_14.index ⟨(i 0).val / 512, hN⟩ (1 : Fin 2) * 1 + 1
    rw [e1]
    omega

/-- The array after the run: the blocks tile it, so it is the score function at every row. -/
theorem final3_14 (c : Dev nD) : (dat3 (F := Ideal) V c).arrAt 14 cfg3.N = Cert.Spec.expAdd (E := 1600000) (V c main_v78) (V c main_v85) :=
  (dat3 V c).arrAt_eq_of_cover 14 _ (fun t _ => flushed3_14_eq V c t) cover3_14

/-! ## Output window 15: the logistic function of the two columns' product times the scalar -/

/-- The row of the array that row p of output window 15's block at point t is. -/
theorem orow3_15 (t : Fin cfg3.N) (p : Fin 512) (u : Fin 1) :
    Cert.Spec.row (n0 := 1600000) (n1 := 1) (((cfg3.win 15).blk t).view.emb (ix2 p u)) = ⟨t.val * 512 + p.val, row_lt3 t p⟩ := by
  obtain ⟨e0, e1⟩ := idx3_15 t
  apply Fin.ext
  show win3_15.index t (0 : Fin 2) * 512 + 1 * p.val = t.val * 512 + p.val
  rw [e0]; omega

set_option maxHeartbeats 400000 in
/-- What point t writes back is block t of the score function of the whole input arrays. -/
theorem flushed3_15_eq (c : Dev nD) (t : Fin cfg3.N) :
    (dat3 (F := Ideal) V c).flushed 15 t = ((cfg3.win 15).blk t).view.read (Elt Ideal)
      (Cert.Spec.logisticMul (E := 1600000) (Ideal.ofBits .f32 0x3F800000#32) (V c main_v92) (V c main_v106)) := by
  show (cfg3.win 15).cut (grid3.coords t) ((dat3 V c).after 15 t) = _
  rw [after3_15]
  unfold out3_15
  rw [View.canon_unit_zero hz3]
  simp only [View.ld_unit_zero (S := S512x128) hz3, View.ld_unit_zero (S := S512x1) hz3]
  funext j
  obtain ⟨p, u, rfl⟩ : ∃ (p : Fin 512) (u : Fin 1), j = ix2 p u := ⟨j 0, j 1, eq_ix2 j⟩
  refine (pay15_apply (iblk3 V c 7 t) (iblk3 V c 9 t) (ix2 p u)).trans ?_
  rw [View.read_apply]
  show Ideal.logistic _ = Cert.Spec.logisticMul (Ideal.ofBits .f32 0x3F800000#32) (V c main_v92) (V c main_v106) (((cfg3.win 15).blk t).view.emb (ix2 p u))
  refine Eq.trans ?_ (logisticMul_at _ _ _ _ _ (orow3_15 t p u)).symm
  obtain rfl : u = 0 := Subsingleton.elim _ _
  rw [iblk3_7_apply V c t p (0 : Fin 1) ⟨_, row_lt3 t p⟩ rfl, iblk3_9_apply V c t p (0 : Fin 1) ⟨_, row_lt3 t p⟩ rfl]

/-- An index of the array is in point t's block iff each coordinate is in the block's range on its axis. -/
theorem mem_blk3_15 (t : Fin cfg3.N) (i : S1600000x1.Idx) :
    i ∈ ((cfg3.win 15).blk t).view.set ↔ ∀ a : Fin 2, win3_15.index t a * S512x1.size a ≤ (i a).val ∧ (i a).val < win3_15.index t a * S512x1.size a + S512x1.size a := by
  show i ∈ ((View.whole main_v107_5).slice (win3_15.rect t)).set ↔ _
  rw [View.set_slice_whole, Rect.mem_set_unit]
  exact Iff.rfl

/-- Every row of the array is in the block of the point that its number divided by 512 names. -/
theorem cover3_15 (i : S1600000x1.Idx) : ∃ t : Fin cfg3.N, (cfg3.win 15).flush t = true ∧ i ∈ ((cfg3.win 15).blk t).view.set := by
  have hi0 : (i 0).val < 1600000 := (i 0).isLt
  have hi1 : (i 1).val < 1 := (i 1).isLt
  have hN : (i 0).val / 512 < cfg3.N := lt_of_lt_of_eq (by omega) N_3.symm
  obtain ⟨e0, e1⟩ := idx3_15 ⟨(i 0).val / 512, hN⟩
  refine ⟨⟨(i 0).val / 512, hN⟩, flush3_15 _, ?_⟩
  rw [mem_blk3_15]
  intro a
  match a with
  | ⟨0, _⟩ =>
    show win3_15.index ⟨(i 0).val / 512, hN⟩ (0 : Fin 2) * 512 ≤ (i 0).val ∧ (i 0).val < win3_15.index ⟨(i 0).val / 512, hN⟩ (0 : Fin 2) * 512 + 512
    rw [e0]
    show (i 0).val / 512 * 512 ≤ (i 0).val ∧ (i 0).val < (i 0).val / 512 * 512 + 512
    omega
  | ⟨1, _⟩ =>
    show win3_15.index ⟨(i 0).val / 512, hN⟩ (1 : Fin 2) * 1 ≤ (i 1).val ∧ (i 1).val < win3_15.index ⟨(i 0).val / 512, hN⟩ (1 : Fin 2) * 1 + 1
    rw [e1]
    omega

/-- The array after the run: the blocks tile it, so it is the score function at every row. -/
theorem final3_15 (c : Dev nD) : (dat3 (F := Ideal) V c).arrAt 15 cfg3.N = Cert.Spec.logisticMul (E := 1600000) (Ideal.ofBits .f32 0x3F800000#32) (V c main_v92) (V c main_v106) :=
  (dat3 V c).arrAt_eq_of_cover 15 _ (fun t _ => flushed3_15_eq V c t) cover3_15

end Region3Val

end Cert.KernelIdeal.Hand

end
-- ==== Proof.KiVal.lean ====
/-
  What the idealized kernel program's buffers hold at each boundary between its nine segments, as functions of the
  argument arrays, on the extended reals. The host stretches are read operation by operation; each region's output
  array is the whole-array function its blocks add up to. The chain: the degree norm; the first projection
  (x scaled by the norm, times the first weights); its neighbourhood sums; the second projection (scaled by the
  squared norm); its neighbourhood sums; the third projection against the three heads' weights side by side; the
  ten gathered arrays; the six score columns; the six columns laid as the rows of the result.
-/
import proofs.«158881_j66597762892109_2_alg».proof.Proof.KiArgs
import proofs.«158881_j66597762892109_2_alg».proof.Proof.KiStage
import proofs.«158881_j66597762892109_2_alg».proof.Proof.KiMatVal
import proofs.«158881_j66597762892109_2_alg».proof.Proof.KiEdgeVal
import proofs.«158881_j66597762892109_2_alg».proof.Proof.Spec
import Idealize.ShloMosaic.Lib.StableHlo.Run

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)

variable (m : (ℓ : Loc nD τ sig) → Buf (Elt Ideal) ℓ) (ρ : Dev nD → PrngReg)

/-! ## The arguments at every boundary -/

theorem W0_main_arg0 (c : Dev nD) : W0 m ρ c (no_index (Proc.devRef .tc main_arg0)) = m ((c : Thread nD τ).loc main_arg0) := rfl
theorem W1_main_arg0 (c : Dev nD) : W1 m ρ c (no_index (Proc.devRef .tc main_arg0)) = m ((c : Thread nD τ).loc main_arg0) :=
  (keep0 m ρ c main_arg0 (by decide)).trans (W0_main_arg0 m ρ c)
theorem W2_main_arg0 (c : Dev nD) : W2 m ρ c (no_index (Proc.devRef .tc main_arg0)) = m ((c : Thread nD τ).loc main_arg0) :=
  ((W2_arr m ρ c 0).trans (((dat0 (V1 m ρ) c).arrAt_in 0 rfl _).trans (A_eq0 (V1 m ρ) c 0))).trans (W1_main_arg0 m ρ c)
theorem W3_main_arg0 (c : Dev nD) : W3 m ρ c (no_index (Proc.devRef .tc main_arg0)) = m ((c : Thread nD τ).loc main_arg0) :=
  (keep1 m ρ c main_arg0 (by decide)).trans (W2_main_arg0 m ρ c)
theorem W4_main_arg0 (c : Dev nD) : W4 m ρ c (no_index (Proc.devRef .tc main_arg0)) = m ((c : Thread nD τ).loc main_arg0) :=
  (W4_of_ne m ρ c main_arg0 (by decide)).trans (W3_main_arg0 m ρ c)
theorem W5_main_arg0 (c : Dev nD) : W5 m ρ c (no_index (Proc.devRef .tc main_arg0)) = m ((c : Thread nD τ).loc main_arg0) :=
  (keep2 m ρ c main_arg0 (by decide)).trans (W4_main_arg0 m ρ c)
theorem W6_main_arg0 (c : Dev nD) : W6 m ρ c (no_index (Proc.devRef .tc main_arg0)) = m ((c : Thread nD τ).loc main_arg0) :=
  (W6_of_ne m ρ c main_arg0 (by decide)).trans (W5_main_arg0 m ρ c)
theorem W7_main_arg0 (c : Dev nD) : W7 m ρ c (no_index (Proc.devRef .tc main_arg0)) = m ((c : Thread nD τ).loc main_arg0) :=
  (keep3 m ρ c main_arg0 (by decide)).trans (W6_main_arg0 m ρ c)
theorem W8_main_arg0 (c : Dev nD) : W8 m ρ c (no_index (Proc.devRef .tc main_arg0)) = m ((c : Thread nD τ).loc main_arg0) :=
  (W8_of_ne m ρ c main_arg0 (by decide)).trans (W7_main_arg0 m ρ c)
theorem W0_main_arg1 (c : Dev nD) : W0 m ρ c (no_index (Proc.devRef .tc main_arg1)) = m ((c : Thread nD τ).loc main_arg1) := rfl
theorem W1_main_arg1 (c : Dev nD) : W1 m ρ c (no_index (Proc.devRef .tc main_arg1)) = m ((c : Thread nD τ).loc main_arg1) :=
  (keep0 m ρ c main_arg1 (by decide)).trans (W0_main_arg1 m ρ c)
theorem W2_main_arg1 (c : Dev nD) : W2 m ρ c (no_index (Proc.devRef .tc main_arg1)) = m ((c : Thread nD τ).loc main_arg1) :=
  ((W2_arr m ρ c 2).trans (((dat0 (V1 m ρ) c).arrAt_in 2 rfl _).trans (A_eq0 (V1 m ρ) c 2))).trans (W1_main_arg1 m ρ c)
theorem W3_main_arg1 (c : Dev nD) : W3 m ρ c (no_index (Proc.devRef .tc main_arg1)) = m ((c : Thread nD τ).loc main_arg1) :=
  (keep1 m ρ c main_arg1 (by decide)).trans (W2_main_arg1 m ρ c)
theorem W4_main_arg1 (c : Dev nD) : W4 m ρ c (no_index (Proc.devRef .tc main_arg1)) = m ((c : Thread nD τ).loc main_arg1) :=
  (W4_of_ne m ρ c main_arg1 (by decide)).trans (W3_main_arg1 m ρ c)
theorem W5_main_arg1 (c : Dev nD) : W5 m ρ c (no_index (Proc.devRef .tc main_arg1)) = m ((c : Thread nD τ).loc main_arg1) :=
  (keep2 m ρ c main_arg1 (by decide)).trans (W4_main_arg1 m ρ c)
theorem W6_main_arg1 (c : Dev nD) : W6 m ρ c (no_index (Proc.devRef .tc main_arg1)) = m ((c : Thread nD τ).loc main_arg1) :=
  (W6_of_ne m ρ c main_arg1 (by decide)).trans (W5_main_arg1 m ρ c)
theorem W7_main_arg1 (c : Dev nD) : W7 m ρ c (no_index (Proc.devRef .tc main_arg1)) = m ((c : Thread nD τ).loc main_arg1) :=
  (keep3 m ρ c main_arg1 (by decide)).trans (W6_main_arg1 m ρ c)
theorem W8_main_arg1 (c : Dev nD) : W8 m ρ c (no_index (Proc.devRef .tc main_arg1)) = m ((c : Thread nD τ).loc main_arg1) :=
  (W8_of_ne m ρ c main_arg1 (by decide)).trans (W7_main_arg1 m ρ c)
theorem W0_main_arg2 (c : Dev nD) : W0 m ρ c (no_index (Proc.devRef .tc main_arg2)) = m ((c : Thread nD τ).loc main_arg2) := rfl
theorem W1_main_arg2 (c : Dev nD) : W1 m ρ c (no_index (Proc.devRef .tc main_arg2)) = m ((c : Thread nD τ).loc main_arg2) :=
  (keep0 m ρ c main_arg2 (by decide)).trans (W0_main_arg2 m ρ c)
theorem W2_main_arg2 (c : Dev nD) : W2 m ρ c (no_index (Proc.devRef .tc main_arg2)) = m ((c : Thread nD τ).loc main_arg2) :=
  (W2_of_ne m ρ c main_arg2 (by decide)).trans (W1_main_arg2 m ρ c)
theorem W3_main_arg2 (c : Dev nD) : W3 m ρ c (no_index (Proc.devRef .tc main_arg2)) = m ((c : Thread nD τ).loc main_arg2) :=
  (keep1 m ρ c main_arg2 (by decide)).trans (W2_main_arg2 m ρ c)
theorem W4_main_arg2 (c : Dev nD) : W4 m ρ c (no_index (Proc.devRef .tc main_arg2)) = m ((c : Thread nD τ).loc main_arg2) :=
  ((W4_arr m ρ c 2).trans (((dat1 (V3 m ρ) c).arrAt_in 2 rfl _).trans (A_eq1 (V3 m ρ) c 2))).trans (W3_main_arg2 m ρ c)
theorem W5_main_arg2 (c : Dev nD) : W5 m ρ c (no_index (Proc.devRef .tc main_arg2)) = m ((c : Thread nD τ).loc main_arg2) :=
  (keep2 m ρ c main_arg2 (by decide)).trans (W4_main_arg2 m ρ c)
theorem W6_main_arg2 (c : Dev nD) : W6 m ρ c (no_index (Proc.devRef .tc main_arg2)) = m ((c : Thread nD τ).loc main_arg2) :=
  (W6_of_ne m ρ c main_arg2 (by decide)).trans (W5_main_arg2 m ρ c)
theorem W7_main_arg2 (c : Dev nD) : W7 m ρ c (no_index (Proc.devRef .tc main_arg2)) = m ((c : Thread nD τ).loc main_arg2) :=
  (keep3 m ρ c main_arg2 (by decide)).trans (W6_main_arg2 m ρ c)
theorem W8_main_arg2 (c : Dev nD) : W8 m ρ c (no_index (Proc.devRef .tc main_arg2)) = m ((c : Thread nD τ).loc main_arg2) :=
  (W8_of_ne m ρ c main_arg2 (by decide)).trans (W7_main_arg2 m ρ c)
theorem W0_main_arg3 (c : Dev nD) : W0 m ρ c (no_index (Proc.devRef .tc main_arg3)) = m ((c : Thread nD τ).loc main_arg3) := rfl
theorem W1_main_arg3 (c : Dev nD) : W1 m ρ c (no_index (Proc.devRef .tc main_arg3)) = m ((c : Thread nD τ).loc main_arg3) :=
  (keep0 m ρ c main_arg3 (by decide)).trans (W0_main_arg3 m ρ c)
theorem W2_main_arg3 (c : Dev nD) : W2 m ρ c (no_index (Proc.devRef .tc main_arg3)) = m ((c : Thread nD τ).loc main_arg3) :=
  (W2_of_ne m ρ c main_arg3 (by decide)).trans (W1_main_arg3 m ρ c)
theorem W3_main_arg3 (c : Dev nD) : W3 m ρ c (no_index (Proc.devRef .tc main_arg3)) = m ((c : Thread nD τ).loc main_arg3) :=
  (keep1 m ρ c main_arg3 (by decide)).trans (W2_main_arg3 m ρ c)
theorem W4_main_arg3 (c : Dev nD) : W4 m ρ c (no_index (Proc.devRef .tc main_arg3)) = m ((c : Thread nD τ).loc main_arg3) :=
  (W4_of_ne m ρ c main_arg3 (by decide)).trans (W3_main_arg3 m ρ c)
theorem W5_main_arg3 (c : Dev nD) : W5 m ρ c (no_index (Proc.devRef .tc main_arg3)) = m ((c : Thread nD τ).loc main_arg3) :=
  (keep2 m ρ c main_arg3 (by decide)).trans (W4_main_arg3 m ρ c)
theorem W6_main_arg3 (c : Dev nD) : W6 m ρ c (no_index (Proc.devRef .tc main_arg3)) = m ((c : Thread nD τ).loc main_arg3) :=
  (W6_of_ne m ρ c main_arg3 (by decide)).trans (W5_main_arg3 m ρ c)
theorem W7_main_arg3 (c : Dev nD) : W7 m ρ c (no_index (Proc.devRef .tc main_arg3)) = m ((c : Thread nD τ).loc main_arg3) :=
  (keep3 m ρ c main_arg3 (by decide)).trans (W6_main_arg3 m ρ c)
theorem W8_main_arg3 (c : Dev nD) : W8 m ρ c (no_index (Proc.devRef .tc main_arg3)) = m ((c : Thread nD τ).loc main_arg3) :=
  (W8_of_ne m ρ c main_arg3 (by decide)).trans (W7_main_arg3 m ρ c)
theorem W0_main_arg4 (c : Dev nD) : W0 m ρ c (no_index (Proc.devRef .tc main_arg4)) = m ((c : Thread nD τ).loc main_arg4) := rfl
theorem W1_main_arg4 (c : Dev nD) : W1 m ρ c (no_index (Proc.devRef .tc main_arg4)) = m ((c : Thread nD τ).loc main_arg4) :=
  (keep0 m ρ c main_arg4 (by decide)).trans (W0_main_arg4 m ρ c)
theorem W2_main_arg4 (c : Dev nD) : W2 m ρ c (no_index (Proc.devRef .tc main_arg4)) = m ((c : Thread nD τ).loc main_arg4) :=
  (W2_of_ne m ρ c main_arg4 (by decide)).trans (W1_main_arg4 m ρ c)
theorem W3_main_arg4 (c : Dev nD) : W3 m ρ c (no_index (Proc.devRef .tc main_arg4)) = m ((c : Thread nD τ).loc main_arg4) :=
  (keep1 m ρ c main_arg4 (by decide)).trans (W2_main_arg4 m ρ c)
theorem W4_main_arg4 (c : Dev nD) : W4 m ρ c (no_index (Proc.devRef .tc main_arg4)) = m ((c : Thread nD τ).loc main_arg4) :=
  (W4_of_ne m ρ c main_arg4 (by decide)).trans (W3_main_arg4 m ρ c)
theorem W5_main_arg4 (c : Dev nD) : W5 m ρ c (no_index (Proc.devRef .tc main_arg4)) = m ((c : Thread nD τ).loc main_arg4) :=
  (keep2 m ρ c main_arg4 (by decide)).trans (W4_main_arg4 m ρ c)
theorem W6_main_arg4 (c : Dev nD) : W6 m ρ c (no_index (Proc.devRef .tc main_arg4)) = m ((c : Thread nD τ).loc main_arg4) :=
  (W6_of_ne m ρ c main_arg4 (by decide)).trans (W5_main_arg4 m ρ c)
theorem W7_main_arg4 (c : Dev nD) : W7 m ρ c (no_index (Proc.devRef .tc main_arg4)) = m ((c : Thread nD τ).loc main_arg4) :=
  (keep3 m ρ c main_arg4 (by decide)).trans (W6_main_arg4 m ρ c)
theorem W8_main_arg4 (c : Dev nD) : W8 m ρ c (no_index (Proc.devRef .tc main_arg4)) = m ((c : Thread nD τ).loc main_arg4) :=
  (W8_of_ne m ρ c main_arg4 (by decide)).trans (W7_main_arg4 m ρ c)
theorem W0_main_arg5 (c : Dev nD) : W0 m ρ c (no_index (Proc.devRef .tc main_arg5)) = m ((c : Thread nD τ).loc main_arg5) := rfl
theorem W1_main_arg5 (c : Dev nD) : W1 m ρ c (no_index (Proc.devRef .tc main_arg5)) = m ((c : Thread nD τ).loc main_arg5) :=
  (keep0 m ρ c main_arg5 (by decide)).trans (W0_main_arg5 m ρ c)
theorem W2_main_arg5 (c : Dev nD) : W2 m ρ c (no_index (Proc.devRef .tc main_arg5)) = m ((c : Thread nD τ).loc main_arg5) :=
  (W2_of_ne m ρ c main_arg5 (by decide)).trans (W1_main_arg5 m ρ c)
theorem W3_main_arg5 (c : Dev nD) : W3 m ρ c (no_index (Proc.devRef .tc main_arg5)) = m ((c : Thread nD τ).loc main_arg5) :=
  (keep1 m ρ c main_arg5 (by decide)).trans (W2_main_arg5 m ρ c)
theorem W4_main_arg5 (c : Dev nD) : W4 m ρ c (no_index (Proc.devRef .tc main_arg5)) = m ((c : Thread nD τ).loc main_arg5) :=
  (W4_of_ne m ρ c main_arg5 (by decide)).trans (W3_main_arg5 m ρ c)
theorem W5_main_arg5 (c : Dev nD) : W5 m ρ c (no_index (Proc.devRef .tc main_arg5)) = m ((c : Thread nD τ).loc main_arg5) :=
  (keep2 m ρ c main_arg5 (by decide)).trans (W4_main_arg5 m ρ c)
theorem W6_main_arg5 (c : Dev nD) : W6 m ρ c (no_index (Proc.devRef .tc main_arg5)) = m ((c : Thread nD τ).loc main_arg5) :=
  (W6_of_ne m ρ c main_arg5 (by decide)).trans (W5_main_arg5 m ρ c)
theorem W7_main_arg5 (c : Dev nD) : W7 m ρ c (no_index (Proc.devRef .tc main_arg5)) = m ((c : Thread nD τ).loc main_arg5) :=
  (keep3 m ρ c main_arg5 (by decide)).trans (W6_main_arg5 m ρ c)
theorem W8_main_arg5 (c : Dev nD) : W8 m ρ c (no_index (Proc.devRef .tc main_arg5)) = m ((c : Thread nD τ).loc main_arg5) :=
  (W8_of_ne m ρ c main_arg5 (by decide)).trans (W7_main_arg5 m ρ c)
theorem W0_main_arg6 (c : Dev nD) : W0 m ρ c (no_index (Proc.devRef .tc main_arg6)) = m ((c : Thread nD τ).loc main_arg6) := rfl
theorem W1_main_arg6 (c : Dev nD) : W1 m ρ c (no_index (Proc.devRef .tc main_arg6)) = m ((c : Thread nD τ).loc main_arg6) :=
  (keep0 m ρ c main_arg6 (by decide)).trans (W0_main_arg6 m ρ c)
theorem W2_main_arg6 (c : Dev nD) : W2 m ρ c (no_index (Proc.devRef .tc main_arg6)) = m ((c : Thread nD τ).loc main_arg6) :=
  (W2_of_ne m ρ c main_arg6 (by decide)).trans (W1_main_arg6 m ρ c)
theorem W3_main_arg6 (c : Dev nD) : W3 m ρ c (no_index (Proc.devRef .tc main_arg6)) = m ((c : Thread nD τ).loc main_arg6) :=
  (keep1 m ρ c main_arg6 (by decide)).trans (W2_main_arg6 m ρ c)
theorem W4_main_arg6 (c : Dev nD) : W4 m ρ c (no_index (Proc.devRef .tc main_arg6)) = m ((c : Thread nD τ).loc main_arg6) :=
  (W4_of_ne m ρ c main_arg6 (by decide)).trans (W3_main_arg6 m ρ c)
theorem W5_main_arg6 (c : Dev nD) : W5 m ρ c (no_index (Proc.devRef .tc main_arg6)) = m ((c : Thread nD τ).loc main_arg6) :=
  (keep2 m ρ c main_arg6 (by decide)).trans (W4_main_arg6 m ρ c)
theorem W6_main_arg6 (c : Dev nD) : W6 m ρ c (no_index (Proc.devRef .tc main_arg6)) = m ((c : Thread nD τ).loc main_arg6) :=
  (W6_of_ne m ρ c main_arg6 (by decide)).trans (W5_main_arg6 m ρ c)
theorem W7_main_arg6 (c : Dev nD) : W7 m ρ c (no_index (Proc.devRef .tc main_arg6)) = m ((c : Thread nD τ).loc main_arg6) :=
  (keep3 m ρ c main_arg6 (by decide)).trans (W6_main_arg6 m ρ c)
theorem W8_main_arg6 (c : Dev nD) : W8 m ρ c (no_index (Proc.devRef .tc main_arg6)) = m ((c : Thread nD τ).loc main_arg6) :=
  (W8_of_ne m ρ c main_arg6 (by decide)).trans (W7_main_arg6 m ρ c)
theorem W0_main_arg7 (c : Dev nD) : W0 m ρ c (no_index (Proc.devRef .tc main_arg7)) = m ((c : Thread nD τ).loc main_arg7) := rfl
theorem W1_main_arg7 (c : Dev nD) : W1 m ρ c (no_index (Proc.devRef .tc main_arg7)) = m ((c : Thread nD τ).loc main_arg7) :=
  (keep0 m ρ c main_arg7 (by decide)).trans (W0_main_arg7 m ρ c)
theorem W2_main_arg7 (c : Dev nD) : W2 m ρ c (no_index (Proc.devRef .tc main_arg7)) = m ((c : Thread nD τ).loc main_arg7) :=
  (W2_of_ne m ρ c main_arg7 (by decide)).trans (W1_main_arg7 m ρ c)
theorem W3_main_arg7 (c : Dev nD) : W3 m ρ c (no_index (Proc.devRef .tc main_arg7)) = m ((c : Thread nD τ).loc main_arg7) :=
  (keep1 m ρ c main_arg7 (by decide)).trans (W2_main_arg7 m ρ c)
theorem W4_main_arg7 (c : Dev nD) : W4 m ρ c (no_index (Proc.devRef .tc main_arg7)) = m ((c : Thread nD τ).loc main_arg7) :=
  (W4_of_ne m ρ c main_arg7 (by decide)).trans (W3_main_arg7 m ρ c)
theorem W5_main_arg7 (c : Dev nD) : W5 m ρ c (no_index (Proc.devRef .tc main_arg7)) = m ((c : Thread nD τ).loc main_arg7) :=
  (keep2 m ρ c main_arg7 (by decide)).trans (W4_main_arg7 m ρ c)
theorem W6_main_arg7 (c : Dev nD) : W6 m ρ c (no_index (Proc.devRef .tc main_arg7)) = m ((c : Thread nD τ).loc main_arg7) :=
  (W6_of_ne m ρ c main_arg7 (by decide)).trans (W5_main_arg7 m ρ c)
theorem W7_main_arg7 (c : Dev nD) : W7 m ρ c (no_index (Proc.devRef .tc main_arg7)) = m ((c : Thread nD τ).loc main_arg7) :=
  (keep3 m ρ c main_arg7 (by decide)).trans (W6_main_arg7 m ρ c)
theorem W8_main_arg7 (c : Dev nD) : W8 m ρ c (no_index (Proc.devRef .tc main_arg7)) = m ((c : Thread nD τ).loc main_arg7) :=
  (W8_of_ne m ρ c main_arg7 (by decide)).trans (W7_main_arg7 m ρ c)
theorem W0_main_arg8 (c : Dev nD) : W0 m ρ c (no_index (Proc.devRef .tc main_arg8)) = m ((c : Thread nD τ).loc main_arg8) := rfl
theorem W1_main_arg8 (c : Dev nD) : W1 m ρ c (no_index (Proc.devRef .tc main_arg8)) = m ((c : Thread nD τ).loc main_arg8) :=
  (keep0 m ρ c main_arg8 (by decide)).trans (W0_main_arg8 m ρ c)
theorem W2_main_arg8 (c : Dev nD) : W2 m ρ c (no_index (Proc.devRef .tc main_arg8)) = m ((c : Thread nD τ).loc main_arg8) :=
  (W2_of_ne m ρ c main_arg8 (by decide)).trans (W1_main_arg8 m ρ c)
theorem W3_main_arg8 (c : Dev nD) : W3 m ρ c (no_index (Proc.devRef .tc main_arg8)) = m ((c : Thread nD τ).loc main_arg8) :=
  (keep1 m ρ c main_arg8 (by decide)).trans (W2_main_arg8 m ρ c)
theorem W4_main_arg8 (c : Dev nD) : W4 m ρ c (no_index (Proc.devRef .tc main_arg8)) = m ((c : Thread nD τ).loc main_arg8) :=
  (W4_of_ne m ρ c main_arg8 (by decide)).trans (W3_main_arg8 m ρ c)
theorem W5_main_arg8 (c : Dev nD) : W5 m ρ c (no_index (Proc.devRef .tc main_arg8)) = m ((c : Thread nD τ).loc main_arg8) :=
  (keep2 m ρ c main_arg8 (by decide)).trans (W4_main_arg8 m ρ c)
theorem W6_main_arg8 (c : Dev nD) : W6 m ρ c (no_index (Proc.devRef .tc main_arg8)) = m ((c : Thread nD τ).loc main_arg8) :=
  (W6_of_ne m ρ c main_arg8 (by decide)).trans (W5_main_arg8 m ρ c)
theorem W7_main_arg8 (c : Dev nD) : W7 m ρ c (no_index (Proc.devRef .tc main_arg8)) = m ((c : Thread nD τ).loc main_arg8) :=
  (keep3 m ρ c main_arg8 (by decide)).trans (W6_main_arg8 m ρ c)
theorem W8_main_arg8 (c : Dev nD) : W8 m ρ c (no_index (Proc.devRef .tc main_arg8)) = m ((c : Thread nD τ).loc main_arg8) :=
  (W8_of_ne m ρ c main_arg8 (by decide)).trans (W7_main_arg8 m ρ c)
theorem W0_main_arg9 (c : Dev nD) : W0 m ρ c (no_index (Proc.devRef .tc main_arg9)) = m ((c : Thread nD τ).loc main_arg9) := rfl
theorem W1_main_arg9 (c : Dev nD) : W1 m ρ c (no_index (Proc.devRef .tc main_arg9)) = m ((c : Thread nD τ).loc main_arg9) :=
  (keep0 m ρ c main_arg9 (by decide)).trans (W0_main_arg9 m ρ c)
theorem W2_main_arg9 (c : Dev nD) : W2 m ρ c (no_index (Proc.devRef .tc main_arg9)) = m ((c : Thread nD τ).loc main_arg9) :=
  (W2_of_ne m ρ c main_arg9 (by decide)).trans (W1_main_arg9 m ρ c)
theorem W3_main_arg9 (c : Dev nD) : W3 m ρ c (no_index (Proc.devRef .tc main_arg9)) = m ((c : Thread nD τ).loc main_arg9) :=
  (keep1 m ρ c main_arg9 (by decide)).trans (W2_main_arg9 m ρ c)
theorem W4_main_arg9 (c : Dev nD) : W4 m ρ c (no_index (Proc.devRef .tc main_arg9)) = m ((c : Thread nD τ).loc main_arg9) :=
  (W4_of_ne m ρ c main_arg9 (by decide)).trans (W3_main_arg9 m ρ c)
theorem W5_main_arg9 (c : Dev nD) : W5 m ρ c (no_index (Proc.devRef .tc main_arg9)) = m ((c : Thread nD τ).loc main_arg9) :=
  (keep2 m ρ c main_arg9 (by decide)).trans (W4_main_arg9 m ρ c)
theorem W6_main_arg9 (c : Dev nD) : W6 m ρ c (no_index (Proc.devRef .tc main_arg9)) = m ((c : Thread nD τ).loc main_arg9) :=
  (W6_of_ne m ρ c main_arg9 (by decide)).trans (W5_main_arg9 m ρ c)
theorem W7_main_arg9 (c : Dev nD) : W7 m ρ c (no_index (Proc.devRef .tc main_arg9)) = m ((c : Thread nD τ).loc main_arg9) :=
  (keep3 m ρ c main_arg9 (by decide)).trans (W6_main_arg9 m ρ c)
theorem W8_main_arg9 (c : Dev nD) : W8 m ρ c (no_index (Proc.devRef .tc main_arg9)) = m ((c : Thread nD τ).loc main_arg9) :=
  (W8_of_ne m ρ c main_arg9 (by decide)).trans (W7_main_arg9 m ρ c)

/-! ## The first host stretch: the norm column and its square -/

set_option maxHeartbeats 2000000 in
theorem W1_v6 (c : Dev nD) : W1 m ρ c (Proc.devRef .tc main_v6) = colOf (nrm (m ((c : Thread nD τ).loc main_arg6))) := by
  show StableHlo.after hostOps0 (W0 m ρ c) (no_index (Proc.devRef .tc main_v6)) = _
  simp only [hostOps0]
  after_results_simp
  all_goals rfl

set_option maxHeartbeats 2000000 in
theorem W1_v8 (c : Dev nD) : W1 m ρ c (Proc.devRef .tc main_v8) = colOf (mulf (nrm (m ((c : Thread nD τ).loc main_arg6))) (nrm (m ((c : Thread nD τ).loc main_arg6)))) := by
  show StableHlo.after hostOps0 (W0 m ρ c) (no_index (Proc.devRef .tc main_v8)) = _
  simp only [hostOps0]
  after_results_simp
  all_goals rfl

/-! ## Region 0: the first projection -/

theorem W2_v9 (c : Dev nD) : W2 m ρ c (no_index (Proc.devRef .tc main_v9)) = (Cert.Spec.scaledProd (N := 100000) (K := 128) (C := 128) (m ((c : Thread nD τ).loc main_arg0)) (colOf (nrm (m ((c : Thread nD τ).loc main_arg6)))) (m ((c : Thread nD τ).loc main_arg1))) := by
  refine (W2_arr m ρ c 3).trans ((final0_3 (V1 m ρ) c).trans ?_)
  show Cert.Spec.scaledProd (N := 100000) (K := 128) (C := 128) (W1 m ρ c (Proc.devRef .tc main_arg0)) (W1 m ρ c (Proc.devRef .tc main_v6)) (W1 m ρ c (Proc.devRef .tc main_arg1)) = _
  rw [W1_main_arg0, W1_v6, W1_main_arg1]

/-! ## The second host stretch: its neighbourhood sums; the squared norm rides along -/

set_option maxHeartbeats 2000000 in
theorem W3_v19 (c : Dev nD) : W3 m ρ c (Proc.devRef .tc main_v19) = (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) := by
  show StableHlo.after hostOps1 (W2 m ρ c) (no_index (Proc.devRef .tc main_v19)) = _
  simp only [hostOps1]
  after_results_simp
  simp only [W2_main_arg6, W2_main_arg7, W2_v9] <;> rfl

theorem W3_v8 (c : Dev nD) : W3 m ρ c (Proc.devRef .tc main_v8) = colOf (mulf (nrm (m ((c : Thread nD τ).loc main_arg6))) (nrm (m ((c : Thread nD τ).loc main_arg6)))) :=
  (keep1 m ρ c main_v8 (by decide)).trans ((W2_of_ne m ρ c main_v8 (by decide)).trans (W1_v8 m ρ c))

/-! ## Region 1: the second projection -/

theorem W4_v20 (c : Dev nD) : W4 m ρ c (no_index (Proc.devRef .tc main_v20)) = (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2))) := by
  refine (W4_arr m ρ c 3).trans ((final1_3 (V3 m ρ) c).trans ?_)
  show Cert.Spec.scaledProd (N := 100000) (K := 128) (C := 128) (W3 m ρ c (Proc.devRef .tc main_v19)) (W3 m ρ c (Proc.devRef .tc main_v8)) (W3 m ρ c (Proc.devRef .tc main_arg2)) = _
  rw [W3_v19, W3_v8, W3_main_arg2]

/-! ## The third host stretch: its neighbourhood sums, the heads' weights side by side; the norm rides along -/

set_option maxHeartbeats 2000000 in
theorem W5_v30 (c : Dev nD) : W5 m ρ c (Proc.devRef .tc main_v30) = (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) := by
  show StableHlo.after hostOps2 (W4 m ρ c) (no_index (Proc.devRef .tc main_v30)) = _
  simp only [hostOps2]
  after_results_simp
  simp only [W4_main_arg6, W4_main_arg7, W4_v20] <;> rfl

/-- The third host stretch without its last operation (the concatenation of the heads' weights). -/
def pre2 {F : FTy → Type} [FloatOps F] : List (HloOp τ sig (Elt F)) :=
  [ StableHlo.nullary main_c_4 (constantI S_ 32 0#32),
    StableHlo.unary main_c_4 main_v21 (broadcastInDim S1600000 ![] bcast_S_S1600000 : (⟨S_, .i32⟩ : BufTy).Contents (Elt F) → (⟨S1600000, .i32⟩ : BufTy).Contents (Elt F)),
    StableHlo.binary main_arg7 main_v21 main_v22 (cmpi .slt : (⟨S1600000, .i32⟩ : BufTy).Contents (Elt F) → (⟨S1600000, .i32⟩ : BufTy).Contents (Elt F) → (⟨S1600000, .i1⟩ : BufTy).Contents (Elt F)),
    StableHlo.nullary main_c_5 (constantI S_ 32 100000#32),
    StableHlo.unary main_c_5 main_v23 (broadcastInDim S1600000 ![] bcast_S_S1600000 : (⟨S_, .i32⟩ : BufTy).Contents (Elt F) → (⟨S1600000, .i32⟩ : BufTy).Contents (Elt F)),
    StableHlo.binary main_arg7 main_v23 main_v24 (addi : (⟨S1600000, .i32⟩ : BufTy).Contents (Elt F) → (⟨S1600000, .i32⟩ : BufTy).Contents (Elt F) → (⟨S1600000, .i32⟩ : BufTy).Contents (Elt F)),
    StableHlo.ternary main_v22 main_v24 main_arg7 main_v25 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v25 main_v26 (broadcastInDim S1600000x1 ![0] bcast_S1600000_S1600000x1_0 : (⟨S1600000, .i32⟩ : BufTy).Contents (Elt F) → (⟨S1600000x1, .i32⟩ : BufTy).Contents (Elt F)),
    StableHlo.binary main_v20 main_v26 main_v27 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_6 (constant S_ .f32 0x00000000#32),
    StableHlo.unary main_cst_6 main_v28 (broadcastInDim S100000x128 ![] bcast_S_S100000x128 : (⟨S_, .f32⟩ : BufTy).Contents (Elt F) → (⟨S100000x128, .f32⟩ : BufTy).Contents (Elt F)),
    StableHlo.unary main_arg6 main_v29 (broadcastInDim S1600000x1 ![0] bcast_S1600000_S1600000x1_0 : (⟨S1600000, .i32⟩ : BufTy).Contents (Elt F) → (⟨S1600000x1, .i32⟩ : BufTy).Contents (Elt F)),
    StableHlo.ternary main_v28 main_v29 main_v27 main_v30 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_7 (constant S_ .f32 0x00000000#32),
    StableHlo.unary main_cst_7 main_v31 (broadcastInDim S128x126 ![] bcast_S_S128x126 : (⟨S_, .f32⟩ : BufTy).Contents (Elt F) → (⟨S128x126, .f32⟩ : BufTy).Contents (Elt F)) ]
/-- and that last operation. -/
def last2 {F : FTy → Type} [FloatOps F] : HloOp τ sig (Elt F) :=
  StableHlo.nary ![main_arg3, main_arg4, main_arg5, main_v31] main_v32 (fun u => concatenate S128x256 1 [⟨S128x128, u 0⟩, ⟨S128x1, u 1⟩, ⟨S128x1, u 2⟩, ⟨S128x126, u 3⟩] concatenates_S128x128_S128x1_S128x1_S128x126_S128x256_d1)
theorem hostOps2_split {F : FTy → Type} [FloatOps F] : (hostOps2 : List (HloOp τ sig (Elt F))) = pre2 ++ [last2] := rfl
theorem pre2_writes {F : FTy → Type} [FloatOps F] : (pre2 : List (HloOp τ sig (Elt F))).Forall fun op => op.writes ⊆ (hostW2.map (Proc.devRef (τ := τ) .tc)).toFinset := by
  unfold pre2
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.singleton_subset_iff, List.mem_toFinset]; exact List.mem_map_of_mem (by decide))

set_option maxHeartbeats 2000000 in
theorem W5_v32 (c : Dev nD) : W5 m ρ c (Proc.devRef .tc main_v32) = combW (m ((c : Thread nD τ).loc main_arg3)) (m ((c : Thread nD τ).loc main_arg4)) (m ((c : Thread nD τ).loc main_arg5)) := by
  have e3 : StableHlo.after pre2 (W4 m ρ c) (Proc.devRef .tc main_arg3) = (m ((c : Thread nD τ).loc main_arg3)) :=
    (StableHlo.after_of_writes_sub pre2 _ pre2_writes (by decide)).trans (W4_main_arg3 m ρ c)
  have e4 : StableHlo.after pre2 (W4 m ρ c) (Proc.devRef .tc main_arg4) = (m ((c : Thread nD τ).loc main_arg4)) :=
    (StableHlo.after_of_writes_sub pre2 _ pre2_writes (by decide)).trans (W4_main_arg4 m ρ c)
  have e5 : StableHlo.after pre2 (W4 m ρ c) (Proc.devRef .tc main_arg5) = (m ((c : Thread nD τ).loc main_arg5)) :=
    (StableHlo.after_of_writes_sub pre2 _ pre2_writes (by decide)).trans (W4_main_arg5 m ρ c)
  have ez : StableHlo.after pre2 (W4 m ρ c) (no_index (Proc.devRef .tc main_v31)) = (broadcastInDim S128x126 ![] bcast_S_S128x126 (constant (F := Ideal) S_ .f32 0x00000000#32) : FVec Ideal S128x126 .f32) := by
    simp only [pre2]
    after_results_simp
    all_goals rfl
  show StableHlo.after hostOps2 (W4 m ρ c) (Proc.devRef .tc main_v32) = _
  rw [hostOps2_split, StableHlo.after_append]
  show last2.result (StableHlo.after pre2 (W4 m ρ c)) (Proc.devRef .tc main_v32) = _
  unfold last2
  rw [StableHlo.nary_result]
  unfold combW
  rw [← e3, ← e4, ← e5, ← ez]
  rfl

theorem W5_v6 (c : Dev nD) : W5 m ρ c (Proc.devRef .tc main_v6) = colOf (nrm (m ((c : Thread nD τ).loc main_arg6))) :=
  (keep2 m ρ c main_v6 (by decide)).trans ((W4_of_ne m ρ c main_v6 (by decide)).trans ((keep1 m ρ c main_v6 (by decide)).trans
    (((W2_arr m ρ c 1).trans (((dat0 (V1 m ρ) c).arrAt_in 1 rfl _).trans (A_eq0 (V1 m ρ) c 1))).trans (W1_v6 m ρ c))))

/-! ## Region 2: the third projection -/

theorem W6_v33 (c : Dev nD) : W6 m ρ c (no_index (Proc.devRef .tc main_v33)) = (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5)))) := by
  refine (W6_arr m ρ c 3).trans ((final2_3 (V5 m ρ) c).trans ?_)
  show Cert.Spec.scaledProd (N := 100000) (K := 128) (C := 256) (W5 m ρ c (Proc.devRef .tc main_v30)) (W5 m ρ c (Proc.devRef .tc main_v6)) (W5 m ρ c (Proc.devRef .tc main_v32)) = _
  rw [W5_v30, W5_v6, W5_v32]

/-! ## The fourth host stretch: the ten gathered arrays -/

set_option maxHeartbeats 8000000 in
set_option maxRecDepth 8192 in
theorem W7_v43 (c : Dev nD) : W7 m ρ c (Proc.devRef .tc main_v43) = gat128 (sl0 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg6)) := by
  show StableHlo.after hostOps3 (W6 m ρ c) (no_index (Proc.devRef .tc main_v43)) = _
  simp only [hostOps3]
  after_results_simp
  simp only [W6_main_arg6, W6_v33] <;> rfl

set_option maxHeartbeats 8000000 in
set_option maxRecDepth 8192 in
theorem W7_v50 (c : Dev nD) : W7 m ρ c (Proc.devRef .tc main_v50) = gat128 (sl0 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg7)) := by
  show StableHlo.after hostOps3 (W6 m ρ c) (no_index (Proc.devRef .tc main_v50)) = _
  simp only [hostOps3]
  after_results_simp
  simp only [W6_main_arg7, W6_v33] <;> rfl

set_option maxHeartbeats 8000000 in
set_option maxRecDepth 8192 in
theorem W7_v57 (c : Dev nD) : W7 m ρ c (Proc.devRef .tc main_v57) = gat128 (sl0 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg8)) := by
  show StableHlo.after hostOps3 (W6 m ρ c) (no_index (Proc.devRef .tc main_v57)) = _
  simp only [hostOps3]
  after_results_simp
  simp only [W6_main_arg8, W6_v33] <;> rfl

set_option maxHeartbeats 8000000 in
set_option maxRecDepth 8192 in
theorem W7_v64 (c : Dev nD) : W7 m ρ c (Proc.devRef .tc main_v64) = gat1 (sl1 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg6)) := by
  show StableHlo.after hostOps3 (W6 m ρ c) (no_index (Proc.devRef .tc main_v64)) = _
  simp only [hostOps3]
  after_results_simp
  simp only [W6_main_arg6, W6_v33] <;> rfl

set_option maxHeartbeats 8000000 in
set_option maxRecDepth 8192 in
theorem W7_v71 (c : Dev nD) : W7 m ρ c (Proc.devRef .tc main_v71) = gat1 (sl1 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg7)) := by
  show StableHlo.after hostOps3 (W6 m ρ c) (no_index (Proc.devRef .tc main_v71)) = _
  simp only [hostOps3]
  after_results_simp
  simp only [W6_main_arg7, W6_v33] <;> rfl

set_option maxHeartbeats 8000000 in
set_option maxRecDepth 8192 in
theorem W7_v78 (c : Dev nD) : W7 m ρ c (Proc.devRef .tc main_v78) = gat1 (sl1 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg8)) := by
  show StableHlo.after hostOps3 (W6 m ρ c) (no_index (Proc.devRef .tc main_v78)) = _
  simp only [hostOps3]
  after_results_simp
  simp only [W6_main_arg8, W6_v33] <;> rfl

set_option maxHeartbeats 8000000 in
set_option maxRecDepth 8192 in
theorem W7_v85 (c : Dev nD) : W7 m ρ c (Proc.devRef .tc main_v85) = gat1 (sl1 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg9)) := by
  show StableHlo.after hostOps3 (W6 m ρ c) (no_index (Proc.devRef .tc main_v85)) = _
  simp only [hostOps3]
  after_results_simp
  simp only [W6_main_arg9, W6_v33] <;> rfl

set_option maxHeartbeats 8000000 in
set_option maxRecDepth 8192 in
theorem W7_v92 (c : Dev nD) : W7 m ρ c (Proc.devRef .tc main_v92) = gat1 (sl2 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg6)) := by
  show StableHlo.after hostOps3 (W6 m ρ c) (no_index (Proc.devRef .tc main_v92)) = _
  simp only [hostOps3]
  after_results_simp
  simp only [W6_main_arg6, W6_v33] <;> rfl

set_option maxHeartbeats 8000000 in
set_option maxRecDepth 8192 in
theorem W7_v99 (c : Dev nD) : W7 m ρ c (Proc.devRef .tc main_v99) = gat1 (sl2 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg7)) := by
  show StableHlo.after hostOps3 (W6 m ρ c) (no_index (Proc.devRef .tc main_v99)) = _
  simp only [hostOps3]
  after_results_simp
  simp only [W6_main_arg7, W6_v33] <;> rfl

set_option maxHeartbeats 8000000 in
set_option maxRecDepth 8192 in
theorem W7_v106 (c : Dev nD) : W7 m ρ c (Proc.devRef .tc main_v106) = gat1 (sl2 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg9)) := by
  show StableHlo.after hostOps3 (W6 m ρ c) (no_index (Proc.devRef .tc main_v106)) = _
  simp only [hostOps3]
  after_results_simp
  simp only [W6_main_arg9, W6_v33] <;> rfl

/-! ## Region 3: the six score columns -/

theorem W8_out0 (c : Dev nD) : W8 m ρ c (Proc.devRef .tc main_v107_0)
    = Cert.Spec.expRowSum (E := 1600000) (K := 128) (gat128 (sl0 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg6))) (gat128 (sl0 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg7))) := by
  refine (W8_arr m ρ c 10).trans ((final3_10 (V7 m ρ) c).trans ?_)
  show Cert.Spec.expRowSum (E := 1600000) (K := 128) (W7 m ρ c (Proc.devRef .tc main_v43)) (W7 m ρ c (Proc.devRef .tc main_v50)) = _
  rw [W7_v43, W7_v50]

theorem W8_out1 (c : Dev nD) : W8 m ρ c (Proc.devRef .tc main_v107_1)
    = Cert.Spec.expAdd (E := 1600000) (gat1 (sl1 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg6))) (gat1 (sl1 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg7))) := by
  refine (W8_arr m ρ c 11).trans ((final3_11 (V7 m ρ) c).trans ?_)
  show Cert.Spec.expAdd (E := 1600000) (W7 m ρ c (Proc.devRef .tc main_v64)) (W7 m ρ c (Proc.devRef .tc main_v71)) = _
  rw [W7_v64, W7_v71]

theorem W8_out2 (c : Dev nD) : W8 m ρ c (Proc.devRef .tc main_v107_2)
    = Cert.Spec.logisticMul (E := 1600000) (Ideal.ofBits .f32 0x3F800000#32) (gat1 (sl2 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg6))) (gat1 (sl2 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg7))) := by
  refine (W8_arr m ρ c 12).trans ((final3_12 (V7 m ρ) c).trans ?_)
  show Cert.Spec.logisticMul (E := 1600000) (Ideal.ofBits .f32 0x3F800000#32) (W7 m ρ c (Proc.devRef .tc main_v92)) (W7 m ρ c (Proc.devRef .tc main_v99)) = _
  rw [W7_v92, W7_v99]

theorem W8_out3 (c : Dev nD) : W8 m ρ c (Proc.devRef .tc main_v107_3)
    = Cert.Spec.expRowSumCol (E := 1600000) (K := 128) (gat128 (sl0 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg8))) (gat1 (sl1 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg9))) := by
  refine (W8_arr m ρ c 13).trans ((final3_13 (V7 m ρ) c).trans ?_)
  show Cert.Spec.expRowSumCol (E := 1600000) (K := 128) (W7 m ρ c (Proc.devRef .tc main_v57)) (W7 m ρ c (Proc.devRef .tc main_v85)) = _
  rw [W7_v57, W7_v85]

theorem W8_out4 (c : Dev nD) : W8 m ρ c (Proc.devRef .tc main_v107_4)
    = Cert.Spec.expAdd (E := 1600000) (gat1 (sl1 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg8))) (gat1 (sl1 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg9))) := by
  refine (W8_arr m ρ c 14).trans ((final3_14 (V7 m ρ) c).trans ?_)
  show Cert.Spec.expAdd (E := 1600000) (W7 m ρ c (Proc.devRef .tc main_v78)) (W7 m ρ c (Proc.devRef .tc main_v85)) = _
  rw [W7_v78, W7_v85]

theorem W8_out5 (c : Dev nD) : W8 m ρ c (Proc.devRef .tc main_v107_5)
    = Cert.Spec.logisticMul (E := 1600000) (Ideal.ofBits .f32 0x3F800000#32) (gat1 (sl2 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg6))) (gat1 (sl2 (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5))))) (m ((c : Thread nD τ).loc main_arg9))) := by
  refine (W8_arr m ρ c 15).trans ((final3_15 (V7 m ρ) c).trans ?_)
  show Cert.Spec.logisticMul (E := 1600000) (Ideal.ofBits .f32 0x3F800000#32) (W7 m ρ c (Proc.devRef .tc main_v92)) (W7 m ρ c (Proc.devRef .tc main_v106)) = _
  rw [W7_v92, W7_v106]

/-! ## The last host stretch: the six columns laid as the rows of the result -/

/-- The last host stretch without its last operation (the stacking of the six rows). -/
def pre4 {F : FTy → Type} [FloatOps F] : List (HloOp τ sig (Elt F)) :=
  [ StableHlo.reshape main_v107_0 main_v108 rfl shapeCasts_S1600000x1_S1600000,
    StableHlo.reshape main_v107_1 main_v109 rfl shapeCasts_S1600000x1_S1600000,
    StableHlo.reshape main_v107_2 main_v110 rfl shapeCasts_S1600000x1_S1600000,
    StableHlo.reshape main_v107_3 main_v111 rfl shapeCasts_S1600000x1_S1600000,
    StableHlo.reshape main_v107_4 main_v112 rfl shapeCasts_S1600000x1_S1600000,
    StableHlo.reshape main_v107_5 main_v113 rfl shapeCasts_S1600000x1_S1600000,
    StableHlo.unary main_v108 main_v114 (broadcastInDim S1x1600000 ![1] bcast_S1600000_S1x1600000_1 : (⟨S1600000, .f32⟩ : BufTy).Contents (Elt F) → (⟨S1x1600000, .f32⟩ : BufTy).Contents (Elt F)),
    StableHlo.unary main_v109 main_v115 (broadcastInDim S1x1600000 ![1] bcast_S1600000_S1x1600000_1 : (⟨S1600000, .f32⟩ : BufTy).Contents (Elt F) → (⟨S1x1600000, .f32⟩ : BufTy).Contents (Elt F)),
    StableHlo.unary main_v110 main_v116 (broadcastInDim S1x1600000 ![1] bcast_S1600000_S1x1600000_1 : (⟨S1600000, .f32⟩ : BufTy).Contents (Elt F) → (⟨S1x1600000, .f32⟩ : BufTy).Contents (Elt F)),
    StableHlo.unary main_v111 main_v117 (broadcastInDim S1x1600000 ![1] bcast_S1600000_S1x1600000_1 : (⟨S1600000, .f32⟩ : BufTy).Contents (Elt F) → (⟨S1x1600000, .f32⟩ : BufTy).Contents (Elt F)),
    StableHlo.unary main_v112 main_v118 (broadcastInDim S1x1600000 ![1] bcast_S1600000_S1x1600000_1 : (⟨S1600000, .f32⟩ : BufTy).Contents (Elt F) → (⟨S1x1600000, .f32⟩ : BufTy).Contents (Elt F)),
    StableHlo.unary main_v113 main_v119 (broadcastInDim S1x1600000 ![1] bcast_S1600000_S1x1600000_1 : (⟨S1600000, .f32⟩ : BufTy).Contents (Elt F) → (⟨S1x1600000, .f32⟩ : BufTy).Contents (Elt F)) ]
/-- and that last operation. -/
def last4 {F : FTy → Type} [FloatOps F] : HloOp τ sig (Elt F) :=
  StableHlo.nary ![main_v114, main_v115, main_v116, main_v117, main_v118, main_v119] main_v120 (fun u => concatenate S6x1600000 0 [⟨S1x1600000, u 0⟩, ⟨S1x1600000, u 1⟩, ⟨S1x1600000, u 2⟩, ⟨S1x1600000, u 3⟩, ⟨S1x1600000, u 4⟩, ⟨S1x1600000, u 5⟩] concatenates_S1x1600000_S1x1600000_S1x1600000_S1x1600000_S1x1600000_S1x1600000_S6x1600000_d0)
theorem hostOps4_split {F : FTy → Type} [FloatOps F] : (hostOps4 : List (HloOp τ sig (Elt F))) = pre4 ++ [last4] := rfl

set_option maxHeartbeats 2000000 in
theorem pre4_row0 (c : Dev nD) : StableHlo.after pre4 (W8 m ρ c) (no_index (Proc.devRef .tc main_v114)) = rowOf (W8 m ρ c (Proc.devRef .tc main_v107_0)) := by
  simp only [pre4]
  after_results_simp
  all_goals rfl
set_option maxHeartbeats 2000000 in
theorem pre4_row1 (c : Dev nD) : StableHlo.after pre4 (W8 m ρ c) (no_index (Proc.devRef .tc main_v115)) = rowOf (W8 m ρ c (Proc.devRef .tc main_v107_1)) := by
  simp only [pre4]
  after_results_simp
  all_goals rfl
set_option maxHeartbeats 2000000 in
theorem pre4_row2 (c : Dev nD) : StableHlo.after pre4 (W8 m ρ c) (no_index (Proc.devRef .tc main_v116)) = rowOf (W8 m ρ c (Proc.devRef .tc main_v107_2)) := by
  simp only [pre4]
  after_results_simp
  all_goals rfl
set_option maxHeartbeats 2000000 in
theorem pre4_row3 (c : Dev nD) : StableHlo.after pre4 (W8 m ρ c) (no_index (Proc.devRef .tc main_v117)) = rowOf (W8 m ρ c (Proc.devRef .tc main_v107_3)) := by
  simp only [pre4]
  after_results_simp
  all_goals rfl
set_option maxHeartbeats 2000000 in
theorem pre4_row4 (c : Dev nD) : StableHlo.after pre4 (W8 m ρ c) (no_index (Proc.devRef .tc main_v118)) = rowOf (W8 m ρ c (Proc.devRef .tc main_v107_4)) := by
  simp only [pre4]
  after_results_simp
  all_goals rfl
set_option maxHeartbeats 2000000 in
theorem pre4_row5 (c : Dev nD) : StableHlo.after pre4 (W8 m ρ c) (no_index (Proc.devRef .tc main_v119)) = rowOf (W8 m ρ c (Proc.devRef .tc main_v107_5)) := by
  simp only [pre4]
  after_results_simp
  all_goals rfl

set_option maxHeartbeats 4000000 in
theorem W9_v120 (c : Dev nD) : W9 m ρ c (Proc.devRef .tc main_v120)
    = stack6 (rowOf (W8 m ρ c (Proc.devRef .tc main_v107_0))) (rowOf (W8 m ρ c (Proc.devRef .tc main_v107_1))) (rowOf (W8 m ρ c (Proc.devRef .tc main_v107_2)))
        (rowOf (W8 m ρ c (Proc.devRef .tc main_v107_3))) (rowOf (W8 m ρ c (Proc.devRef .tc main_v107_4))) (rowOf (W8 m ρ c (Proc.devRef .tc main_v107_5))) := by
  show StableHlo.after hostOps4 (W8 m ρ c) (Proc.devRef .tc main_v120) = _
  rw [hostOps4_split, StableHlo.after_append]
  show last4.result (StableHlo.after pre4 (W8 m ρ c)) (Proc.devRef .tc main_v120) = _
  unfold last4
  rw [StableHlo.nary_result]
  unfold stack6
  rw [← pre4_row0 m ρ c, ← pre4_row1 m ρ c, ← pre4_row2 m ρ c, ← pre4_row3 m ρ c, ← pre4_row4 m ρ c, ← pre4_row5 m ρ c]
  rfl

end Cert.KernelIdeal.Hand

end
-- ==== Proof.Bridge.lean ====
/-
  The kernel's spelling of the three dense projections joined to the reference's, over the extended reals. The
  reference multiplies x row by row by a column spread along the row and contracts with a weight matrix on the host:
  that is the scaled product, entry (n, q) = the sum over k of (x[n,k] · s[n,0]) · w[k,q]; scaling twice by a vector is
  scaling once by its square. The kernel's third projection multiplies into the weight matrices set side by side; its
  column blocks are the scaled products with each matrix.
-/
import proofs.«158881_j66597762892109_2_alg».proof.Proof.Gen.ReferenceIdeal.Run
import proofs.«158881_j66597762892109_2_alg».proof.Proof.Gen.KernelIdeal
import proofs.«158881_j66597762892109_2_alg».proof.Proof.Spec
import proofs.«158881_j66597762892109_2_alg».proof.Proof.LibPlainDot
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

namespace Cert.Bridge

open Cert.ReferenceIdeal Idealize.ShloMosaic Idealize.ShloMosaic.ValueIdx Cert.Spec

/-! # The reference's products as the scaled product

The host multiplies x, row by row, by a column spread along the row, and contracts the 128 columns with a weight
matrix: entry (n, q) is the sum over k of (x[n,k] · s[n,0]) · w[k,q]. -/

/-- An [N, 1] column spread over 128 columns. -/
abbrev bc2 (s : FVec Ideal S100000x1 .f32) : FVec Ideal S100000x128 .f32 :=
  broadcastInDim S100000x128 ![0, 1] Facts₀.bcast_S100000x1_S100000x128_0_1 s

/-- An [N] vector as an [N, 1] column. -/
abbrev colR (v : FVec Ideal S100000 .f32) : FVec Ideal S100000x1 .f32 :=
  broadcastInDim S100000x1 ![0] Facts₀.bcast_S100000_S100000x1_0 v

/-- The spread column reads, at (n, k), the column's entry of row n. -/
theorem bc2_apply (s : FVec Ideal S100000x1 .f32) (r : Fin 100000) (k : Fin 128) :
    bc2 s (ix2 r k) = s (ix2 r (0 : Fin 1)) := by
  refine broadcastInDim_apply _ _ s _ _ fun a => ?_
  match a with
  | ⟨0, _⟩ => rfl
  | ⟨1, _⟩ => rfl

/-- The vector as a column reads, at (n, 0), the vector's entry n. -/
theorem colR_apply (v : FVec Ideal S100000 .f32) (r : Fin 100000) (u : Fin 1) :
    colR v (ix2 r u) = v (ix1 r) := by
  refine broadcastInDim_apply _ _ v _ _ fun a => ?_
  match a with
  | ⟨0, _⟩ => rfl

/-- In the [N,128] × [128,128] product the left operand is read at (row of the entry, contraction coordinate), -/
theorem lhs128 (j : S100000x128.Idx) (q : dot_S100000x128_S128x128_S100000x128_1_0_0_1_n_n.contr.Idx) :
    dot_S100000x128_S128x128_S100000x128_1_0_0_1_n_n.lhsIdx j q
      = ix2 (row j) (contrEquiv1 dot_S100000x128_S128x128_S100000x128_1_0_0_1_n_n 128 rfl rfl q) :=
  Cert.LibPlainDot.ext2 _ _ rfl (DotDims.lhsIdx_val_of_single _ rfl j q)

/-- and the right operand at (contraction coordinate, column of the entry). -/
theorem rhs128 (j : S100000x128.Idx) (q : dot_S100000x128_S128x128_S100000x128_1_0_0_1_n_n.contr.Idx) :
    dot_S100000x128_S128x128_S100000x128_1_0_0_1_n_n.rhsIdx j q
      = ix2 (contrEquiv1 dot_S100000x128_S128x128_S100000x128_1_0_0_1_n_n 128 rfl rfl q) (col j) :=
  Cert.LibPlainDot.ext2 _ _ (DotDims.rhsIdx_val_of_single _ rfl j q) rfl

/-- The same two readings in the [N,128] × [128,1] product. -/
theorem lhs1 (j : S100000x1.Idx) (q : dot_S100000x128_S128x1_S100000x1_1_0_0_1_n_n.contr.Idx) :
    dot_S100000x128_S128x1_S100000x1_1_0_0_1_n_n.lhsIdx j q
      = ix2 (row j) (contrEquiv1 dot_S100000x128_S128x1_S100000x1_1_0_0_1_n_n 128 rfl rfl q) :=
  Cert.LibPlainDot.ext2 _ _ rfl (DotDims.lhsIdx_val_of_single _ rfl j q)

theorem rhs1 (j : S100000x1.Idx) (q : dot_S100000x128_S128x1_S100000x1_1_0_0_1_n_n.contr.Idx) :
    dot_S100000x128_S128x1_S100000x1_1_0_0_1_n_n.rhsIdx j q
      = ix2 (contrEquiv1 dot_S100000x128_S128x1_S100000x1_1_0_0_1_n_n 128 rfl rfl q) (col j) :=
  Cert.LibPlainDot.ext2 _ _ (DotDims.rhsIdx_val_of_single _ rfl j q) rfl

/-- The host's product of the row-scaled x with w is the scaled product. -/
theorem dot128_scaled (x : FVec Ideal S100000x128 .f32) (s : FVec Ideal S100000x1 .f32) (w : FVec Ideal S128x128 .f32) :
    Host.dotGeneral dot_S100000x128_S128x128_S100000x128_1_0_0_1_n_n none (mulf x (bc2 s)) w
      = scaledProd (N := 100000) (K := 128) (C := 128) x s w := by
  funext j
  simp only [Host.dotGeneral]
  refine (Cert.LibPlainDot.dotGeneral_apply _ none _ 128 rfl rfl _ _ j (fun k => ix2 (row j) k) (fun k => ix2 k (col j))
    (lhs128 j) (rhs128 j)).trans ?_
  unfold scaledProd
  refine Finset.sum_congr rfl fun k _ => ?_
  show (x (ix2 (row j) k) * bc2 s (ix2 (row j) k)) * w (ix2 k (col j)) = _
  rw [bc2_apply]

/-- Scaling the rows twice by a vector n is scaling them once by n · n: (x · n) · n = x · (n · n) on the extended
    reals, where multiplication is associative. -/
theorem dot128_scaled2 (x : FVec Ideal S100000x128 .f32) (n : FVec Ideal S100000 .f32) (w : FVec Ideal S128x128 .f32) :
    Host.dotGeneral dot_S100000x128_S128x128_S100000x128_1_0_0_1_n_n none (mulf (mulf x (bc2 (colR n))) (bc2 (colR n))) w
      = scaledProd (N := 100000) (K := 128) (C := 128) x (colR (mulf n n)) w := by
  funext j
  simp only [Host.dotGeneral]
  refine (Cert.LibPlainDot.dotGeneral_apply _ none _ 128 rfl rfl _ _ j (fun k => ix2 (row j) k) (fun k => ix2 k (col j))
    (lhs128 j) (rhs128 j)).trans ?_
  unfold scaledProd
  refine Finset.sum_congr rfl fun k _ => ?_
  show ((x (ix2 (row j) k) * bc2 (colR n) (ix2 (row j) k)) * bc2 (colR n) (ix2 (row j) k)) * w (ix2 k (col j)) = _
  rw [bc2_apply, colR_apply, colR_apply]
  show _ = (x (ix2 (row j) k) * (n (ix1 (row j)) * n (ix1 (row j)))) * w (ix2 k (col j))
  rw [mul_assoc (x (ix2 (row j) k))]

/-- The host's product of the row-scaled x with a one-column weight is the scaled product with one column. -/
theorem dot1_scaled (x : FVec Ideal S100000x128 .f32) (s : FVec Ideal S100000x1 .f32) (w4 : FVec Ideal S128x1 .f32) :
    Host.dotGeneral dot_S100000x128_S128x1_S100000x1_1_0_0_1_n_n none (mulf x (bc2 s)) w4
      = scaledProd (N := 100000) (K := 128) (C := 1) x s w4 := by
  funext j
  simp only [Host.dotGeneral]
  refine (Cert.LibPlainDot.dotGeneral_apply _ none _ 128 rfl rfl _ _ j (fun k => ix2 (row j) k) (fun k => ix2 k (col j))
    (lhs1 j) (rhs1 j)).trans ?_
  unfold scaledProd
  refine Finset.sum_congr rfl fun k _ => ?_
  show (x (ix2 (row j) k) * bc2 s (ix2 (row j) k)) * w4 (ix2 k (col j)) = _
  rw [bc2_apply]

/-! # The column blocks of the product with the weight matrices set side by side

The third projection contracts with the [128, 256] matrix whose columns are those of w3 (128 columns), then w4 (one
column), then w5 (one column), then 126 more columns. Column q of the product reads column q of that matrix, so
columns 0..127, 128 and 129 of the product are the scaled products with w3, w4 and w5. -/

/-- The weight matrices set side by side along the columns. -/
abbrev combK (w3 : FVec Ideal S128x128 .f32) (w4 w5 : FVec Ideal S128x1 .f32) (z : FVec Ideal Cert.KernelIdeal.S128x126 .f32) :
    FVec Ideal Cert.KernelIdeal.S128x256 .f32 :=
  concatenate Cert.KernelIdeal.S128x256 1 [⟨Cert.KernelIdeal.S128x128, w3⟩, ⟨Cert.KernelIdeal.S128x1, w4⟩, ⟨Cert.KernelIdeal.S128x1, w5⟩, ⟨Cert.KernelIdeal.S128x126, z⟩]
    Cert.KernelIdeal.Facts₀.concatenates_S128x128_S128x1_S128x1_S128x126_S128x256_d1

/-- Columns 0..127 of the side-by-side matrix are w3's. -/
theorem comb_piece0 (w3 : FVec Ideal S128x128 .f32) (w4 w5 : FVec Ideal S128x1 .f32) (z : FVec Ideal Cert.KernelIdeal.S128x126 .f32)
    (k : Fin 128) (q : Fin 128) (c : Fin 256) (hc : c.val = q.val) : combK w3 w4 w5 z (ix2 k c) = w3 (ix2 k q) := by
  refine concatenate_apply_piece (1 : Fin 2) _ _ (ix2 k c) 0 ?_ Cert.KernelIdeal.S128x128 w3 ?_ rfl 0 ?_ (ix2 k q) (fun b hb => ?_) ?_
  · show (_ : ℕ) < 4
    omega
  · rfl
  · rfl
  · match b with
    | ⟨0, _⟩ => rfl
    | ⟨1, _⟩ => exact absurd rfl hb
  · show 0 + q.val = c.val
    omega

/-- Column 128 is w4's one column. -/
theorem comb_piece1 (w3 : FVec Ideal S128x128 .f32) (w4 w5 : FVec Ideal S128x1 .f32) (z : FVec Ideal Cert.KernelIdeal.S128x126 .f32)
    (k : Fin 128) (q : Fin 1) (c : Fin 256) (hc : c.val = 128 + q.val) : combK w3 w4 w5 z (ix2 k c) = w4 (ix2 k q) := by
  refine concatenate_apply_piece (1 : Fin 2) _ _ (ix2 k c) 1 ?_ Cert.KernelIdeal.S128x1 w4 ?_ rfl 128 ?_ (ix2 k q) (fun b hb => ?_) ?_
  · show (_ : ℕ) < 4
    omega
  · rfl
  · rfl
  · match b with
    | ⟨0, _⟩ => rfl
    | ⟨1, _⟩ => exact absurd rfl hb
  · show 128 + q.val = c.val
    omega

/-- Column 129 is w5's one column. -/
theorem comb_piece2 (w3 : FVec Ideal S128x128 .f32) (w4 w5 : FVec Ideal S128x1 .f32) (z : FVec Ideal Cert.KernelIdeal.S128x126 .f32)
    (k : Fin 128) (q : Fin 1) (c : Fin 256) (hc : c.val = 129 + q.val) : combK w3 w4 w5 z (ix2 k c) = w5 (ix2 k q) := by
  refine concatenate_apply_piece (1 : Fin 2) _ _ (ix2 k c) 2 ?_ Cert.KernelIdeal.S128x1 w5 ?_ rfl 129 ?_ (ix2 k q) (fun b hb => ?_) ?_
  · show (_ : ℕ) < 4
    omega
  · rfl
  · rfl
  · match b with
    | ⟨0, _⟩ => rfl
    | ⟨1, _⟩ => exact absurd rfl hb
  · show 129 + q.val = c.val
    omega

/-- Columns 0..127 of the product with the side-by-side matrix: the scaled product with w3. -/
theorem slice0_comb (X : FVec Ideal S100000x128 .f32) (s : FVec Ideal S100000x1 .f32) (w3 : FVec Ideal S128x128 .f32)
    (w4 w5 : FVec Ideal S128x1 .f32) (z : FVec Ideal Cert.KernelIdeal.S128x126 .f32) :
    extractStridedSlice Cert.KernelIdeal.S100000x128 ![0, 0] (scaledProd (N := 100000) (K := 128) (C := 256) X s (combK w3 w4 w5 z))
        Cert.KernelIdeal.Facts₀.slices_S100000x256_S100000x128_0_0
      = scaledProd (N := 100000) (K := 128) (C := 128) X s w3 := by
  funext j
  obtain ⟨p, q, rfl⟩ : ∃ (p : Fin 100000) (q : Fin 128), j = ix2 p q := ⟨j 0, j 1, eq_ix2 j⟩
  refine (slice2_axis1_eq 0 _ _ p q).trans ?_
  unfold scaledProd
  refine Finset.sum_congr rfl fun k _ => ?_
  refine congrArg₂ (· * ·) rfl ?_
  exact comb_piece0 w3 w4 w5 z k q _ (by show 0 + q.val = q.val; omega)

/-- Column 128 of the product: the scaled product with w4. -/
theorem slice1_comb (X : FVec Ideal S100000x128 .f32) (s : FVec Ideal S100000x1 .f32) (w3 : FVec Ideal S128x128 .f32)
    (w4 w5 : FVec Ideal S128x1 .f32) (z : FVec Ideal Cert.KernelIdeal.S128x126 .f32) :
    extractStridedSlice Cert.KernelIdeal.S100000x1 ![0, 128] (scaledProd (N := 100000) (K := 128) (C := 256) X s (combK w3 w4 w5 z))
        Cert.KernelIdeal.Facts₀.slices_S100000x256_S100000x1_0_128
      = scaledProd (N := 100000) (K := 128) (C := 1) X s w4 := by
  funext j
  obtain ⟨p, q, rfl⟩ : ∃ (p : Fin 100000) (q : Fin 1), j = ix2 p q := ⟨j 0, j 1, eq_ix2 j⟩
  refine (slice2_axis1_eq 128 _ _ p q).trans ?_
  unfold scaledProd
  refine Finset.sum_congr rfl fun k _ => ?_
  refine congrArg₂ (· * ·) rfl ?_
  exact comb_piece1 w3 w4 w5 z k q _ rfl

/-- Column 129 of the product: the scaled product with w5. -/
theorem slice2_comb (X : FVec Ideal S100000x128 .f32) (s : FVec Ideal S100000x1 .f32) (w3 : FVec Ideal S128x128 .f32)
    (w4 w5 : FVec Ideal S128x1 .f32) (z : FVec Ideal Cert.KernelIdeal.S128x126 .f32) :
    extractStridedSlice Cert.KernelIdeal.S100000x1 ![0, 129] (scaledProd (N := 100000) (K := 128) (C := 256) X s (combK w3 w4 w5 z))
        Cert.KernelIdeal.Facts₀.slices_S100000x256_S100000x1_0_129
      = scaledProd (N := 100000) (K := 128) (C := 1) X s w5 := by
  funext j
  obtain ⟨p, q, rfl⟩ : ∃ (p : Fin 100000) (q : Fin 1), j = ix2 p q := ⟨j 0, j 1, eq_ix2 j⟩
  refine (slice2_axis1_eq 129 _ _ p q).trans ?_
  unfold scaledProd
  refine Finset.sum_congr rfl fun k _ => ?_
  refine congrArg₂ (· * ·) rfl ?_
  exact comb_piece2 w3 w4 w5 z k q _ rfl

end Cert.Bridge

end
-- ==== Proof.RefForm.lean ====
/-
  The reference's named intermediate results as whole-array functions, over the extended reals: the degree
  normalisation n (the in-degree counts raised to the power -1/2), the neighbour aggregation (gather the rows of the
  source nodes, add them into the rows of the destination nodes), and the three projections as scaled products of the
  twice-aggregated features.
-/
import proofs.«158881_j66597762892109_2_alg».proof.Proof.Gen.ReferenceIdeal.Run
import proofs.«158881_j66597762892109_2_alg».proof.Proof.Bridge
import proofs.«158881_j66597762892109_2_alg».proof.Proof.Spec

set_option maxRecDepth 8192

noncomputable section

namespace Cert.RefForm

open Cert.ReferenceIdeal Idealize.ShloMosaic Idealize.ShloMosaic.TcCoe Idealize.ShloMosaic.ValueIdx Idealize.ShloMosaic.StableHlo Cert.Spec Cert.Bridge

section Defs
variable {F : FTy → Type} [FloatOps F]

/-- The degree normalisation: one is added into entry a6[e] for every edge e, from zero; the counts are raised to the power -1/2. -/
def nrmR (a6 : (⟨S1600000, .i32⟩ : BufTy).Contents (Elt F)) : (⟨S100000, .f32⟩ : BufTy).Contents (Elt F) :=
  Host.powf (Host.scatterAdd scatter_S100000_S1600000x1_S1600000_n_0_0_1 (broadcastInDim S100000 ![] Facts₀.bcast_S_S100000 (constant S_ .f32 0x00000000#32)) (broadcastInDim S1600000x1 ![0] Facts₀.bcast_S1600000_S1600000x1_0 a6) (broadcastInDim S1600000 ![] Facts₀.bcast_S_S1600000 (constant S_ .f32 0x3F800000#32))) (broadcastInDim S100000 ![] Facts₀.bcast_S_S100000 (constant S_ .f32 0xBF000000#32))

/-- An index vector as a column of row numbers: a negative entry counts from the end (100000 is added to it). -/
def idxR (a : (⟨S1600000, .i32⟩ : BufTy).Contents (Elt F)) : (⟨S1600000x1, .i32⟩ : BufTy).Contents (Elt F) :=
  broadcastInDim S1600000x1 ![0] Facts₀.bcast_S1600000_S1600000x1_0 (select (cmpi .slt a (broadcastInDim S1600000 ![] Facts₀.bcast_S_S1600000 (constantI S_ 32 0#32))) (addi a (broadcastInDim S1600000 ![] Facts₀.bcast_S_S1600000 (constantI S_ 32 100000#32))) a)

/-- The neighbour aggregation: row a7[e] of X is added into row a6[e], for every edge e, from zero. -/
def aggR (a6 a7 : (⟨S1600000, .i32⟩ : BufTy).Contents (Elt F)) (X : (⟨S100000x128, .f32⟩ : BufTy).Contents (Elt F)) : (⟨S100000x128, .f32⟩ : BufTy).Contents (Elt F) :=
  Host.scatterAdd scatter_S100000x128_S1600000x1_S1600000x128_1_0_0_1 (broadcastInDim S100000x128 ![] Facts₀.bcast_S_S100000x128 (constant S_ .f32 0x00000000#32)) (broadcastInDim S1600000x1 ![0] Facts₀.bcast_S1600000_S1600000x1_0 a6) (Host.gather gather_S100000x128_S1600000x1_S1600000x128_1_0_n_n_0_1_1128 X (idxR a7))

end Defs

section Results
variable (V0 : Valuation τ sig (Elt Ideal))

set_option maxHeartbeats 200000 in
/-- The normalisation column is the normalisation vector as a column. -/
theorem res6_eq : Value.res_main_v6 V0 = colR (nrmR (V0 (Proc.devRef .tc main_arg6))) := by
  unfold Value.res_main_v6
  rfl

set_option maxHeartbeats 400000 in
/-- The twice-aggregated features scaled by n, with the two inner products still as the host spells them. -/
theorem res36_raw : Value.res_main_v36 V0
    = mulf (aggR (V0 (Proc.devRef .tc main_arg6)) (V0 (Proc.devRef .tc main_arg7)) (Host.dotGeneral (φ₁ := .f32) (φ₂ := .f32) dot_S100000x128_S128x128_S100000x128_1_0_0_1_n_n none (mulf (mulf (aggR (V0 (Proc.devRef .tc main_arg6)) (V0 (Proc.devRef .tc main_arg7)) (Host.dotGeneral (φ₁ := .f32) (φ₂ := .f32) dot_S100000x128_S128x128_S100000x128_1_0_0_1_n_n none (mulf (V0 (Proc.devRef .tc main_arg0)) (bc2 (colR (nrmR (V0 (Proc.devRef .tc main_arg6)))))) (V0 (Proc.devRef .tc main_arg1)))) (bc2 (colR (nrmR (V0 (Proc.devRef .tc main_arg6)))))) (bc2 (colR (nrmR (V0 (Proc.devRef .tc main_arg6)))))) (V0 (Proc.devRef .tc main_arg2)))) (bc2 (colR (nrmR (V0 (Proc.devRef .tc main_arg6))))) := by
  unfold Value.res_main_v36
  rw [res6_eq]
  rfl

set_option maxHeartbeats 400000 in
/-- The twice-aggregated features Y2 scaled by n: the inner products are scaled products, scaling twice by n is scaling by n · n. -/
theorem res36_eq : Value.res_main_v36 V0 = mulf (aggR (V0 (Proc.devRef .tc main_arg6)) (V0 (Proc.devRef .tc main_arg7)) (scaledProd (N := 100000) (K := 128) (C := 128) (aggR (V0 (Proc.devRef .tc main_arg6)) (V0 (Proc.devRef .tc main_arg7)) (scaledProd (N := 100000) (K := 128) (C := 128) (V0 (Proc.devRef .tc main_arg0)) (colR (nrmR (V0 (Proc.devRef .tc main_arg6)))) (V0 (Proc.devRef .tc main_arg1)))) (colR (mulf (nrmR (V0 (Proc.devRef .tc main_arg6))) (nrmR (V0 (Proc.devRef .tc main_arg6))))) (V0 (Proc.devRef .tc main_arg2)))) (bc2 (colR (nrmR (V0 (Proc.devRef .tc main_arg6))))) := by
  rw [res36_raw, dot128_scaled2, dot128_scaled]

set_option maxHeartbeats 400000 in
theorem res37_eq : Value.res_main_v37 V0 = scaledProd (N := 100000) (K := 128) (C := 128) (aggR (V0 (Proc.devRef .tc main_arg6)) (V0 (Proc.devRef .tc main_arg7)) (scaledProd (N := 100000) (K := 128) (C := 128) (aggR (V0 (Proc.devRef .tc main_arg6)) (V0 (Proc.devRef .tc main_arg7)) (scaledProd (N := 100000) (K := 128) (C := 128) (V0 (Proc.devRef .tc main_arg0)) (colR (nrmR (V0 (Proc.devRef .tc main_arg6)))) (V0 (Proc.devRef .tc main_arg1)))) (colR (mulf (nrmR (V0 (Proc.devRef .tc main_arg6))) (nrmR (V0 (Proc.devRef .tc main_arg6))))) (V0 (Proc.devRef .tc main_arg2)))) (colR (nrmR (V0 (Proc.devRef .tc main_arg6)))) (V0 (Proc.devRef .tc main_arg3)) := by
  unfold Value.res_main_v37
  rw [res36_eq]
  exact dot128_scaled _ _ _

set_option maxHeartbeats 400000 in
theorem res38_eq : Value.res_main_v38 V0 = scaledProd (N := 100000) (K := 128) (C := 1) (aggR (V0 (Proc.devRef .tc main_arg6)) (V0 (Proc.devRef .tc main_arg7)) (scaledProd (N := 100000) (K := 128) (C := 128) (aggR (V0 (Proc.devRef .tc main_arg6)) (V0 (Proc.devRef .tc main_arg7)) (scaledProd (N := 100000) (K := 128) (C := 128) (V0 (Proc.devRef .tc main_arg0)) (colR (nrmR (V0 (Proc.devRef .tc main_arg6)))) (V0 (Proc.devRef .tc main_arg1)))) (colR (mulf (nrmR (V0 (Proc.devRef .tc main_arg6))) (nrmR (V0 (Proc.devRef .tc main_arg6))))) (V0 (Proc.devRef .tc main_arg2)))) (colR (nrmR (V0 (Proc.devRef .tc main_arg6)))) (V0 (Proc.devRef .tc main_arg4)) := by
  unfold Value.res_main_v38
  rw [res36_eq]
  exact dot1_scaled _ _ _

set_option maxHeartbeats 400000 in
theorem res39_eq : Value.res_main_v39 V0 = scaledProd (N := 100000) (K := 128) (C := 1) (aggR (V0 (Proc.devRef .tc main_arg6)) (V0 (Proc.devRef .tc main_arg7)) (scaledProd (N := 100000) (K := 128) (C := 128) (aggR (V0 (Proc.devRef .tc main_arg6)) (V0 (Proc.devRef .tc main_arg7)) (scaledProd (N := 100000) (K := 128) (C := 128) (V0 (Proc.devRef .tc main_arg0)) (colR (nrmR (V0 (Proc.devRef .tc main_arg6)))) (V0 (Proc.devRef .tc main_arg1)))) (colR (mulf (nrmR (V0 (Proc.devRef .tc main_arg6))) (nrmR (V0 (Proc.devRef .tc main_arg6))))) (V0 (Proc.devRef .tc main_arg2)))) (colR (nrmR (V0 (Proc.devRef .tc main_arg6)))) (V0 (Proc.devRef .tc main_arg5)) := by
  unfold Value.res_main_v39
  rw [res36_eq]
  exact dot1_scaled _ _ _

end Results

end Cert.RefForm

end
-- ==== Proof.Scores.lean ====
/-
  The four kinds of edge score, each an [E, 1] column of the specification read as an [E] vector, are the reference's
  host spellings: a reduction along the row from a zero initial value, then exp; or, for the logistic score,
  1 / (1 + exp (−(sum / 1))) with the ones a scalar spread over the vector. First at generic extents, every shape
  fact a hypothesis; then at the reference's shapes, as applications.
-/
import proofs.«158881_j66597762892109_2_alg».proof.Proof.Gen.ReferenceIdeal.Run
import proofs.«158881_j66597762892109_2_alg».proof.Proof.Spec
import proofs.«158881_j66597762892109_2_alg».proof.Proof.LibPlainDot
import Idealize.ShloMosaic.Lib.Pipeline.Value
import Idealize.ShloMosaic.Lib.ValueIdx
import Idealize.ShloMosaic.Lib.IdealHost
import Idealize.ShloMosaic.PureOps.Ideal.Laws

noncomputable section

namespace Cert.Scores

open Idealize.ShloMosaic Idealize.ShloMosaic.ValueIdx Cert.Spec

/-! # The edge scores at generic extents

E rows, K columns. The reference reduces along the row on the host from a zero initial value, and reads the result as
a vector; the specification keeps the result as a column. -/

section Generic
variable {E K : ℕ}

/-- An [E, 1] column cast to an [E] vector reads, at e, the column's entry of row e: the row-major positions
    e · 1 + 0 and e agree. -/
theorem cast_col_apply {α : Type} (X : (⟨2, ![E, 1]⟩ : Shape).Idx → α)
    (h : (⟨2, ![E, 1]⟩ : Shape).ShapeCasts ⟨1, ![E]⟩) (r : Fin E) :
    shapeCast ⟨1, ![E]⟩ X h (ix1 r) = X (ix2 r (0 : Fin 1)) :=
  shapeCast_apply X h _ _ (by
    rw [Shape.rowMajor_val_two, Shape.rowMajor_val_one]
    show r.val * 1 + 0 = r.val
    omega)

/-- The host's sum along the row from a zero initial value, at row e: the sum over the row's coordinates. -/
theorem rowSum_apply {K' : ℕ} (X : FVec Ideal ⟨2, ![E, K']⟩ .f32)
    (hR : (⟨2, ![E, K']⟩ : Shape).ReducesTo [1] ⟨1, ![E]⟩) (hred : (⟨2, ![E, K']⟩ : Shape).Reduces [1] ⟨1, ![E]⟩)
    (h0 : 0 < (⟨0, ![]⟩ : Shape).numel) (r : Fin E) :
    Host.reduceAdd X (constant ⟨0, ![]⟩ .f32 0x00000000#32) hR h0 (ix1 r) = ∑ k : Fin K', X (ix2 r k) := by
  rw [hostReduceAdd_apply, Ideal.hostReduceAdd_single hR hred]
  show Ideal.ofBits .f32 0x00000000#32 + _ = _
  rw [Ideal.ofBits_zero_f32, zero_add]
  refine Finset.sum_congr rfl fun k _ => ?_
  exact congrArg X (Cert.LibPlainDot.ext2 _ _ rfl rfl)

/-- exp of the row sums of A + B, as a vector: the host's exp of its reduction of A + B along the row. -/
theorem expRowSum_ref (A B : FVec Ideal ⟨2, ![E, K]⟩ .f32) (h : (⟨2, ![E, 1]⟩ : Shape).ShapeCasts ⟨1, ![E]⟩)
    (hRK : (⟨2, ![E, K]⟩ : Shape).ReducesTo [1] ⟨1, ![E]⟩) (hredK : (⟨2, ![E, K]⟩ : Shape).Reduces [1] ⟨1, ![E]⟩)
    (h0 : 0 < (⟨0, ![]⟩ : Shape).numel) :
    shapeCast ⟨1, ![E]⟩ (expRowSum A B) h
      = Host.exp (Host.reduceAdd (addf A B) (constant ⟨0, ![]⟩ .f32 0x00000000#32) hRK h0) := by
  funext e
  obtain ⟨r, rfl⟩ : ∃ r : Fin E, e = ix1 r := ⟨e 0, eq_ix1 e⟩
  rw [cast_col_apply]
  show _ = Ideal.exp (Host.reduceAdd (addf A B) (constant ⟨0, ![]⟩ .f32 0x00000000#32) hRK h0 (ix1 r))
  rw [rowSum_apply _ hRK hredK h0 r]
  rfl
end Generic

section Generic2
variable {E K : ℕ}

/-- An [E, 1] column spread along K columns reads, at (e, k), the column's entry of row e. -/
theorem spread_apply (b : FVec Ideal ⟨2, ![E, 1]⟩ .f32)
    (hb : (⟨2, ![E, 1]⟩ : Shape).BroadcastsInDim ⟨2, ![E, K]⟩ ![0, 1]) (r : Fin E) (k : Fin K) :
    broadcastInDim ⟨2, ![E, K]⟩ ![0, 1] hb b (ix2 r k) = b (ix2 r (0 : Fin 1)) := by
  refine broadcastInDim_apply _ _ b _ _ fun a => ?_
  match a with
  | ⟨0, _⟩ =>
    show r.val = if E = 1 then 0 else r.val
    split
    · have := r.isLt; omega
    · rfl
  | ⟨1, _⟩ => rfl

/-- exp of the row sums of A[e,k] + b[e,0], as a vector: the host's exp of its reduction, along the row, of A plus
    the column b spread along the row. -/
theorem expRowSumCol_ref (A : FVec Ideal ⟨2, ![E, K]⟩ .f32) (b : FVec Ideal ⟨2, ![E, 1]⟩ .f32)
    (h : (⟨2, ![E, 1]⟩ : Shape).ShapeCasts ⟨1, ![E]⟩)
    (hRK : (⟨2, ![E, K]⟩ : Shape).ReducesTo [1] ⟨1, ![E]⟩) (hredK : (⟨2, ![E, K]⟩ : Shape).Reduces [1] ⟨1, ![E]⟩)
    (h0 : 0 < (⟨0, ![]⟩ : Shape).numel) (hb : (⟨2, ![E, 1]⟩ : Shape).BroadcastsInDim ⟨2, ![E, K]⟩ ![0, 1]) :
    shapeCast ⟨1, ![E]⟩ (expRowSumCol A b) h
      = Host.exp (Host.reduceAdd (addf A (broadcastInDim ⟨2, ![E, K]⟩ ![0, 1] hb b)) (constant ⟨0, ![]⟩ .f32 0x00000000#32) hRK h0) := by
  funext e
  obtain ⟨r, rfl⟩ : ∃ r : Fin E, e = ix1 r := ⟨e 0, eq_ix1 e⟩
  rw [cast_col_apply]
  show _ = Ideal.exp (Host.reduceAdd (addf A (broadcastInDim ⟨2, ![E, K]⟩ ![0, 1] hb b)) (constant ⟨0, ![]⟩ .f32 0x00000000#32) hRK h0 (ix1 r))
  rw [rowSum_apply _ hRK hredK h0 r]
  refine congrArg Ideal.exp (Finset.sum_congr rfl fun k _ => ?_)
  show A (ix2 r k) + b (ix2 r (0 : Fin 1)) = A (ix2 r k) + broadcastInDim ⟨2, ![E, K]⟩ ![0, 1] hb b (ix2 r k)
  rw [spread_apply]

/-- exp of a + b for two columns, as a vector: the host's exp of its reduction of a + b along the one-entry row. -/
theorem expAdd_ref (a b : FVec Ideal ⟨2, ![E, 1]⟩ .f32) (h : (⟨2, ![E, 1]⟩ : Shape).ShapeCasts ⟨1, ![E]⟩)
    (hR1 : (⟨2, ![E, 1]⟩ : Shape).ReducesTo [1] ⟨1, ![E]⟩) (hred1 : (⟨2, ![E, 1]⟩ : Shape).Reduces [1] ⟨1, ![E]⟩)
    (h0 : 0 < (⟨0, ![]⟩ : Shape).numel) :
    shapeCast ⟨1, ![E]⟩ (expAdd a b) h
      = Host.exp (Host.reduceAdd (addf a b) (constant ⟨0, ![]⟩ .f32 0x00000000#32) hR1 h0) := by
  funext e
  obtain ⟨r, rfl⟩ : ∃ r : Fin E, e = ix1 r := ⟨e 0, eq_ix1 e⟩
  rw [cast_col_apply]
  show _ = Ideal.exp (Host.reduceAdd (addf a b) (constant ⟨0, ![]⟩ .f32 0x00000000#32) hR1 h0 (ix1 r))
  rw [rowSum_apply _ hR1 hred1 h0 r, Fin.sum_univ_one]
  rfl

/-- Division by one keeps an extended real. -/
theorem div_one_eq (x : EReal) : Ideal.div x 1 = x := by
  rw [← EReal.coe_one, Ideal.div_coe one_ne_zero]
  simp

/-- The logistic function of (a · b) · 1 for two columns, as a vector: the host's 1 / (1 + exp (−((0 + a · b) / 1))),
    the ones a scalar one spread over the vector. Multiplying and dividing by one and adding zero keep an extended
    real, and the logistic function of y is 1 / (1 + exp (−y)) by definition. -/
theorem logisticMul_ref (a b : FVec Ideal ⟨2, ![E, 1]⟩ .f32) (h : (⟨2, ![E, 1]⟩ : Shape).ShapeCasts ⟨1, ![E]⟩)
    (hR1 : (⟨2, ![E, 1]⟩ : Shape).ReducesTo [1] ⟨1, ![E]⟩) (hred1 : (⟨2, ![E, 1]⟩ : Shape).Reduces [1] ⟨1, ![E]⟩)
    (h0 : 0 < (⟨0, ![]⟩ : Shape).numel) (hbs : (⟨0, ![]⟩ : Shape).BroadcastsInDim ⟨1, ![E]⟩ ![]) :
    shapeCast ⟨1, ![E]⟩ (logisticMul (Ideal.ofBits .f32 0x3F800000#32) a b) h
      = Host.divf (broadcastInDim ⟨1, ![E]⟩ ![] hbs (constant ⟨0, ![]⟩ .f32 0x3F800000#32))
          (addf (broadcastInDim ⟨1, ![E]⟩ ![] hbs (constant ⟨0, ![]⟩ .f32 0x3F800000#32))
            (Host.exp (Host.negf (Host.divf (Host.reduceAdd (mulf a b) (constant ⟨0, ![]⟩ .f32 0x00000000#32) hR1 h0)
              (broadcastInDim ⟨1, ![E]⟩ ![] hbs (constant ⟨0, ![]⟩ .f32 0x3F800000#32)))))) := by
  funext e
  obtain ⟨r, rfl⟩ : ∃ r : Fin E, e = ix1 r := ⟨e 0, eq_ix1 e⟩
  rw [cast_col_apply]
  have h1 : broadcastInDim ⟨1, ![E]⟩ ![] hbs (constant (F := Ideal) ⟨0, ![]⟩ .f32 0x3F800000#32) (ix1 r) = 1 := by
    rw [broadcastInDim_scalar_apply]
    exact Ideal.ofBits_one_f32
  show Ideal.logistic ((a (ix2 r (0 : Fin 1)) * b (ix2 r (0 : Fin 1))) * Ideal.ofBits .f32 0x3F800000#32)
    = Ideal.div (broadcastInDim ⟨1, ![E]⟩ ![] hbs (constant (F := Ideal) ⟨0, ![]⟩ .f32 0x3F800000#32) (ix1 r))
        (broadcastInDim ⟨1, ![E]⟩ ![] hbs (constant (F := Ideal) ⟨0, ![]⟩ .f32 0x3F800000#32) (ix1 r)
          + Ideal.exp (-(Ideal.div (Host.reduceAdd (mulf a b) (constant ⟨0, ![]⟩ .f32 0x00000000#32) hR1 h0 (ix1 r))
              (broadcastInDim ⟨1, ![E]⟩ ![] hbs (constant (F := Ideal) ⟨0, ![]⟩ .f32 0x3F800000#32) (ix1 r)))))
  rw [h1, rowSum_apply _ hR1 hred1 h0 r, Fin.sum_univ_one, div_one_eq, Ideal.ofBits_one_f32, mul_one]
  rfl
end Generic2

/-! # The same at the reference's shapes: 1600000 rows, 128 columns -/

section AtReference
open Cert.ReferenceIdeal

/-- exp of the row sums of A + B. -/
theorem expRowSum_R (A B : FVec Ideal S1600000x128 .f32) (h : S1600000x1.ShapeCasts S1600000) :
    shapeCast S1600000 (expRowSum (E := 1600000) (K := 128) A B) h
      = Host.exp (Host.reduceAdd (addf A B) (constant S_ .f32 0x00000000#32) Facts₀.reducesTo_S1600000x128_S1600000_d1 Facts₀.h_S_) :=
  expRowSum_ref A B h Facts₀.reducesTo_S1600000x128_S1600000_d1 (by decide) Facts₀.h_S_

/-- exp of the row sums of A[e,k] + b[e,0]. -/
theorem expRowSumCol_R (A : FVec Ideal S1600000x128 .f32) (b : FVec Ideal S1600000x1 .f32) (h : S1600000x1.ShapeCasts S1600000) :
    shapeCast S1600000 (expRowSumCol (E := 1600000) (K := 128) A b) h
      = Host.exp (Host.reduceAdd (addf A (broadcastInDim S1600000x128 ![0, 1] Facts₀.bcast_S1600000x1_S1600000x128_0_1 b))
          (constant S_ .f32 0x00000000#32) Facts₀.reducesTo_S1600000x128_S1600000_d1 Facts₀.h_S_) :=
  expRowSumCol_ref A b h Facts₀.reducesTo_S1600000x128_S1600000_d1 (by decide) Facts₀.h_S_ Facts₀.bcast_S1600000x1_S1600000x128_0_1

/-- exp of a + b for two columns. -/
theorem expAdd_R (a b : FVec Ideal S1600000x1 .f32) (h : S1600000x1.ShapeCasts S1600000) :
    shapeCast S1600000 (expAdd (E := 1600000) a b) h
      = Host.exp (Host.reduceAdd (addf a b) (constant S_ .f32 0x00000000#32) Facts₀.reducesTo_S1600000x1_S1600000_d1 Facts₀.h_S_) :=
  expAdd_ref a b h Facts₀.reducesTo_S1600000x1_S1600000_d1 (by decide) Facts₀.h_S_

/-- The logistic function of (a · b) · 1 for two columns. -/
theorem logisticMul_R (a b : FVec Ideal S1600000x1 .f32) (h : S1600000x1.ShapeCasts S1600000) :
    shapeCast S1600000 (logisticMul (E := 1600000) (Ideal.ofBits .f32 0x3F800000#32) a b) h
      = Host.divf (broadcastInDim S1600000 ![] Facts₀.bcast_S_S1600000 (constant S_ .f32 0x3F800000#32))
          (addf (broadcastInDim S1600000 ![] Facts₀.bcast_S_S1600000 (constant S_ .f32 0x3F800000#32))
            (Host.exp (Host.negf (Host.divf (Host.reduceAdd (mulf a b) (constant S_ .f32 0x00000000#32) Facts₀.reducesTo_S1600000x1_S1600000_d1 Facts₀.h_S_)
              (broadcastInDim S1600000 ![] Facts₀.bcast_S_S1600000 (constant S_ .f32 0x3F800000#32)))))) :=
  logisticMul_ref a b h Facts₀.reducesTo_S1600000x1_S1600000_d1 (by decide) Facts₀.h_S_ Facts₀.bcast_S_S1600000
end AtReference

end Cert.Scores

end
-- ==== Proof.RefRows.lean ====
/-
  The reference's whole result, over the extended reals: six rows, each one of the four edge-score functions of rows
  gathered from the three projections, read as a vector of 1600000 entries.
-/
import proofs.«158881_j66597762892109_2_alg».proof.Proof.RefForm
import proofs.«158881_j66597762892109_2_alg».proof.Proof.Scores
import proofs.«158881_j66597762892109_2_alg».proof.Proof.Spec

set_option maxRecDepth 8192

noncomputable section

namespace Cert.RefRows

open Cert.ReferenceIdeal Idealize.ShloMosaic Idealize.ShloMosaic.TcCoe Idealize.ShloMosaic.ValueIdx Idealize.ShloMosaic.StableHlo Cert.Spec Cert.Bridge Cert.RefForm

section Defs
variable {F : FTy → Type} [FloatOps F]

/-- The rows of a 128-column array that an index vector names, one per edge. -/
def gat128R (X : (⟨S100000x128, .f32⟩ : BufTy).Contents (Elt F)) (a : (⟨S1600000, .i32⟩ : BufTy).Contents (Elt F)) : (⟨S1600000x128, .f32⟩ : BufTy).Contents (Elt F) :=
  Host.gather gather_S100000x128_S1600000x1_S1600000x128_1_0_n_n_0_1_1128 X (idxR a)

/-- The entries of a column that an index vector names, one per edge. -/
def gat1R (x : (⟨S100000x1, .f32⟩ : BufTy).Contents (Elt F)) (a : (⟨S1600000, .i32⟩ : BufTy).Contents (Elt F)) : (⟨S1600000x1, .f32⟩ : BufTy).Contents (Elt F) :=
  Host.gather gather_S100000x1_S1600000x1_S1600000x1_1_0_n_n_0_1_11 x (idxR a)

end Defs

/-! # The four host spellings of a row, over variables -/

set_option maxHeartbeats 400000 in
/-- exp of the host's row sums of two gathered 128-column arrays added is the first score function of them. -/
theorem row_expRowSum (S : FVec Ideal S100000x128 .f32) (a b : (⟨S1600000, .i32⟩ : BufTy).Contents (Elt Ideal)) (h : S1600000x1.ShapeCasts S1600000) :
    Host.exp (Host.reduceAdd (addf (Host.gather gather_S100000x128_S1600000x1_S1600000x128_1_0_n_n_0_1_1128 S (broadcastInDim S1600000x1 ![0] Facts₀.bcast_S1600000_S1600000x1_0 (select (cmpi .slt a (broadcastInDim S1600000 ![] Facts₀.bcast_S_S1600000 (constantI S_ 32 0#32))) (addi a (broadcastInDim S1600000 ![] Facts₀.bcast_S_S1600000 (constantI S_ 32 100000#32))) a))) (Host.gather gather_S100000x128_S1600000x1_S1600000x128_1_0_n_n_0_1_1128 S (broadcastInDim S1600000x1 ![0] Facts₀.bcast_S1600000_S1600000x1_0 (select (cmpi .slt b (broadcastInDim S1600000 ![] Facts₀.bcast_S_S1600000 (constantI S_ 32 0#32))) (addi b (broadcastInDim S1600000 ![] Facts₀.bcast_S_S1600000 (constantI S_ 32 100000#32))) b)))) (constant S_ .f32 0x00000000#32) Facts₀.reducesTo_S1600000x128_S1600000_d1 Facts₀.h_S_)
      = shapeCast S1600000 (expRowSum (E := 1600000) (K := 128) (gat128R (F := Ideal) S a) (gat128R (F := Ideal) S b)) h :=
  (Cert.Scores.expRowSum_R (gat128R (F := Ideal) S a) (gat128R (F := Ideal) S b) h).symm

set_option maxHeartbeats 400000 in
/-- exp of the host's row sums of a gathered 128-column array plus a gathered column spread along the row. -/
theorem row_expRowSumCol (S : FVec Ideal S100000x128 .f32) (s : FVec Ideal S100000x1 .f32) (a b : (⟨S1600000, .i32⟩ : BufTy).Contents (Elt Ideal)) (h : S1600000x1.ShapeCasts S1600000) :
    Host.exp (Host.reduceAdd (addf (Host.gather gather_S100000x128_S1600000x1_S1600000x128_1_0_n_n_0_1_1128 S (broadcastInDim S1600000x1 ![0] Facts₀.bcast_S1600000_S1600000x1_0 (select (cmpi .slt a (broadcastInDim S1600000 ![] Facts₀.bcast_S_S1600000 (constantI S_ 32 0#32))) (addi a (broadcastInDim S1600000 ![] Facts₀.bcast_S_S1600000 (constantI S_ 32 100000#32))) a))) (broadcastInDim S1600000x128 ![0, 1] Facts₀.bcast_S1600000x1_S1600000x128_0_1 (Host.gather gather_S100000x1_S1600000x1_S1600000x1_1_0_n_n_0_1_11 s (broadcastInDim S1600000x1 ![0] Facts₀.bcast_S1600000_S1600000x1_0 (select (cmpi .slt b (broadcastInDim S1600000 ![] Facts₀.bcast_S_S1600000 (constantI S_ 32 0#32))) (addi b (broadcastInDim S1600000 ![] Facts₀.bcast_S_S1600000 (constantI S_ 32 100000#32))) b))))) (constant S_ .f32 0x00000000#32) Facts₀.reducesTo_S1600000x128_S1600000_d1 Facts₀.h_S_)
      = shapeCast S1600000 (expRowSumCol (E := 1600000) (K := 128) (gat128R (F := Ideal) S a) (gat1R (F := Ideal) s b)) h :=
  (Cert.Scores.expRowSumCol_R (gat128R (F := Ideal) S a) (gat1R (F := Ideal) s b) h).symm

set_option maxHeartbeats 400000 in
/-- exp of the host's one-entry row sums of two gathered columns added. -/
theorem row_expAdd (s : FVec Ideal S100000x1 .f32) (a b : (⟨S1600000, .i32⟩ : BufTy).Contents (Elt Ideal)) (h : S1600000x1.ShapeCasts S1600000) :
    Host.exp (Host.reduceAdd (addf (Host.gather gather_S100000x1_S1600000x1_S1600000x1_1_0_n_n_0_1_11 s (broadcastInDim S1600000x1 ![0] Facts₀.bcast_S1600000_S1600000x1_0 (select (cmpi .slt a (broadcastInDim S1600000 ![] Facts₀.bcast_S_S1600000 (constantI S_ 32 0#32))) (addi a (broadcastInDim S1600000 ![] Facts₀.bcast_S_S1600000 (constantI S_ 32 100000#32))) a))) (Host.gather gather_S100000x1_S1600000x1_S1600000x1_1_0_n_n_0_1_11 s (broadcastInDim S1600000x1 ![0] Facts₀.bcast_S1600000_S1600000x1_0 (select (cmpi .slt b (broadcastInDim S1600000 ![] Facts₀.bcast_S_S1600000 (constantI S_ 32 0#32))) (addi b (broadcastInDim S1600000 ![] Facts₀.bcast_S_S1600000 (constantI S_ 32 100000#32))) b)))) (constant S_ .f32 0x00000000#32) Facts₀.reducesTo_S1600000x1_S1600000_d1 Facts₀.h_S_)
      = shapeCast S1600000 (expAdd (E := 1600000) (gat1R (F := Ideal) s a) (gat1R (F := Ideal) s b)) h :=
  (Cert.Scores.expAdd_R (gat1R (F := Ideal) s a) (gat1R (F := Ideal) s b) h).symm

set_option maxHeartbeats 400000 in
/-- The host's 1 / (1 + exp (-(sum / 1))) of two gathered columns multiplied. -/
theorem row_logisticMul (s : FVec Ideal S100000x1 .f32) (a b : (⟨S1600000, .i32⟩ : BufTy).Contents (Elt Ideal)) (h : S1600000x1.ShapeCasts S1600000) :
    Host.divf (broadcastInDim S1600000 ![] Facts₀.bcast_S_S1600000 (constant S_ .f32 0x3F800000#32)) (addf (broadcastInDim S1600000 ![] Facts₀.bcast_S_S1600000 (constant S_ .f32 0x3F800000#32)) (Host.exp (Host.negf (Host.divf (Host.reduceAdd (mulf (Host.gather gather_S100000x1_S1600000x1_S1600000x1_1_0_n_n_0_1_11 s (broadcastInDim S1600000x1 ![0] Facts₀.bcast_S1600000_S1600000x1_0 (select (cmpi .slt a (broadcastInDim S1600000 ![] Facts₀.bcast_S_S1600000 (constantI S_ 32 0#32))) (addi a (broadcastInDim S1600000 ![] Facts₀.bcast_S_S1600000 (constantI S_ 32 100000#32))) a))) (Host.gather gather_S100000x1_S1600000x1_S1600000x1_1_0_n_n_0_1_11 s (broadcastInDim S1600000x1 ![0] Facts₀.bcast_S1600000_S1600000x1_0 (select (cmpi .slt b (broadcastInDim S1600000 ![] Facts₀.bcast_S_S1600000 (constantI S_ 32 0#32))) (addi b (broadcastInDim S1600000 ![] Facts₀.bcast_S_S1600000 (constantI S_ 32 100000#32))) b)))) (constant S_ .f32 0x00000000#32) Facts₀.reducesTo_S1600000x1_S1600000_d1 Facts₀.h_S_) (broadcastInDim S1600000 ![] Facts₀.bcast_S_S1600000 (constant S_ .f32 0x3F800000#32))))))
      = shapeCast S1600000 (logisticMul (E := 1600000) (Ideal.ofBits .f32 0x3F800000#32) (gat1R (F := Ideal) s a) (gat1R (F := Ideal) s b)) h :=
  (Cert.Scores.logisticMul_R (gat1R (F := Ideal) s a) (gat1R (F := Ideal) s b) h).symm

/-! # The result -/

section Result
variable (V0 : Valuation τ sig (Elt Ideal))

set_option maxHeartbeats 1000000 in
/-- The reference's result: the six score rows set one under the other. -/
theorem res163_rows (h : S1600000x1.ShapeCasts S1600000) : Value.res_main_v163 V0 = concatenate S6x1600000 0
    [⟨S1x1600000, (broadcastInDim S1x1600000 ![1] Facts₀.bcast_S1600000_S1x1600000_1 (shapeCast S1600000 (expRowSum (E := 1600000) (K := 128) (gat128R (F := Ideal) (scaledProd (N := 100000) (K := 128) (C := 128) (aggR (V0 (Proc.devRef .tc main_arg6)) (V0 (Proc.devRef .tc main_arg7)) (scaledProd (N := 100000) (K := 128) (C := 128) (aggR (V0 (Proc.devRef .tc main_arg6)) (V0 (Proc.devRef .tc main_arg7)) (scaledProd (N := 100000) (K := 128) (C := 128) (V0 (Proc.devRef .tc main_arg0)) (colR (nrmR (V0 (Proc.devRef .tc main_arg6)))) (V0 (Proc.devRef .tc main_arg1)))) (colR (mulf (nrmR (V0 (Proc.devRef .tc main_arg6))) (nrmR (V0 (Proc.devRef .tc main_arg6))))) (V0 (Proc.devRef .tc main_arg2)))) (colR (nrmR (V0 (Proc.devRef .tc main_arg6)))) (V0 (Proc.devRef .tc main_arg3))) (V0 (Proc.devRef .tc main_arg6))) (gat128R (F := Ideal) (scaledProd (N := 100000) (K := 128) (C := 128) (aggR (V0 (Proc.devRef .tc main_arg6)) (V0 (Proc.devRef .tc main_arg7)) (scaledProd (N := 100000) (K := 128) (C := 128) (aggR (V0 (Proc.devRef .tc main_arg6)) (V0 (Proc.devRef .tc main_arg7)) (scaledProd (N := 100000) (K := 128) (C := 128) (V0 (Proc.devRef .tc main_arg0)) (colR (nrmR (V0 (Proc.devRef .tc main_arg6)))) (V0 (Proc.devRef .tc main_arg1)))) (colR (mulf (nrmR (V0 (Proc.devRef .tc main_arg6))) (nrmR (V0 (Proc.devRef .tc main_arg6))))) (V0 (Proc.devRef .tc main_arg2)))) (colR (nrmR (V0 (Proc.devRef .tc main_arg6)))) (V0 (Proc.devRef .tc main_arg3))) (V0 (Proc.devRef .tc main_arg7)))) h))⟩,
     ⟨S1x1600000, (broadcastInDim S1x1600000 ![1] Facts₀.bcast_S1600000_S1x1600000_1 (shapeCast S1600000 (expAdd (E := 1600000) (gat1R (F := Ideal) (scaledProd (N := 100000) (K := 128) (C := 1) (aggR (V0 (Proc.devRef .tc main_arg6)) (V0 (Proc.devRef .tc main_arg7)) (scaledProd (N := 100000) (K := 128) (C := 128) (aggR (V0 (Proc.devRef .tc main_arg6)) (V0 (Proc.devRef .tc main_arg7)) (scaledProd (N := 100000) (K := 128) (C := 128) (V0 (Proc.devRef .tc main_arg0)) (colR (nrmR (V0 (Proc.devRef .tc main_arg6)))) (V0 (Proc.devRef .tc main_arg1)))) (colR (mulf (nrmR (V0 (Proc.devRef .tc main_arg6))) (nrmR (V0 (Proc.devRef .tc main_arg6))))) (V0 (Proc.devRef .tc main_arg2)))) (colR (nrmR (V0 (Proc.devRef .tc main_arg6)))) (V0 (Proc.devRef .tc main_arg4))) (V0 (Proc.devRef .tc main_arg6))) (gat1R (F := Ideal) (scaledProd (N := 100000) (K := 128) (C := 1) (aggR (V0 (Proc.devRef .tc main_arg6)) (V0 (Proc.devRef .tc main_arg7)) (scaledProd (N := 100000) (K := 128) (C := 128) (aggR (V0 (Proc.devRef .tc main_arg6)) (V0 (Proc.devRef .tc main_arg7)) (scaledProd (N := 100000) (K := 128) (C := 128) (V0 (Proc.devRef .tc main_arg0)) (colR (nrmR (V0 (Proc.devRef .tc main_arg6)))) (V0 (Proc.devRef .tc main_arg1)))) (colR (mulf (nrmR (V0 (Proc.devRef .tc main_arg6))) (nrmR (V0 (Proc.devRef .tc main_arg6))))) (V0 (Proc.devRef .tc main_arg2)))) (colR (nrmR (V0 (Proc.devRef .tc main_arg6)))) (V0 (Proc.devRef .tc main_arg4))) (V0 (Proc.devRef .tc main_arg7)))) h))⟩,
     ⟨S1x1600000, (broadcastInDim S1x1600000 ![1] Facts₀.bcast_S1600000_S1x1600000_1 (shapeCast S1600000 (logisticMul (E := 1600000) (Ideal.ofBits .f32 0x3F800000#32) (gat1R (F := Ideal) (scaledProd (N := 100000) (K := 128) (C := 1) (aggR (V0 (Proc.devRef .tc main_arg6)) (V0 (Proc.devRef .tc main_arg7)) (scaledProd (N := 100000) (K := 128) (C := 128) (aggR (V0 (Proc.devRef .tc main_arg6)) (V0 (Proc.devRef .tc main_arg7)) (scaledProd (N := 100000) (K := 128) (C := 128) (V0 (Proc.devRef .tc main_arg0)) (colR (nrmR (V0 (Proc.devRef .tc main_arg6)))) (V0 (Proc.devRef .tc main_arg1)))) (colR (mulf (nrmR (V0 (Proc.devRef .tc main_arg6))) (nrmR (V0 (Proc.devRef .tc main_arg6))))) (V0 (Proc.devRef .tc main_arg2)))) (colR (nrmR (V0 (Proc.devRef .tc main_arg6)))) (V0 (Proc.devRef .tc main_arg5))) (V0 (Proc.devRef .tc main_arg6))) (gat1R (F := Ideal) (scaledProd (N := 100000) (K := 128) (C := 1) (aggR (V0 (Proc.devRef .tc main_arg6)) (V0 (Proc.devRef .tc main_arg7)) (scaledProd (N := 100000) (K := 128) (C := 128) (aggR (V0 (Proc.devRef .tc main_arg6)) (V0 (Proc.devRef .tc main_arg7)) (scaledProd (N := 100000) (K := 128) (C := 128) (V0 (Proc.devRef .tc main_arg0)) (colR (nrmR (V0 (Proc.devRef .tc main_arg6)))) (V0 (Proc.devRef .tc main_arg1)))) (colR (mulf (nrmR (V0 (Proc.devRef .tc main_arg6))) (nrmR (V0 (Proc.devRef .tc main_arg6))))) (V0 (Proc.devRef .tc main_arg2)))) (colR (nrmR (V0 (Proc.devRef .tc main_arg6)))) (V0 (Proc.devRef .tc main_arg5))) (V0 (Proc.devRef .tc main_arg7)))) h))⟩,
     ⟨S1x1600000, (broadcastInDim S1x1600000 ![1] Facts₀.bcast_S1600000_S1x1600000_1 (shapeCast S1600000 (expRowSumCol (E := 1600000) (K := 128) (gat128R (F := Ideal) (scaledProd (N := 100000) (K := 128) (C := 128) (aggR (V0 (Proc.devRef .tc main_arg6)) (V0 (Proc.devRef .tc main_arg7)) (scaledProd (N := 100000) (K := 128) (C := 128) (aggR (V0 (Proc.devRef .tc main_arg6)) (V0 (Proc.devRef .tc main_arg7)) (scaledProd (N := 100000) (K := 128) (C := 128) (V0 (Proc.devRef .tc main_arg0)) (colR (nrmR (V0 (Proc.devRef .tc main_arg6)))) (V0 (Proc.devRef .tc main_arg1)))) (colR (mulf (nrmR (V0 (Proc.devRef .tc main_arg6))) (nrmR (V0 (Proc.devRef .tc main_arg6))))) (V0 (Proc.devRef .tc main_arg2)))) (colR (nrmR (V0 (Proc.devRef .tc main_arg6)))) (V0 (Proc.devRef .tc main_arg3))) (V0 (Proc.devRef .tc main_arg8))) (gat1R (F := Ideal) (scaledProd (N := 100000) (K := 128) (C := 1) (aggR (V0 (Proc.devRef .tc main_arg6)) (V0 (Proc.devRef .tc main_arg7)) (scaledProd (N := 100000) (K := 128) (C := 128) (aggR (V0 (Proc.devRef .tc main_arg6)) (V0 (Proc.devRef .tc main_arg7)) (scaledProd (N := 100000) (K := 128) (C := 128) (V0 (Proc.devRef .tc main_arg0)) (colR (nrmR (V0 (Proc.devRef .tc main_arg6)))) (V0 (Proc.devRef .tc main_arg1)))) (colR (mulf (nrmR (V0 (Proc.devRef .tc main_arg6))) (nrmR (V0 (Proc.devRef .tc main_arg6))))) (V0 (Proc.devRef .tc main_arg2)))) (colR (nrmR (V0 (Proc.devRef .tc main_arg6)))) (V0 (Proc.devRef .tc main_arg4))) (V0 (Proc.devRef .tc main_arg9)))) h))⟩,
     ⟨S1x1600000, (broadcastInDim S1x1600000 ![1] Facts₀.bcast_S1600000_S1x1600000_1 (shapeCast S1600000 (expAdd (E := 1600000) (gat1R (F := Ideal) (scaledProd (N := 100000) (K := 128) (C := 1) (aggR (V0 (Proc.devRef .tc main_arg6)) (V0 (Proc.devRef .tc main_arg7)) (scaledProd (N := 100000) (K := 128) (C := 128) (aggR (V0 (Proc.devRef .tc main_arg6)) (V0 (Proc.devRef .tc main_arg7)) (scaledProd (N := 100000) (K := 128) (C := 128) (V0 (Proc.devRef .tc main_arg0)) (colR (nrmR (V0 (Proc.devRef .tc main_arg6)))) (V0 (Proc.devRef .tc main_arg1)))) (colR (mulf (nrmR (V0 (Proc.devRef .tc main_arg6))) (nrmR (V0 (Proc.devRef .tc main_arg6))))) (V0 (Proc.devRef .tc main_arg2)))) (colR (nrmR (V0 (Proc.devRef .tc main_arg6)))) (V0 (Proc.devRef .tc main_arg4))) (V0 (Proc.devRef .tc main_arg8))) (gat1R (F := Ideal) (scaledProd (N := 100000) (K := 128) (C := 1) (aggR (V0 (Proc.devRef .tc main_arg6)) (V0 (Proc.devRef .tc main_arg7)) (scaledProd (N := 100000) (K := 128) (C := 128) (aggR (V0 (Proc.devRef .tc main_arg6)) (V0 (Proc.devRef .tc main_arg7)) (scaledProd (N := 100000) (K := 128) (C := 128) (V0 (Proc.devRef .tc main_arg0)) (colR (nrmR (V0 (Proc.devRef .tc main_arg6)))) (V0 (Proc.devRef .tc main_arg1)))) (colR (mulf (nrmR (V0 (Proc.devRef .tc main_arg6))) (nrmR (V0 (Proc.devRef .tc main_arg6))))) (V0 (Proc.devRef .tc main_arg2)))) (colR (nrmR (V0 (Proc.devRef .tc main_arg6)))) (V0 (Proc.devRef .tc main_arg4))) (V0 (Proc.devRef .tc main_arg9)))) h))⟩,
     ⟨S1x1600000, (broadcastInDim S1x1600000 ![1] Facts₀.bcast_S1600000_S1x1600000_1 (shapeCast S1600000 (logisticMul (E := 1600000) (Ideal.ofBits .f32 0x3F800000#32) (gat1R (F := Ideal) (scaledProd (N := 100000) (K := 128) (C := 1) (aggR (V0 (Proc.devRef .tc main_arg6)) (V0 (Proc.devRef .tc main_arg7)) (scaledProd (N := 100000) (K := 128) (C := 128) (aggR (V0 (Proc.devRef .tc main_arg6)) (V0 (Proc.devRef .tc main_arg7)) (scaledProd (N := 100000) (K := 128) (C := 128) (V0 (Proc.devRef .tc main_arg0)) (colR (nrmR (V0 (Proc.devRef .tc main_arg6)))) (V0 (Proc.devRef .tc main_arg1)))) (colR (mulf (nrmR (V0 (Proc.devRef .tc main_arg6))) (nrmR (V0 (Proc.devRef .tc main_arg6))))) (V0 (Proc.devRef .tc main_arg2)))) (colR (nrmR (V0 (Proc.devRef .tc main_arg6)))) (V0 (Proc.devRef .tc main_arg5))) (V0 (Proc.devRef .tc main_arg6))) (gat1R (F := Ideal) (scaledProd (N := 100000) (K := 128) (C := 1) (aggR (V0 (Proc.devRef .tc main_arg6)) (V0 (Proc.devRef .tc main_arg7)) (scaledProd (N := 100000) (K := 128) (C := 128) (aggR (V0 (Proc.devRef .tc main_arg6)) (V0 (Proc.devRef .tc main_arg7)) (scaledProd (N := 100000) (K := 128) (C := 128) (V0 (Proc.devRef .tc main_arg0)) (colR (nrmR (V0 (Proc.devRef .tc main_arg6)))) (V0 (Proc.devRef .tc main_arg1)))) (colR (mulf (nrmR (V0 (Proc.devRef .tc main_arg6))) (nrmR (V0 (Proc.devRef .tc main_arg6))))) (V0 (Proc.devRef .tc main_arg2)))) (colR (nrmR (V0 (Proc.devRef .tc main_arg6)))) (V0 (Proc.devRef .tc main_arg5))) (V0 (Proc.devRef .tc main_arg9)))) h))⟩]
    Facts₀.concatenates_S1x1600000_S1x1600000_S1x1600000_S1x1600000_S1x1600000_S1x1600000_S6x1600000_d0 := by
  unfold Value.res_main_v163
  rw [res37_eq, res38_eq, res39_eq]
  rw [row_expRowSum _ (V0 (Proc.devRef .tc main_arg6)) (V0 (Proc.devRef .tc main_arg7)) h, row_expRowSumCol _ _ (V0 (Proc.devRef .tc main_arg8)) (V0 (Proc.devRef .tc main_arg9)) h,
    row_expAdd _ (V0 (Proc.devRef .tc main_arg6)) (V0 (Proc.devRef .tc main_arg7)) h, row_expAdd _ (V0 (Proc.devRef .tc main_arg8)) (V0 (Proc.devRef .tc main_arg9)) h,
    row_logisticMul _ (V0 (Proc.devRef .tc main_arg6)) (V0 (Proc.devRef .tc main_arg7)) h, row_logisticMul _ (V0 (Proc.devRef .tc main_arg6)) (V0 (Proc.devRef .tc main_arg9)) h]

end Result

end Cert.RefRows

end
-- ==== Proof.KRCong.lean ====
/-
  The kernel program's named host functions are the reference's, term for term: the two programs print their own
  copies of the shapes, dimension records and shape facts, and the functions differ only in those names. Each equation
  is between the same library function applied to records equal field by field and to shapes that are the same
  literals.
-/
import proofs.«158881_j66597762892109_2_alg».proof.Proof.KiStage
import proofs.«158881_j66597762892109_2_alg».proof.Proof.RefForm

noncomputable section

namespace Cert.KRCong

open Idealize.ShloMosaic

/-- The degree norm. -/
theorem nrm_eq (a6 : (⟨Cert.KernelIdeal.S1600000, .i32⟩ : BufTy).Contents (Elt Ideal)) :
    Cert.KernelIdeal.Hand.nrm (F := Ideal) a6 = Cert.RefForm.nrmR a6 := rfl

/-- A vector over the nodes as a column. -/
theorem colOf_eq (v : (⟨Cert.KernelIdeal.S100000, .f32⟩ : BufTy).Contents (Elt Ideal)) :
    Cert.KernelIdeal.Hand.colOf (F := Ideal) v = Cert.Bridge.colR v := rfl

/-- An index vector as a column of row numbers. -/
theorem idxOf_eq (a : (⟨Cert.KernelIdeal.S1600000, .i32⟩ : BufTy).Contents (Elt Ideal)) :
    Cert.KernelIdeal.Hand.idxOf (F := Ideal) a = Cert.RefForm.idxR a := rfl

/-- The neighbourhood sum. -/
theorem agg_eq (a6 a7 : (⟨Cert.KernelIdeal.S1600000, .i32⟩ : BufTy).Contents (Elt Ideal))
    (X : (⟨Cert.KernelIdeal.S100000x128, .f32⟩ : BufTy).Contents (Elt Ideal)) :
    Cert.KernelIdeal.Hand.agg (F := Ideal) a6 a7 X = Cert.RefForm.aggR a6 a7 X := rfl

/-- Rows of a width-128 table at an index vector. -/
theorem gat128_eq (X : (⟨Cert.KernelIdeal.S100000x128, .f32⟩ : BufTy).Contents (Elt Ideal))
    (a : (⟨Cert.KernelIdeal.S1600000, .i32⟩ : BufTy).Contents (Elt Ideal)) :
    Cert.KernelIdeal.Hand.gat128 (F := Ideal) X a
      = Host.gather Cert.ReferenceIdeal.gather_S100000x128_S1600000x1_S1600000x128_1_0_n_n_0_1_1128 X (Cert.RefForm.idxR a) := rfl

/-- Entries of a width-1 table at an index vector. -/
theorem gat1_eq (x : (⟨Cert.KernelIdeal.S100000x1, .f32⟩ : BufTy).Contents (Elt Ideal))
    (a : (⟨Cert.KernelIdeal.S1600000, .i32⟩ : BufTy).Contents (Elt Ideal)) :
    Cert.KernelIdeal.Hand.gat1 (F := Ideal) x a
      = Host.gather Cert.ReferenceIdeal.gather_S100000x1_S1600000x1_S1600000x1_1_0_n_n_0_1_11 x (Cert.RefForm.idxR a) := rfl

/-- A vector over the edges as one row. -/
theorem row_eq (u : (⟨Cert.KernelIdeal.S1600000, .f32⟩ : BufTy).Contents (Elt Ideal)) :
    broadcastInDim Cert.KernelIdeal.S1x1600000 ![1] Cert.KernelIdeal.Facts₀.bcast_S1600000_S1x1600000_1 u
      = broadcastInDim Cert.ReferenceIdeal.S1x1600000 ![1] Cert.ReferenceIdeal.Facts₀.bcast_S1600000_S1x1600000_1 u := rfl

/-- The six rows stacked. -/
theorem stack6_eq (r0 r1 r2 r3 r4 r5 : (⟨Cert.KernelIdeal.S1x1600000, .f32⟩ : BufTy).Contents (Elt Ideal)) :
    Cert.KernelIdeal.Hand.stack6 (F := Ideal) r0 r1 r2 r3 r4 r5
      = concatenate Cert.ReferenceIdeal.S6x1600000 0 [⟨Cert.ReferenceIdeal.S1x1600000, r0⟩, ⟨Cert.ReferenceIdeal.S1x1600000, r1⟩,
          ⟨Cert.ReferenceIdeal.S1x1600000, r2⟩, ⟨Cert.ReferenceIdeal.S1x1600000, r3⟩, ⟨Cert.ReferenceIdeal.S1x1600000, r4⟩,
          ⟨Cert.ReferenceIdeal.S1x1600000, r5⟩]
          Cert.ReferenceIdeal.Facts₀.concatenates_S1x1600000_S1x1600000_S1x1600000_S1x1600000_S1x1600000_S1x1600000_S6x1600000_d0 := rfl

end Cert.KRCong

end
-- ==== Proof.Value.lean ====
/-
  The two idealized programs compute one array. The kernel program's result is six rows, each a score column of
  gathered entries of the third projection's three heads; a head's columns of the projection against the weights
  side by side are the projection against that head's weights alone. The reference's result is the same six rows
  over its own three products; the products are the same whole-array functions, the shared host functions (the
  norm, the neighbourhood sums, the gathers, the stacking) are the same terms, and the arguments agree.
-/
import proofs.«158881_j66597762892109_2_alg».proof.Proof.KiVal
import proofs.«158881_j66597762892109_2_alg».proof.Proof.RefRows
import proofs.«158881_j66597762892109_2_alg».proof.Proof.KRCong
import proofs.«158881_j66597762892109_2_alg».proof.Proof.Bridge

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)

variable (m : (ℓ : Loc nD τ sig) → Buf (Elt Ideal) ℓ) (ρ : Dev nD → PrngReg)

/-- The three heads' columns of the third projection are the projections against each head's own weights. -/
theorem head0 (c : Dev nD) : sl0 (F := Ideal) (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5)))) = (Cert.Spec.scaledProd (N := 100000) (K := 128) (C := 128) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (m ((c : Thread nD τ).loc main_arg3))) := Cert.Bridge.slice0_comb _ _ _ _ _ _
theorem head1 (c : Dev nD) : sl1 (F := Ideal) (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5)))) = (Cert.Spec.scaledProd (N := 100000) (K := 128) (C := 1) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (m ((c : Thread nD τ).loc main_arg4))) := Cert.Bridge.slice1_comb _ _ _ _ _ _
theorem head2 (c : Dev nD) : sl2 (F := Ideal) (Cert.Spec.scaledProd (N := 100000) (K := 128) (C := 256) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (combW (m ((c : Thread nD τ).loc main_arg3)) (m ((c : Thread nD τ).loc main_arg4)) (m ((c : Thread nD τ).loc main_arg5)))) = (Cert.Spec.scaledProd (N := 100000) (K := 128) (C := 1) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (m ((c : Thread nD τ).loc main_arg5))) := Cert.Bridge.slice2_comb _ _ _ _ _ _

/-- The kernel program's result: six rows of scores over the three heads. -/
theorem kernel_rows (c : Dev nD) : W9 m ρ c (Proc.devRef .tc main_v120)
    = stack6 (F := Ideal) (rowOf (F := Ideal) (Cert.Spec.expRowSum (E := 1600000) (K := 128) (gat128 (Cert.Spec.scaledProd (N := 100000) (K := 128) (C := 128) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (m ((c : Thread nD τ).loc main_arg3))) (m ((c : Thread nD τ).loc main_arg6))) (gat128 (Cert.Spec.scaledProd (N := 100000) (K := 128) (C := 128) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (m ((c : Thread nD τ).loc main_arg3))) (m ((c : Thread nD τ).loc main_arg7)))))
        (rowOf (F := Ideal) (Cert.Spec.expAdd (E := 1600000) (gat1 (Cert.Spec.scaledProd (N := 100000) (K := 128) (C := 1) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (m ((c : Thread nD τ).loc main_arg4))) (m ((c : Thread nD τ).loc main_arg6))) (gat1 (Cert.Spec.scaledProd (N := 100000) (K := 128) (C := 1) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (m ((c : Thread nD τ).loc main_arg4))) (m ((c : Thread nD τ).loc main_arg7)))))
        (rowOf (F := Ideal) (Cert.Spec.logisticMul (E := 1600000) (Ideal.ofBits .f32 0x3F800000#32) (gat1 (Cert.Spec.scaledProd (N := 100000) (K := 128) (C := 1) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (m ((c : Thread nD τ).loc main_arg5))) (m ((c : Thread nD τ).loc main_arg6))) (gat1 (Cert.Spec.scaledProd (N := 100000) (K := 128) (C := 1) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (m ((c : Thread nD τ).loc main_arg5))) (m ((c : Thread nD τ).loc main_arg7)))))
        (rowOf (F := Ideal) (Cert.Spec.expRowSumCol (E := 1600000) (K := 128) (gat128 (Cert.Spec.scaledProd (N := 100000) (K := 128) (C := 128) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (m ((c : Thread nD τ).loc main_arg3))) (m ((c : Thread nD τ).loc main_arg8))) (gat1 (Cert.Spec.scaledProd (N := 100000) (K := 128) (C := 1) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (m ((c : Thread nD τ).loc main_arg4))) (m ((c : Thread nD τ).loc main_arg9)))))
        (rowOf (F := Ideal) (Cert.Spec.expAdd (E := 1600000) (gat1 (Cert.Spec.scaledProd (N := 100000) (K := 128) (C := 1) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (m ((c : Thread nD τ).loc main_arg4))) (m ((c : Thread nD τ).loc main_arg8))) (gat1 (Cert.Spec.scaledProd (N := 100000) (K := 128) (C := 1) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (m ((c : Thread nD τ).loc main_arg4))) (m ((c : Thread nD τ).loc main_arg9)))))
        (rowOf (F := Ideal) (Cert.Spec.logisticMul (E := 1600000) (Ideal.ofBits .f32 0x3F800000#32) (gat1 (Cert.Spec.scaledProd (N := 100000) (K := 128) (C := 1) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (m ((c : Thread nD τ).loc main_arg5))) (m ((c : Thread nD τ).loc main_arg6))) (gat1 (Cert.Spec.scaledProd (N := 100000) (K := 128) (C := 1) (agg (m ((c : Thread nD τ).loc main_arg6)) (m ((c : Thread nD τ).loc main_arg7)) (Cert.Spec.scaledProd (N := 100000) (K := 128) (C := 128) (agg (m ((c : Thread nD τ).loc main_arg6)) (m ((c : Thread nD τ).loc main_arg7)) (Cert.Spec.scaledProd (N := 100000) (K := 128) (C := 128) (m ((c : Thread nD τ).loc main_arg0)) (colOf (nrm (m ((c : Thread nD τ).loc main_arg6)))) (m ((c : Thread nD τ).loc main_arg1)))) (colOf (mulf (nrm (m ((c : Thread nD τ).loc main_arg6))) (nrm (m ((c : Thread nD τ).loc main_arg6))))) (m ((c : Thread nD τ).loc main_arg2)))) (colOf (nrm (m ((c : Thread nD τ).loc main_arg6)))) (m ((c : Thread nD τ).loc main_arg5))) (m ((c : Thread nD τ).loc main_arg9))))) := by
  rw [W9_v120, W8_out0, W8_out1, W8_out2, W8_out3, W8_out4, W8_out5, head0 m c, head1 m c, head2 m c]

end Cert.KernelIdeal.Hand

namespace Cert.Proof.Val

open Idealize.ShloMosaic Idealize.ShloMosaic.TcCoe Idealize.ShloMosaic.StableHlo Idealize.SL.Sem
open Cert.KernelIdeal.Hand

/-- From memories that agree on the ten arguments, the kernel program's result buffer ends holding what the
    reference's run computes. -/
theorem value_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    W9 m ρ c (Proc.devRef .tc Cert.KernelIdeal.main_v120) = Cert.ReferenceIdeal.Value.res_main_v163 (launchContents m' c) := by
  rw [kernel_rows, Cert.RefRows.res163_rows (launchContents m' c) Cert.KernelIdeal.Facts₀.shapeCasts_S1600000x1_S1600000]
  have e0 : launchContents m' c (Proc.devRef .tc Cert.ReferenceIdeal.main_arg0) = m ((c.tc : Thread Cert.KernelIdeal.nD Cert.KernelIdeal.τ).loc Cert.KernelIdeal.main_arg0) := h0
  have e1 : launchContents m' c (Proc.devRef .tc Cert.ReferenceIdeal.main_arg1) = m ((c.tc : Thread Cert.KernelIdeal.nD Cert.KernelIdeal.τ).loc Cert.KernelIdeal.main_arg1) := h1
  have e2 : launchContents m' c (Proc.devRef .tc Cert.ReferenceIdeal.main_arg2) = m ((c.tc : Thread Cert.KernelIdeal.nD Cert.KernelIdeal.τ).loc Cert.KernelIdeal.main_arg2) := h2
  have e3 : launchContents m' c (Proc.devRef .tc Cert.ReferenceIdeal.main_arg3) = m ((c.tc : Thread Cert.KernelIdeal.nD Cert.KernelIdeal.τ).loc Cert.KernelIdeal.main_arg3) := h3
  have e4 : launchContents m' c (Proc.devRef .tc Cert.ReferenceIdeal.main_arg4) = m ((c.tc : Thread Cert.KernelIdeal.nD Cert.KernelIdeal.τ).loc Cert.KernelIdeal.main_arg4) := h4
  have e5 : launchContents m' c (Proc.devRef .tc Cert.ReferenceIdeal.main_arg5) = m ((c.tc : Thread Cert.KernelIdeal.nD Cert.KernelIdeal.τ).loc Cert.KernelIdeal.main_arg5) := h5
  have e6 : launchContents m' c (Proc.devRef .tc Cert.ReferenceIdeal.main_arg6) = m ((c.tc : Thread Cert.KernelIdeal.nD Cert.KernelIdeal.τ).loc Cert.KernelIdeal.main_arg6) := h6
  have e7 : launchContents m' c (Proc.devRef .tc Cert.ReferenceIdeal.main_arg7) = m ((c.tc : Thread Cert.KernelIdeal.nD Cert.KernelIdeal.τ).loc Cert.KernelIdeal.main_arg7) := h7
  have e8 : launchContents m' c (Proc.devRef .tc Cert.ReferenceIdeal.main_arg8) = m ((c.tc : Thread Cert.KernelIdeal.nD Cert.KernelIdeal.τ).loc Cert.KernelIdeal.main_arg8) := h8
  have e9 : launchContents m' c (Proc.devRef .tc Cert.ReferenceIdeal.main_arg9) = m ((c.tc : Thread Cert.KernelIdeal.nD Cert.KernelIdeal.τ).loc Cert.KernelIdeal.main_arg9) := h9
  rw [e0, e1, e2, e3, e4, e5, e6, e7, e8, e9]
  simp only [Cert.KRCong.stack6_eq, rowOf, Cert.KRCong.row_eq, Cert.KRCong.gat128_eq, Cert.KRCong.gat1_eq, Cert.KRCong.agg_eq, Cert.KRCong.colOf_eq, Cert.KRCong.nrm_eq, Cert.RefRows.gat128R, Cert.RefRows.gat1R]

end Cert.Proof.Val

end
-- ==== Proof.lean ====
/-
  The certificate of the graph network's forward pass: the Pallas program (three fused scale-and-project regions and
  one edge-scoring region among host gathers and neighbourhood sums) against its jnp reference.

  * The three frames. The kernel program, read at the word level and at the exact instance, is nine segments — five
    host stretches and four pipelined regions —; its run is the launch theorem for several regions over each
    region's body run, and no host operation or output window writes an argument. The reference is a line of host
    operations; its frame is its generated run with the result dropped.
  * The idealization rewrote nothing, so there is nothing to preserve.
  * On the extended reals both programs compute one array from arguments that agree: regrouping the two norm
    factors of the second layer ((x·n)·n = x·(n·n)), a head's columns of the product against the weights laid side
    by side, a sum over an axis of extent one, a factor or divisor one, and the logistic function against its
    expansion; none of these needs a finite input, so the precondition is never opened.
-/
import proofs.«158881_j66597762892109_2_alg».proof.Defs
import proofs.«158881_j66597762892109_2_alg».proof.Proof.Gen.Kernel
import proofs.«158881_j66597762892109_2_alg».proof.Proof.Gen.KernelIdeal
import proofs.«158881_j66597762892109_2_alg».proof.Proof.Gen.ReferenceIdeal
import proofs.«158881_j66597762892109_2_alg».proof.Proof.Gen.ReferenceIdeal.Run
import proofs.«158881_j66597762892109_2_alg».proof.Proof.Gen.Pre_finite_inputs
import proofs.«158881_j66597762892109_2_alg».proof.Proof.KArgs
import proofs.«158881_j66597762892109_2_alg».proof.Proof.KiArgs
import proofs.«158881_j66597762892109_2_alg».proof.Proof.Value
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the kernel program's result buffer ends at the last boundary's contents, which are the
    reference's result (`value_eq`). -/
theorem algebraic : Cert.algebraic_KernelIdeal_ReferenceIdeal := by
  intro m ρ m' ρ' _ hagree
  refine ⟨fun c => Cert.KernelIdeal.Hand.W9 m ρ c (Proc.devRef .tc Cert.KernelIdeal.main_v120), ?_, ?_⟩
  · exact (θ_run Cert.KernelIdeal.defs _ _).mono (fun r h c => ⟨h c _ (Cert.KernelIdeal.Hand.mem_uc Cert.KernelIdeal.main_v120 (by decide)),
      (h c _ (Cert.KernelIdeal.Hand.mem_uc Cert.KernelIdeal.main_arg0 (by decide))).trans (Cert.KernelIdeal.Hand.W9_main_arg0 m ρ c),
      (h c _ (Cert.KernelIdeal.Hand.mem_uc Cert.KernelIdeal.main_arg1 (by decide))).trans (Cert.KernelIdeal.Hand.W9_main_arg1 m ρ c),
      (h c _ (Cert.KernelIdeal.Hand.mem_uc Cert.KernelIdeal.main_arg2 (by decide))).trans (Cert.KernelIdeal.Hand.W9_main_arg2 m ρ c),
      (h c _ (Cert.KernelIdeal.Hand.mem_uc Cert.KernelIdeal.main_arg3 (by decide))).trans (Cert.KernelIdeal.Hand.W9_main_arg3 m ρ c),
      (h c _ (Cert.KernelIdeal.Hand.mem_uc Cert.KernelIdeal.main_arg4 (by decide))).trans (Cert.KernelIdeal.Hand.W9_main_arg4 m ρ c),
      (h c _ (Cert.KernelIdeal.Hand.mem_uc Cert.KernelIdeal.main_arg5 (by decide))).trans (Cert.KernelIdeal.Hand.W9_main_arg5 m ρ c),
      (h c _ (Cert.KernelIdeal.Hand.mem_uc Cert.KernelIdeal.main_arg6 (by decide))).trans (Cert.KernelIdeal.Hand.W9_main_arg6 m ρ c),
      (h c _ (Cert.KernelIdeal.Hand.mem_uc Cert.KernelIdeal.main_arg7 (by decide))).trans (Cert.KernelIdeal.Hand.W9_main_arg7 m ρ c),
      (h c _ (Cert.KernelIdeal.Hand.mem_uc Cert.KernelIdeal.main_arg8 (by decide))).trans (Cert.KernelIdeal.Hand.W9_main_arg8 m ρ c),
      (h c _ (Cert.KernelIdeal.Hand.mem_uc Cert.KernelIdeal.main_arg9 (by decide))).trans (Cert.KernelIdeal.Hand.W9_main_arg9 m ρ c)⟩) (Cert.KernelIdeal.Hand.run_all m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9⟩ := hagree c
    exact (Cert.Proof.Val.value_eq m ρ m' c h0 h1 h2 h3 h4 h5 h6 h7 h8 h9).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
